-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x800000 : Shape := ⟨2, ![2, 800000]⟩
abbrev S800000 : Shape := ⟨1, ![800000]⟩
abbrev S1024x256 : Shape := ⟨2, ![1024, 256]⟩
abbrev S256 : Shape := ⟨1, ![256]⟩
abbrev S256x256 : Shape := ⟨2, ![256, 256]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256 .f32) (main_arg8 : FVec F S256 .f32) (main_arg9 : FVec F S256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x1024 .f32) (main_arg1 : IVec S2x800000 32) (main_arg2 : FVec F S800000 .f32) (main_arg3 : FVec F S1024x256 .f32) (main_arg4 : FVec F S256 .f32) (main_arg5 : FVec F S256x256 .f32) (main_arg6 : FVec F S256 .f32) (main_arg7 : FVec F S256 .f32) (main_arg8 : FVec F S256 .f32) (main_arg9 : FVec F S256 .f32) (main_arg10 : FVec F S256 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x1024 : Shape := ⟨2, ![50000, 1024]⟩
abbrev S2x800000 : Shape := ⟨2, ![2, 800000]⟩
abbrev S800000 : Shape := ⟨1, ![800000]⟩
abbrev S1024x256 : Shape := ⟨2, ![1024, 256]⟩
abbrev S256 : Shape := ⟨1, ![256]⟩
abbrev S256x256 : Shape := ⟨2, ![256, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x1024 : Shape := ⟨2, ![1000, 1024]⟩
abbrev S1000x256 : Shape := ⟨2, ![1000, 256]⟩
abbrev S850000x256 : Shape := ⟨2, ![850000, 256]⟩
abbrev S1x256 : Shape := ⟨2, ![1, 256]⟩
abbrev S1000 : Shape := ⟨1, ![1000]⟩
abbrev S1000x1 : Shape := ⟨2, ![1000, 1]⟩

abbrev nBuf : Space → Nat
  | .hbm => 111
  | .vmem => 32
  | .smem => 0
  | _ => 0

abbrev bufTy : (tb : Table) → Fin (tcTables nBuf tb) → BufTy
  | .hbm, ⟨0, _⟩ => ⟨S50000x1024, .f32⟩
  | .hbm, ⟨1, _⟩ => ⟨S2x800000, .i32⟩
  | .hbm, ⟨2, _⟩ => ⟨S800000, .f32⟩
  | .hbm, ⟨3, _⟩ => ⟨S1024x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S1024x256, .bf16⟩
  | .hbm, ⟨57, _⟩ => ⟨S256x256, .bf16⟩
  | .hbm, ⟨58, _⟩ => ⟨S50000x256, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x256, .f32⟩
  | .hbm, ⟨68, _⟩ => ⟨S850000x1, .f32⟩
  | .hbm, ⟨69, _⟩ => ⟨S850000x256, .f32⟩
  | .hbm, ⟨70, _⟩ => ⟨S850000x256, .f32⟩
  | .hbm, ⟨71, _⟩ => ⟨S_, .f32⟩
  | .hbm, ⟨72, _⟩ => ⟨S50000x256, .f32⟩
  | .hbm, ⟨73, _⟩ => ⟨S850000x1, .i32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x256, .f32⟩
  | .hbm, ⟨87, _⟩ => ⟨S850000x1, .f32⟩
  | .hbm, ⟨88, _⟩ => ⟨S850000x256, .f32⟩
  | .hbm, ⟨89, _⟩ => ⟨S850000x256, .f32⟩
  | .hbm, ⟨90, _⟩ => ⟨S_, .f32⟩
  | .hbm, ⟨91, _⟩ => ⟨S50000x256, .f32⟩
  | .hbm, ⟨92, _⟩ => ⟨S850000x1, .i32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S1x256, .f32⟩
  | .hbm, ⟨97, _⟩ => ⟨S1x256, .f32⟩
  | .hbm, ⟨98, _⟩ => ⟨S_, .f32⟩
  | .hbm, ⟨99, _⟩ => ⟨S1x256, .f32⟩
  | .hbm, ⟨100, _⟩ => ⟨S1x256, .f32⟩
  | .hbm, ⟨101, _⟩ => ⟨S_, .f32⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S50000x256, .f32⟩
  | .local _ .vmem, ⟨0, _⟩ => ⟨S1000x1024, .f32⟩
  | .local _ .vmem, ⟨1, _⟩ => ⟨S1000x1024, .f32⟩
  | .local _ .vmem, ⟨2, _⟩ => ⟨S1024x256, .bf16⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S256x256, .bf16⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1x256, .f32⟩
  | .local _ .vmem, ⟨18, _⟩ => ⟨S1000x256, .f32⟩
  | .local _ .vmem, ⟨19, _⟩ => ⟨S1000x256, .f32⟩
  | .local _ .vmem, ⟨20, _⟩ => ⟨S1x256, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1000x256, .f32⟩
  | .local _ .vmem, ⟨31, _⟩ => ⟨S1000x256, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67_0 : Ref sig .tc := ⟨.hbm, 95, rfl⟩
abbrev main_v67_1 : Ref sig .tc := ⟨.hbm, 96, rfl⟩
abbrev main_v67_2 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg7_0 : Ref sig .tc := ⟨.vmem, 30, rfl⟩
abbrev cc4_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem4_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem7_0 : DmaSem sig := 30
abbrev cc4_sem7_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1000x256_S256 : S1000x256.Reduces [0] S256
  bcast_S_S1x256 : S_.BroadcastsInDim S1x256 (![] : Fin 0 → Fin S1x256.rank)
  reduces_S1000x256_S1000 : S1000x256.Reduces [1] S1000
  shapeCasts_S1000_S1000x1 : S1000.ShapeCasts S1000x1
  broadcasts_S1000x1_S1000x256 : S1000x1.Broadcasts S1000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x1024_S1024x256_S1000x256_1_0_0_1_n_n_wf : DotDims.WF S1000x1024 S1024x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S50000x256.size a
  hwx3_2 : ∀ i : grid3.Coords, EltTy.bits .f32 = 32 ∨ (Rect.block (s := S50000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1000x256.size a ≤ S50000x256.size a
  hwx4_7 : ∀ i : grid4.Coords, EltTy.bits .f32 = 32 ∨ (Rect.block (s := S50000x256) S1000x256.size (cc4_transform_7 i) (hinb4_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67_0) S1000x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67_1) S1x256.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67_2) S1x256.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67_0) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78) S1000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x1024 : Shape := ⟨2, ![50000, 1024]⟩
abbrev S2x800000 : Shape := ⟨2, ![2, 800000]⟩
abbrev S800000 : Shape := ⟨1, ![800000]⟩
abbrev S1024x256 : Shape := ⟨2, ![1024, 256]⟩
abbrev S256 : Shape := ⟨1, ![256]⟩
abbrev S256x256 : Shape := ⟨2, ![256, 256]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩

abbrev nBuf : Space → Nat
  | .hbm => 206
  | .vmem => 0
  | .smem => 0
  | _ => 0

abbrev hbmTy0_0 (i : Nat) : BufTy := match i % 128 with
  | 0 => ⟨S50000x1024, .f32⟩
  | 1 => ⟨S2x800000, .i32⟩
  | 2 => ⟨S800000, .f32⟩
  | 3 => ⟨S1024x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x800000, .i32⟩
  | 80 => ⟨S800000, .i32⟩
  | 81 => ⟨S1x800000, .i32⟩
  | 82 => ⟨S800000, .i32⟩
  | 83 => ⟨S50000, .i32⟩
  | 84 => ⟨S850000, .i32⟩
  | 85 => ⟨S850000, .i32⟩
  | 86 => ⟨S_, .f32⟩
  | 87 => ⟨S50000, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .f32⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S850000, .f32⟩
  | 124 => ⟨S50000x256, .f32⟩
  | 125 => ⟨S_, .i32⟩
  | 126 => ⟨S850000, .i32⟩
  | 127 => ⟨S850000, .i1⟩
  | _ => ⟨S50000x1024, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x256, .f32⟩
  | 6 => ⟨S850000x1, .f32⟩
  | 7 => ⟨S850000x256, .f32⟩
  | 8 => ⟨S850000x256, .f32⟩
  | 9 => ⟨S_, .f32⟩
  | 10 => ⟨S50000x256, .f32⟩
  | 11 => ⟨S850000x1, .i32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S50000x256, .f32⟩
  | 26 => ⟨S50000x256, .f32⟩
  | 27 => ⟨S50000x256, .f32⟩
  | 28 => ⟨S_, .f32⟩
  | 29 => ⟨S256, .f32⟩
  | 30 => ⟨S_, .f32⟩
  | 31 => ⟨S256, .f32⟩
  | 32 => ⟨S256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x256, .f32⟩
  | 56 => ⟨S50000x256, .f32⟩
  | 57 => ⟨S50000x256, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x256, .f32⟩
  | 65 => ⟨S50000x256, .f32⟩
  | 66 => ⟨S_, .f32⟩
  | 67 => ⟨S50000x1, .f32⟩
  | 68 => ⟨S50000x1, .f32⟩
  | 69 => ⟨S50000x1, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_call2_v0 : Ref sig .tc := ⟨.hbm, 101, rfl⟩
abbrev main_call2_v1 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_17 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_c_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call3_cst : Ref sig .tc := ⟨.hbm, 144, rfl⟩
abbrev main_call3_v0 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_24 : Ref sig .tc := ⟨.hbm, 156, rfl⟩
abbrev main_v111 : Ref sig .tc := ⟨.hbm, 157, rfl⟩
abbrev main_cst_25 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_26 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_27 : Ref sig .tc := ⟨.hbm, 177, rfl⟩
abbrev main_v129 : Ref sig .tc := ⟨.hbm, 178, rfl⟩
abbrev main_v130 : Ref sig .tc := ⟨.hbm, 179, rfl⟩
abbrev main_cst_28 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_29 : Ref sig .tc := ⟨.hbm, 186, rfl⟩
abbrev main_v136 : Ref sig .tc := ⟨.hbm, 187, rfl⟩
abbrev main_v137 : Ref sig .tc := ⟨.hbm, 188, rfl⟩
abbrev main_cst_30 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_31 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  reducesTo_S50000x256_S50000_d1 : S50000x256.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1024_S1024x256_S50000x256_1_0_0_1_n_n_wf : DotDims.WF S50000x1024 S1024x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel's run with its RESULT named.

  The generated frame proves that every weakly fair execution of @main terminates with the argument arrays unchanged; on the
  way it shows that the final memory of core `c` is the fold `Gen.W11 m ρ c` of the launch memory through the host stretches
  and the five regions.  Here the same run is posted once more, keeping what the fold says about the result array
  `main_v78` beside the arguments: the result ends at `Gen.W11 m ρ c main_v78`.
-/
import proofs.«148368_j71451075936454_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the fold's contents and
    every argument array as launched. -/
theorem run_result : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.Claims.lean ====
/-
  The five claims of the certificate, assembled.

  The two frame claims of the kernel and of its idealization are the generated frame certificates; the reference's
  frame claim is its run with the result dropped; the idealization rewrote nothing, so it preserves the kernel
  trivially. The algebraic claim: both programs run; the kernel's result array ends at the fold of the launch memory
  through its host stretches and five regions, the reference's at its last stage of the arguments; given (kv) that
  the fold's result IS that last stage of the kernel's own arguments, and arguments that agree, the two results are
  equal.
-/
import proofs.«148368_j71451075936454_1_alg».proof.Defs
import proofs.«148368_j71451075936454_1_alg».proof.Proof.Gen.Kernel.Frame
import proofs.«148368_j71451075936454_1_alg».proof.Proof.Gen.KernelIdeal.Frame
import proofs.«148368_j71451075936454_1_alg».proof.Proof.Gen.ReferenceIdeal
import proofs.«148368_j71451075936454_1_alg».proof.Proof.Gen.Pre_finite_inputs
import proofs.«148368_j71451075936454_1_alg».proof.Proof.KRun
import proofs.«148368_j71451075936454_1_alg».proof.Proof.RefRun
import proofs.«148368_j71451075936454_1_alg».proof.Proof.RefReadEq

noncomputable section

namespace Cert.Proof.Claims

open Idealize.ShloMosaic Idealize.ShloMosaic.TcCoe Idealize.SL.Sem

/-- The kernel as printed runs and leaves its arguments unchanged: the generated frame certificate. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values both programs run, end with equal results and unchanged arguments — given that the kernel's
    result array, the fold of its launch memory through the host stretches and the five regions, is the reference's
    last stage of the kernel's own arguments (kv). -/
theorem algebraic
    (kv : ∀ (m : (ℓ : Loc Cert.KernelIdeal.nD Cert.KernelIdeal.τ Cert.KernelIdeal.sig) → Buf (Elt Ideal) ℓ)
      (ρ : Dev Cert.KernelIdeal.nD → PrngReg), Cert.Pre_KernelIdeal m → ∀ c : Dev Cert.KernelIdeal.nD,
      Cert.KernelIdeal.Gen.W11 m ρ c (Proc.devRef .tc Cert.KernelIdeal.main_v78)
        = Cert.ReferenceIdeal.ReadP.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) :
    Cert.algebraic_KernelIdeal_ReferenceIdeal := by
  intro m ρ m' ρ' hpre hagree
  refine ⟨fun c => Cert.KernelIdeal.Gen.W11 m ρ c (Proc.devRef .tc Cert.KernelIdeal.main_v78),
    Cert.KernelIdeal.KRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v152_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (kv m ρ hpre c).symm

end Cert.Proof.Claims

end
-- ==== Proof.FoldDefs.lean ====
/-
  Three functions both programs apply, named once.

  The edge aggregation — gather the source rows of a node matrix, scale each by its edge's coefficient, add into the target
  rows of a zero matrix — and the batch mean and variance computed from column sums (the sums over the number of rows; the
  mean square less the squared mean).
-/
import proofs.«148368_j71451075936454_1_alg».proof.Proof.Gen.KernelIdeal
import Idealize.ShloMosaic.PureOps.Ideal

noncomputable section

namespace Cert.KernelIdeal.Fold

open Cert.KernelIdeal Cert.KernelIdeal.Gen Idealize.ShloMosaic Idealize.ShloMosaic.TcCoe

/-! ## The aggregation, and the batch statistics, as functions of what they read -/

/-- A list of row numbers laid down a column, a negative entry first wrapped round by the number of nodes. -/
def wrapCol (v : (⟨S850000, .i32⟩ : BufTy).Contents (Elt Ideal)) : (⟨S850000x1, .i32⟩ : BufTy).Contents (Elt Ideal) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- THE AGGREGATION of a node matrix `h` over the edge list: row `src e` of `h`, scaled by `nrm e`, added into row `dst e`
    of a zero matrix, for every edge `e`. -/
def agg (h : (⟨S50000x256, .f32⟩ : BufTy).Contents (Elt Ideal)) (src dst : (⟨S850000, .i32⟩ : BufTy).Contents (Elt Ideal))
    (nrm : (⟨S850000, .f32⟩ : BufTy).Contents (Elt Ideal)) : (⟨S50000x256, .f32⟩ : BufTy).Contents (Elt Ideal) :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 dst)
    (mulf (Host.gather gather_S50000x256_S850000x1_S850000x256_1_0_n_n_0_1_1256 h (wrapCol src))
      (broadcastInDim S850000x256 ![0, 1] bcast_S850000x1_S850000x256_0_1
        (broadcastInDim S850000x1 ![0] bcast_S850000_S850000x1_0 nrm)))

/-- The batch mean from the column sums: the sums over the number of rows. -/
def meanOf (s : (⟨S1x256, .f32⟩ : BufTy).Contents (Elt Ideal)) : (⟨S1x256, .f32⟩ : BufTy).Contents (Elt Ideal) :=
  Host.divf s (broadcastInDim S1x256 ![] bcast_S_S1x256 (constant (F := Ideal) S_ .f32 0x47435000#32))

/-- The batch variance from the column sums of the entries and of their squares: the mean square less the squared mean. -/
def varOf (s q : (⟨S1x256, .f32⟩ : BufTy).Contents (Elt Ideal)) : (⟨S1x256, .f32⟩ : BufTy).Contents (Elt Ideal) :=
  subf (Host.divf q (broadcastInDim S1x256 ![] bcast_S_S1x256 (constant (F := Ideal) S_ .f32 0x47435000#32)))
    (mulf (meanOf s) (meanOf s))

end Cert.KernelIdeal.Fold

end
-- ==== Proof.Fold.lean ====
/-
  The buffers of the idealized kernel at every boundary of @main, read back to the launch memory.

  @main is six stretches of host operations around five regions.  The contents of core `c`'s buffers at each boundary
  are a fold of the launch memory (`Gen.W0` … `Gen.W11`).  This module reads the fold: what each host stretch writes, as a
  function of what it finds; which buffers a stretch or a region leaves alone; and, for the stretch before the first
  region, its results as the reference's own stages of the argument arrays (the two programs share that text).

  The edge aggregation, the batch mean and the batch variance are the functions named in the module this one imports
  (`agg`, `meanOf`, `varOf`); both layers of both programs apply the first.
-/
import proofs.«148368_j71451075936454_1_alg».proof.Proof.Gen.KernelIdeal.Frame
import proofs.«148368_j71451075936454_1_alg».proof.Proof.RefRead
import proofs.«148368_j71451075936454_1_alg».proof.Proof.FoldDefs

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A host stretch leaves alone every buffer none of its operations writes. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first region: the edge lists, the edge coefficients, the weights -/

/-! ## The first stretch: the edge lists with the self-loops appended, the edge weights, the degrees -/

open Cert.ReferenceIdeal.ReadP in
/-- The source list, the self-loops appended, is the reference's. -/
theorem W1_src : W1 m ρ c (Proc.devRef .tc main_v5) = val_main_v5 (F := Ideal) (m ((c : Thread nD τ).loc main_arg1)) := by
  show StableHlo.after hostOps0 (W0 m ρ c) (Proc.devRef .tc main_v5) = _
  after_results
  simp only [val_main_v0, val_main_v1, val_main_v2, val_main_v3, val_main_v4, val_main_v5]
  first | done | rfl

open Cert.ReferenceIdeal.ReadP in
/-- The target list, the self-loops appended, is the reference's. -/
theorem W1_dst : W1 m ρ c (Proc.devRef .tc main_v6) = val_main_v6 (F := Ideal) (m ((c : Thread nD τ).loc main_arg1)) := by
  show StableHlo.after hostOps0 (W0 m ρ c) (Proc.devRef .tc main_v6) = _
  after_results
  simp only [val_main_v0, val_main_v1, val_main_v2, val_main_v3, val_main_v4, val_main_v5, val_main_v6]
  first | done | rfl

open Cert.ReferenceIdeal.ReadP in
/-- The edge weights, the self-loops at weight one, are the reference's. -/
theorem W1_wall : W1 m ρ c (Proc.devRef .tc main_v8) = val_main_v8 (F := Ideal) (m ((c : Thread nD τ).loc main_arg2)) := by
  show StableHlo.after hostOps0 (W0 m ρ c) (Proc.devRef .tc main_v8) = _
  after_results
  simp only [val_main_v0, val_main_v1, val_main_v2, val_main_v3, val_main_v4, val_main_v5, val_main_v6, val_main_cst, val_main_v7, val_main_v8]
  first | done | rfl

open Cert.ReferenceIdeal.ReadP in
/-- Where the weighted degree is positive: the reference's. -/
theorem W1_pos : W1 m ρ c (Proc.devRef .tc main_v13) = val_main_v13 (F := Ideal) (m ((c : Thread nD τ).loc main_arg1)) (m ((c : Thread nD τ).loc main_arg2)) := by
  show StableHlo.after hostOps0 (W0 m ρ c) (Proc.devRef .tc main_v13) = _
  after_results
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13]
  first | done | rfl

open Cert.ReferenceIdeal.ReadP in
/-- The inverse square root of the degree, kept away from zero: the reference's. -/
theorem W1_rs : W1 m ρ c (Proc.devRef .tc main_v16) = val_main_v16 (F := Ideal) (m ((c : Thread nD τ).loc main_arg1)) (m ((c : Thread nD τ).loc main_arg2)) := by
  show StableHlo.after hostOps0 (W0 m ρ c) (Proc.devRef .tc main_v16) = _
  after_results
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13, val_main_cst_2, val_main_v14, val_main_v15, val_main_v16]
  first | done | rfl

open Cert.ReferenceIdeal.ReadP in
/-- The constant zero the degree's inverse root falls back to. -/
theorem W1_zero : W1 m ρ c (Proc.devRef .tc main_cst_3) = val_main_cst_3 (F := Ideal)  := by
  show StableHlo.after hostOps0 (W0 m ρ c) (Proc.devRef .tc main_cst_3) = _
  after_results
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13, val_main_cst_2, val_main_v14, val_main_v15, val_main_v16, val_main_cst_3]
  first | done | rfl

/-! ## The second stretch: the inverse root of the degree, zero where the degree is not positive -/

theorem keep_main_v5_1_2 : W2 m ρ c (Proc.devRef .tc main_v5) = W1 m ρ c (Proc.devRef .tc main_v5) := by host_keeps hostOps0_1
theorem keep_main_v6_1_2 : W2 m ρ c (Proc.devRef .tc main_v6) = W1 m ρ c (Proc.devRef .tc main_v6) := by host_keeps hostOps0_1
theorem keep_main_v8_1_2 : W2 m ρ c (Proc.devRef .tc main_v8) = W1 m ρ c (Proc.devRef .tc main_v8) := by host_keeps hostOps0_1

/-- Contents carried to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

/-- Contents read through a literal typed reference are the contents. -/
theorem ofBuf_self {T : BufTy} (r : Ref sig .tc) (p1 : r.ty = T) (p2 : r.space ≠ .host) (p3 : r.isScoped = false)
    (X : T.Contents (Elt Ideal)) (X' : r.ty.Contents (Elt Ideal)) (h : HEq X' X) :
    (StableHlo.TRef.of r p1 p2 p3).ofBuf X' = X := eq_of_heq ((cast_heq _ _).trans h)

open Cert.ReferenceIdeal.ReadP in
/-- The node coefficient `dinv` — the inverse root where the degree is positive, zero elsewhere — is the reference's. -/
theorem W2_dinv : W2 m ρ c (Proc.devRef .tc main_v17) = val_main_v17 (F := Ideal) (m ((c : Thread nD τ).loc main_arg1)) (m ((c : Thread nD τ).loc main_arg2)) := by
  have e1 := W1_pos m ρ c
  have e2 := W1_rs m ρ c
  have e3 := W1_zero m ρ c
  show StableHlo.after hostOps0_1 (W1 m ρ c) (Proc.devRef .tc main_v17) = _
  generalize W1 m ρ c = U at e1 e2 e3 ⊢
  after_results
  rw [e1, e2, e3]
  simp only [val_main_v17, val_main_call0_v1, val_main_call0_v0, ofBuf_toBuf]
  refine eq_of_heq ((cast_heq _ _).trans (heq_of_eq ?_))
  rw [ofBuf_self main_v13 _ _ _ (val_main_v13 (F := Ideal) (m ((c : Thread nD τ).loc main_arg1)) (m ((c : Thread nD τ).loc main_arg2))) _ HEq.rfl,
    ofBuf_self main_v16 _ _ _ (val_main_v16 (F := Ideal) (m ((c : Thread nD τ).loc main_arg1)) (m ((c : Thread nD τ).loc main_arg2))) _ HEq.rfl,
    ofBuf_self main_cst_3 _ _ _ (val_main_cst_3 (F := Ideal)) _ HEq.rfl]

/-! ## The third stretch: the edge coefficients, and the weights in the matmul's format -/

theorem keep_main_v5_2_3 : W3 m ρ c (Proc.devRef .tc main_v5) = W2 m ρ c (Proc.devRef .tc main_v5) := by host_keeps hostOps0_2
theorem keep_main_v6_2_3 : W3 m ρ c (Proc.devRef .tc main_v6) = W2 m ρ c (Proc.devRef .tc main_v6) := by host_keeps hostOps0_2

open Cert.ReferenceIdeal.ReadP in
/-- The source list at the first region's entry. -/
theorem W3_src : W3 m ρ c (Proc.devRef .tc main_v5) = val_main_v5 (F := Ideal) (m ((c : Thread nD τ).loc main_arg1)) :=
  (keep_main_v5_2_3 m ρ c).trans ((keep_main_v5_1_2 m ρ c).trans (W1_src m ρ c))

open Cert.ReferenceIdeal.ReadP in
/-- The target list at the first region's entry. -/
theorem W3_dst : W3 m ρ c (Proc.devRef .tc main_v6) = val_main_v6 (F := Ideal) (m ((c : Thread nD τ).loc main_arg1)) :=
  (keep_main_v6_2_3 m ρ c).trans ((keep_main_v6_1_2 m ρ c).trans (W1_dst m ρ c))

set_option maxHeartbeats 2000000 in
open Cert.ReferenceIdeal.ReadP in
/-- THE EDGE COEFFICIENTS `dinv[src] · w · dinv[dst]` are the reference's. -/
theorem W3_nrm : W3 m ρ c (Proc.devRef .tc main_v33) = val_main_v33 (F := Ideal) (m ((c : Thread nD τ).loc main_arg1)) (m ((c : Thread nD τ).loc main_arg2)) := by
  have e1 := W2_dinv m ρ c
  have e2 := (keep_main_v5_1_2 m ρ c).trans (W1_src m ρ c)
  have e3 := (keep_main_v6_1_2 m ρ c).trans (W1_dst m ρ c)
  have e4 := (keep_main_v8_1_2 m ρ c).trans (W1_wall m ρ c)
  show StableHlo.after hostOps0_2 (W2 m ρ c) (Proc.devRef .tc main_v33) = _
  generalize W2 m ρ c = U at e1 e2 e3 e4 ⊢
  after_results
  rw [e1, e2, e3, e4]
  simp only [val_main_c, val_main_v18, val_main_v19, val_main_c_4, val_main_v20, val_main_v21, val_main_v22, val_main_v23, val_main_v24, val_main_v25, val_main_c_5, val_main_v26, val_main_v27, val_main_c_6, val_main_v28, val_main_v29, val_main_v30, val_main_v31, val_main_v32, val_main_v33]
  first | done | rfl

theorem keep_main_arg3_0_2 : W2 m ρ c (Proc.devRef .tc main_arg3) = W0 m ρ c (Proc.devRef .tc main_arg3) :=
  calc W2 m ρ c (Proc.devRef .tc main_arg3)
    _ = W1 m ρ c (Proc.devRef .tc main_arg3) := by host_keeps hostOps0_1
    _ = W0 m ρ c (Proc.devRef .tc main_arg3) := by host_keeps hostOps0

theorem keep_main_arg5_0_2 : W2 m ρ c (Proc.devRef .tc main_arg5) = W0 m ρ c (Proc.devRef .tc main_arg5) :=
  calc W2 m ρ c (Proc.devRef .tc main_arg5)
    _ = W1 m ρ c (Proc.devRef .tc main_arg5) := by host_keeps hostOps0_1
    _ = W0 m ρ c (Proc.devRef .tc main_arg5) := by host_keeps hostOps0

theorem keep_main_arg0_0_3 : W3 m ρ c (Proc.devRef .tc main_arg0) = W0 m ρ c (Proc.devRef .tc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0

/-- The first layer's weights, in the matmul's number format. -/
theorem W3_w1 : W3 m ρ c (Proc.devRef .tc main_v34) = truncf (F := Ideal) (s := S1024x256) (φ := .f32) .bf16 (m ((c : Thread nD τ).loc main_arg3)) bitsLt_bf16_f32 := by
  have e1 := keep_main_arg3_0_2 m ρ c
  show StableHlo.after hostOps0_2 (W2 m ρ c) (Proc.devRef .tc main_v34) = _
  generalize W2 m ρ c = U at e1 ⊢
  after_results
  rw [e1]

/-- The second layer's weights, in the matmul's number format. -/
theorem W3_w2 : W3 m ρ c (Proc.devRef .tc main_v35) = truncf (F := Ideal) (s := S256x256) (φ := .f32) .bf16 (m ((c : Thread nD τ).loc main_arg5)) bitsLt_bf16_f32 := by
  have e1 := keep_main_arg5_0_2 m ρ c
  show StableHlo.after hostOps0_2 (W2 m ρ c) (Proc.devRef .tc main_v35) = _
  generalize W2 m ρ c = U at e1 ⊢
  after_results
  rw [e1]

/-- The node features at the first region's entry are the argument's. -/
theorem W3_x : W3 m ρ c (Proc.devRef .tc main_arg0) = (m ((c : Thread nD τ).loc main_arg0)) := keep_main_arg0_0_3 m ρ c

/-! ## Between the regions: the buffers that are only carried -/

theorem keep_main_v5_3_4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem keep_main_v6_3_4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_main_v33_3_4 : W4 m ρ c (Proc.devRef .tc main_v33) = W3 m ρ c (Proc.devRef .tc main_v33) :=
  calc W4 m ρ c (Proc.devRef .tc main_v33)
    _ = W3 m ρ c (Proc.devRef .tc main_v33) := W4_of_ne m ρ c main_v33 (by decide)

theorem keep_main_v5_3_7 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)

theorem keep_main_v6_3_7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_main_v33_3_7 : W7 m ρ c (Proc.devRef .tc main_v33) = W3 m ρ c (Proc.devRef .tc main_v33) :=
  calc W7 m ρ c (Proc.devRef .tc main_v33)
    _ = W6 m ρ c (Proc.devRef .tc main_v33) := W7_of_ne m ρ c main_v33 (by decide)
    _ = W5 m ρ c (Proc.devRef .tc main_v33) := W6_of_ne m ρ c main_v33 (by decide)
    _ = W4 m ρ c (Proc.devRef .tc main_v33) := by host_keeps hostOps1
    _ = W3 m ρ c (Proc.devRef .tc main_v33) := W4_of_ne m ρ c main_v33 (by decide)

theorem keep_main_v35_3_6 : W6 m ρ c (Proc.devRef .tc main_v35) = W3 m ρ c (Proc.devRef .tc main_v35) :=
  calc W6 m ρ c (Proc.devRef .tc main_v35)
    _ = W5 m ρ c (Proc.devRef .tc main_v35) := W6_of_ne m ρ c main_v35 (by decide)
    _ = W4 m ρ c (Proc.devRef .tc main_v35) := by host_keeps hostOps1
    _ = W3 m ρ c (Proc.devRef .tc main_v35) := W4_of_ne m ρ c main_v35 (by decide)

theorem keep_main_arg4_0_4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0

theorem keep_main_arg6_0_7 : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0

theorem keep_main_arg7_0_9 : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0

theorem keep_main_arg8_0_9 : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0

theorem keep_main_arg9_0_9 : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0

theorem keep_main_arg10_0_9 : W9 m ρ c (Proc.devRef .tc main_arg10) = W0 m ρ c (Proc.devRef .tc main_arg10) :=
  calc W9 m ρ c (Proc.devRef .tc main_arg10)
    _ = W8 m ρ c (Proc.devRef .tc main_arg10) := W9_of_ne m ρ c main_arg10 (by decide)
    _ = W7 m ρ c (Proc.devRef .tc main_arg10) := by host_keeps hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0

theorem keep_main_v67_0_9_10 : W10 m ρ c (Proc.devRef .tc main_v67_0) = W9 m ρ c (Proc.devRef .tc main_v67_0) := by host_keeps hostOps4

/-! ## The aggregations, the biases as rows, the batch statistics: what the later stretches write -/

/-- A length-256 vector cast to one row, at `(0, j)`, is the vector at `j`. -/
theorem row_apply (y : (⟨S256, .f32⟩ : BufTy).Contents (Elt Ideal)) (j : Fin 256) :
    shapeCast S1x256 y shapeCasts_S256_S1x256 (ValueIdx.ix2 (0 : Fin 1) j) = y (ValueIdx.ix1 j) :=
  shapeCast_apply y shapeCasts_S256_S1x256 (ValueIdx.ix2 (0 : Fin 1) j) (ValueIdx.ix1 j) (by
    rw [Shape.rowMajor_val_two, Shape.rowMajor_val_one]; show j.val = 0 * 256 + j.val; omega)

set_option maxHeartbeats 2000000 in
/-- The first layer's aggregation, of what the first region wrote. -/
theorem W5_agg : W5 m ρ c (Proc.devRef .tc main_v49)
    = agg (W4 m ρ c (Proc.devRef .tc main_v36)) (W4 m ρ c (Proc.devRef .tc main_v5)) (W4 m ρ c (Proc.devRef .tc main_v6)) (W4 m ρ c (Proc.devRef .tc main_v33)) := by
  show StableHlo.after hostOps1 (W4 m ρ c) (Proc.devRef .tc main_v49) = _
  generalize W4 m ρ c = U
  after_results
  unfold agg wrapCol
  rfl

set_option maxHeartbeats 2000000 in
/-- The first layer's bias as a row. -/
theorem W5_bias (j : Fin 256) : (W5 m ρ c (Proc.devRef .tc main_v50) : S1x256.Idx → Elt Ideal .f32) (ValueIdx.ix2 (0 : Fin 1) j)
    = (m ((c : Thread nD τ).loc main_arg4)) (ValueIdx.ix1 j) := by
  have e : W5 m ρ c (Proc.devRef .tc main_v50) = shapeCast S1x256 (W4 m ρ c (Proc.devRef .tc main_arg4)) shapeCasts_S256_S1x256 := by
    show StableHlo.after hostOps1 (W4 m ρ c) (Proc.devRef .tc main_v50) = _
    generalize W4 m ρ c = U
    after_results
    rfl
  rw [e, keep_main_arg4_0_4]
  exact row_apply _ j

set_option maxHeartbeats 2000000 in
/-- The second layer's aggregation, of what the third region wrote. -/
theorem W8_agg : W8 m ρ c (Proc.devRef .tc main_v65)
    = agg (W7 m ρ c (Proc.devRef .tc main_v52)) (W7 m ρ c (Proc.devRef .tc main_v5)) (W7 m ρ c (Proc.devRef .tc main_v6)) (W7 m ρ c (Proc.devRef .tc main_v33)) := by
  show StableHlo.after hostOps3 (W7 m ρ c) (Proc.devRef .tc main_v65) = _
  generalize W7 m ρ c = U
  after_results
  unfold agg wrapCol
  rfl

set_option maxHeartbeats 2000000 in
/-- The second layer's bias as a row. -/
theorem W8_bias (j : Fin 256) : (W8 m ρ c (Proc.devRef .tc main_v66) : S1x256.Idx → Elt Ideal .f32) (ValueIdx.ix2 (0 : Fin 1) j)
    = (m ((c : Thread nD τ).loc main_arg6)) (ValueIdx.ix1 j) := by
  have e : W8 m ρ c (Proc.devRef .tc main_v66) = shapeCast S1x256 (W7 m ρ c (Proc.devRef .tc main_arg6)) shapeCasts_S256_S1x256 := by
    show StableHlo.after hostOps3 (W7 m ρ c) (Proc.devRef .tc main_v66) = _
    generalize W7 m ρ c = U
    after_results
    rfl
  rw [e, keep_main_arg6_0_7]
  exact row_apply _ j

set_option maxHeartbeats 2000000 in
/-- The batch mean, from the column sums the fourth region accumulated. -/
theorem W10_mean : W10 m ρ c (Proc.devRef .tc main_v69) = meanOf (W9 m ρ c (Proc.devRef .tc main_v67_1)) := by
  show StableHlo.after hostOps4 (W9 m ρ c) (Proc.devRef .tc main_v69) = _
  generalize W9 m ρ c = U
  after_results
  unfold meanOf
  rfl

set_option maxHeartbeats 2000000 in
/-- The batch variance, from the column sums of the entries and of their squares. -/
theorem W10_var : W10 m ρ c (Proc.devRef .tc main_v73) = varOf (W9 m ρ c (Proc.devRef .tc main_v67_1)) (W9 m ρ c (Proc.devRef .tc main_v67_2)) := by
  show StableHlo.after hostOps4 (W9 m ρ c) (Proc.devRef .tc main_v73) = _
  generalize W9 m ρ c = U
  after_results
  unfold varOf meanOf
  rfl

set_option maxHeartbeats 2000000 in
/-- The batch normalisation's scale as a row. -/
theorem W10_main_v74 (j : Fin 256) : (W10 m ρ c (Proc.devRef .tc main_v74) : S1x256.Idx → Elt Ideal .f32) (ValueIdx.ix2 (0 : Fin 1) j)
    = (m ((c : Thread nD τ).loc main_arg7)) (ValueIdx.ix1 j) := by
  have e : W10 m ρ c (Proc.devRef .tc main_v74) = shapeCast S1x256 (W9 m ρ c (Proc.devRef .tc main_arg7)) shapeCasts_S256_S1x256 := by
    show StableHlo.after hostOps4 (W9 m ρ c) (Proc.devRef .tc main_v74) = _
    generalize W9 m ρ c = U
    after_results
    rfl
  rw [e, keep_main_arg7_0_9]
  exact row_apply _ j

set_option maxHeartbeats 2000000 in
/-- The batch normalisation's shift as a row. -/
theorem W10_main_v75 (j : Fin 256) : (W10 m ρ c (Proc.devRef .tc main_v75) : S1x256.Idx → Elt Ideal .f32) (ValueIdx.ix2 (0 : Fin 1) j)
    = (m ((c : Thread nD τ).loc main_arg8)) (ValueIdx.ix1 j) := by
  have e : W10 m ρ c (Proc.devRef .tc main_v75) = shapeCast S1x256 (W9 m ρ c (Proc.devRef .tc main_arg8)) shapeCasts_S256_S1x256 := by
    show StableHlo.after hostOps4 (W9 m ρ c) (Proc.devRef .tc main_v75) = _
    generalize W9 m ρ c = U
    after_results
    rfl
  rw [e, keep_main_arg8_0_9]
  exact row_apply _ j

set_option maxHeartbeats 2000000 in
/-- The layer normalisation's scale as a row. -/
theorem W10_main_v76 (j : Fin 256) : (W10 m ρ c (Proc.devRef .tc main_v76) : S1x256.Idx → Elt Ideal .f32) (ValueIdx.ix2 (0 : Fin 1) j)
    = (m ((c : Thread nD τ).loc main_arg9)) (ValueIdx.ix1 j) := by
  have e : W10 m ρ c (Proc.devRef .tc main_v76) = shapeCast S1x256 (W9 m ρ c (Proc.devRef .tc main_arg9)) shapeCasts_S256_S1x256 := by
    show StableHlo.after hostOps4 (W9 m ρ c) (Proc.devRef .tc main_v76) = _
    generalize W9 m ρ c = U
    after_results
    rfl
  rw [e, keep_main_arg9_0_9]
  exact row_apply _ j

set_option maxHeartbeats 2000000 in
/-- The layer normalisation's shift as a row. -/
theorem W10_main_v77 (j : Fin 256) : (W10 m ρ c (Proc.devRef .tc main_v77) : S1x256.Idx → Elt Ideal .f32) (ValueIdx.ix2 (0 : Fin 1) j)
    = (m ((c : Thread nD τ).loc main_arg10)) (ValueIdx.ix1 j) := by
  have e : W10 m ρ c (Proc.devRef .tc main_v77) = shapeCast S1x256 (W9 m ρ c (Proc.devRef .tc main_arg10)) shapeCasts_S256_S1x256 := by
    show StableHlo.after hostOps4 (W9 m ρ c) (Proc.devRef .tc main_v77) = _
    generalize W9 m ρ c = U
    after_results
    rfl
  rw [e, keep_main_arg10_0_9]
  exact row_apply _ j

end Cert.KernelIdeal.Fold

end
-- ==== Proof.AggRef.lean ====
/-
  The reference's two edge aggregations, and the batch statistics at an index, in the vocabulary both programs share.

  The reference program applies, between the node matrix, the two index lists and the edge coefficients on one side and the
  aggregated matrix on the other, exactly the operations the aggregation `agg` names; its shapes and dimension records are
  the same structures as the kernel's. The batch mean and variance read at an index are the scalar operations on the entries.
-/
import proofs.«148368_j71451075936454_1_alg».proof.Proof.FoldDefs
import proofs.«148368_j71451075936454_1_alg».proof.Proof.RefRead

noncomputable section

namespace Cert.KernelIdeal.AggRef

open Cert.KernelIdeal Cert.KernelIdeal.Gen Cert.KernelIdeal.Fold Cert.ReferenceIdeal.ReadP Idealize.ShloMosaic Idealize.ShloMosaic.ValueIdx

/-! ## The reference's two aggregations are `agg` of its own stages

Between the node matrix, the two index lists and the edge coefficients on one side and the aggregated matrix on the other,
the reference applies exactly the operations `agg` names, over shapes and dimension records that are the same structures. -/

theorem ref_agg1 (x0 : (⟨Cert.ReferenceIdeal.S50000x1024, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S1024x256, .f32⟩ : BufTy).Contents (Elt Ideal)) :
    val_main_v47 (F := Ideal) x0 x1 x2 x3
      = agg (val_main_v34 (F := Ideal) x0 x3) (val_main_v5 (F := Ideal) x1) (val_main_v6 (F := Ideal) x1)
          (val_main_v33 (F := Ideal) x1 x2) := by
  unfold val_main_v47 val_main_v46 val_main_v45 val_main_cst_9 val_main_v44 val_main_v43 val_main_v42 val_main_v41 val_main_v40 val_main_v39 val_main_v38 val_main_v37 val_main_c_8 val_main_v36 val_main_v35 val_main_c_7
  generalize val_main_v34 (F := Ideal) x0 x3 = h
  generalize val_main_v5 (F := Ideal) x1 = src
  generalize val_main_v6 (F := Ideal) x1 = dst
  generalize val_main_v33 (F := Ideal) x1 x2 = nrm
  rfl

theorem ref_agg2 (x0 : (⟨Cert.ReferenceIdeal.S50000x1024, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S1024x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) :
    val_main_v99 (F := Ideal) x0 x1 x2 x3 x4 x5
      = agg (val_main_v86 (F := Ideal) x0 x1 x2 x3 x4 x5) (val_main_v57 (F := Ideal) x1) (val_main_v58 (F := Ideal) x1)
          (val_main_v85 (F := Ideal) x1 x2) := by
  unfold val_main_v99 val_main_v98 val_main_v97 val_main_cst_21 val_main_v96 val_main_v95 val_main_v94 val_main_v93 val_main_v92 val_main_v91 val_main_v90 val_main_v89 val_main_c_20 val_main_v88 val_main_v87 val_main_c_19
  generalize val_main_v86 (F := Ideal) x0 x1 x2 x3 x4 x5 = h
  generalize val_main_v57 (F := Ideal) x1 = src
  generalize val_main_v58 (F := Ideal) x1 = dst
  generalize val_main_v85 (F := Ideal) x1 x2 = nrm
  rfl

/-! ## The batch statistics at an index -/

/-- The batch mean at an index: the column sum's entry divided by the row count. -/
theorem meanOf_apply (s : (⟨S1x256, .f32⟩ : BufTy).Contents (Elt Ideal)) (i : S1x256.Idx) :
    meanOf s i = FloatOps.hostDivf (F := Ideal) (φ := .f32) (s i) (FloatOps.ofBits .f32 0x47435000#32) := rfl

/-- The batch variance at an index: the mean square less the squared mean. -/
theorem varOf_apply (s q : (⟨S1x256, .f32⟩ : BufTy).Contents (Elt Ideal)) (i : S1x256.Idx) :
    varOf s q i = FloatOps.subf (F := Ideal) (φ := .f32) (FloatOps.hostDivf (q i) (FloatOps.ofBits .f32 0x47435000#32))
      (FloatOps.mulf (FloatOps.hostDivf (s i) (FloatOps.ofBits .f32 0x47435000#32)) (FloatOps.hostDivf (s i) (FloatOps.ofBits .f32 0x47435000#32))) := rfl

end Cert.KernelIdeal.AggRef

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RegionsMatmulBias.lean ====
/- Regions 0, 1 and 2 of the kernel, read off the frame at the extended reals: each region's result array after the
   region as one function of the arrays the region finds, index by index. Regions 0 and 2 are matrix products of a
   row-tiled left operand with a whole right operand into a zero accumulator; region 1 adds a row vector to every row
   and takes the maximum with zero. Each is: the body's tile at an entry, the tile that a point writes back as a block
   of one whole-array function, the fifty row tiles covering the array, hence the array. -/
import proofs.«148368_j71451075936454_1_alg».proof.Proof.Gen.KernelIdeal.Frame
import proofs.«148368_j71451075936454_1_alg».proof.Proof.LibPlainProduct
import Idealize.ShloMosaic.Lib.Pipeline.Value
import Idealize.ShloMosaic.Lib.ValueIdx

set_option maxRecDepth 16384

noncomputable section

namespace Cert.KernelIdeal.RegionsMatmulBias

open Cert.KernelIdeal Cert.KernelIdeal.Gen Idealize.ShloMosaic Idealize.ShloMosaic.ValueIdx
open Idealize.ShloMosaic.TcCoe
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! # Region 0: the first layer's matrix product -/

/-- The body's product at an entry of the tile: the sum over the contracted coordinate. -/
theorem pay0_apply (x0 : Vec Ideal S1000x1024 .f32) (x1 : Vec Ideal S1024x256 .bf16) (p : Fin 1000) (q : Fin 256) :
    k0_pay1 x0 x1 (ix2 p q) = ∑ k : Fin 1024, x0 (ix2 p k) * x1 (ix2 k q) := by
  unfold k0_pay1
  refine (Cert.PlainProduct.matmul_plain_apply _ (by rfl) none _ _ p q).trans ?_
  refine Finset.sum_congr rfl fun k _ => ?_
  rw [shapeCast_self]
  rfl

/-- The same at an index of the tile, its coordinates read off as literal ranges. -/
theorem pay0_apply' (x0 : Vec Ideal S1000x1024 .f32) (x1 : Vec Ideal S1024x256 .bf16) (j : S1000x256.Idx) :
    k0_pay1 x0 x1 j = ∑ k : Fin 1024, x0 (ix2 (⟨(j 0).val, idx2_lt0 j⟩ : Fin 1000) k) * x1 (ix2 k (⟨(j 1).val, idx2_lt1 j⟩ : Fin 256)) := by
  obtain ⟨p, q, rfl⟩ : ∃ (p : Fin 1000) (q : Fin 256), j = ix2 p q := ⟨j 0, j 1, eq_ix2 j⟩
  exact pay0_apply x0 x1 p q

/-- The product of the two arrays, entry by entry. -/
def G0 (A : S50000x1024.Idx → Elt Ideal .f32) (B : S1024x256.Idx → Elt Ideal .bf16) : S50000x256.Idx → Elt Ideal .f32 :=
  fun i => ∑ k : Fin 1024, A (ix2 (⟨(i 0).val, idx2_lt0 i⟩ : Fin 50000) k) * B (ix2 k (⟨(i 1).val, idx2_lt1 i⟩ : Fin 256))

/-- The printed index maps over the grid: the row tile of the left operand and of the result is the point's number, the
    right operand is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `1000 t …` of its array. -/
theorem iblk0_0_apply (c : Dev nD) (t : Fin cfg0.N) (x : S1000x1024.Idx) (k : S50000x1024.Idx)
    (hk0 : (k 0).val = 1000 * t.val + (x 0).val) (hk1 : (k 1).val = (x 1).val) :
    (iblk0 V c 0 t : Vec Ideal S1000x1024 .f32) x = (V c main_arg0 : S50000x1024.Idx → Elt Ideal .f32) k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 1000 + 1 * (x 0).val = (k 0).val; rw [e0, hk0]; omega
  | ⟨1, _⟩ => show win0_0.index t (1 : Fin 2) * 1024 + 1 * (x 1).val = (k 1).val; rw [e1, hk1]; omega

/-- The right operand's block at every point is its whole array. -/
theorem iblk0_1_apply (c : Dev nD) (t : Fin cfg0.N) (x : S1024x256.Idx) (k : S1024x256.Idx)
    (hk0 : (k 0).val = (x 0).val) (hk1 : (k 1).val = (x 1).val) :
    (iblk0 V c 1 t : Vec Ideal S1024x256 .bf16) x = (V c main_v34 : S1024x256.Idx → Elt Ideal .bf16) k := by
  obtain ⟨-, -, e0, e1, -, -⟩ := idx_facts0 t
  unfold iblk0
  rw [View.read_apply]
  show V c main_v34 _ = V c main_v34 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 256 + 1 * (x 1).val = (k 1).val; rw [e1, hk1]; omega

/-- What point `t` writes back is block `t` of the product of the arrays as the region finds them. -/
theorem flushed0_eq (c : Dev nD) (t : Fin cfg0.N) :
    (dat0 (F := Ideal) V c).flushed 2 t = ((cfg0.win 2).blk t).view.read (Elt Ideal) (G0 (V c main_arg0) (V c main_v34)) := by
  show (cfg0.win 2).cut (grid0.coords t) ((dat0 V c).after 2 t) = _
  rw [after0_2]
  unfold out0_2
  rw [View.canon_unit_zero hz]
  simp only [View.ld_unit_zero (S := S1000x1024) hz, View.ld_unit_zero (S := S1024x256) hz]
  obtain ⟨-, -, -, -, e0, e1⟩ := idx_facts0 t
  funext y
  refine (pay0_apply' (iblk0 V c 0 t) (iblk0 V c 1 t) ((cfg0.win 2).xinj (grid0.coords t) y)).trans ?_
  show _ = G0 (V c main_arg0) (V c main_v34) (((cfg0.win 2).blk t).view.emb y)
  unfold G0
  refine Finset.sum_congr rfl fun k _ => ?_
  refine congrArg₂ (· * ·) (iblk0_0_apply V c t _ _ ?_ ?_) (iblk0_1_apply V c t _ _ ?_ ?_)
  · show win0_2.index t (0 : Fin 2) * 1000 + 1 * (y 0).val = 1000 * t.val + (y 0).val
    rw [e0]; omega
  · rfl
  · rfl
  · show win0_2.index t (1 : Fin 2) * 256 + 1 * (y 1).val = (y 1).val
    rw [e1]; omega

/-- An index of the result array is in point `t`'s block iff each coordinate is in the block's range on its axis. -/
theorem mem_blk0 (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v36).slice (win0_2.rect t)).set ↔ _
  rw [View.set_slice_whole, Rect.mem_set_unit]
  exact Iff.rfl

/-- The fifty row tiles cover the result array: row `r` is in tile `r / 1000`. -/
theorem cover0 (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, e0, e1⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; rw [e0, ht]; omega
  | ⟨1, _⟩ => show win0_2.index t (1 : Fin 2) * 256 ≤ (i 1).val ∧ (i 1).val < win0_2.index t (1 : Fin 2) * 256 + 256; rw [e1]; omega

/-- The result array after the region: the product of the two arrays as the region finds them. -/
theorem arr0 (c : Dev nD) : (dat0 (F := Ideal) V c).arrAt 2 cfg0.N = G0 (V c main_arg0) (V c main_v34) :=
  (dat0 V c).arrAt_eq_of_cover 2 (G0 (V c main_arg0) (V c main_v34)) (fun t _ => flushed0_eq V c t) cover0

/-- The product read at an index. -/
theorem G0_apply (A : S50000x1024.Idx → Elt Ideal .f32) (B : S1024x256.Idx → Elt Ideal .bf16) (i : Fin 50000) (j : Fin 256) :
    G0 A B (ix2 i j) = ∑ k : Fin 1024, A (ix2 i k) * B (ix2 k j) := rfl

/-- Region 0's result array after the region, at an index: `X`, `A`, `B` name the result array and the two operand
    arrays at their literal types. -/
theorem final0 (c : Dev nD) (X : S50000x256.Idx → Elt Ideal .f32) (A : S50000x1024.Idx → Elt Ideal .f32) (B : S1024x256.Idx → Elt Ideal .bf16)
    (hX : (dat0 (F := Ideal) V c).arrAt 2 cfg0.N = X) (hA : V c main_arg0 = A) (hB : V c main_v34 = B) (i : Fin 50000) (j : Fin 256) :
    X (ix2 i j) = ∑ k : Fin 1024, A (ix2 i k) * B (ix2 k j) := by
  subst hX hA hB
  rw [arr0]
  rfl

/-! # Region 1: the first layer's bias and rectifier -/

/-- The body's tile at an entry: the row vector's entry added, then the maximum with zero. -/
theorem pay1_apply (x0 : Vec Ideal S1000x256 .f32) (x1 : Vec Ideal S1x256 .f32) (p : Fin 1000) (q : Fin 256) :
    k1_pay1 x0 x1 (ix2 p q)
      = FloatOps.maximumf (F := Ideal) (FloatOps.addf (F := Ideal) (x0 (ix2 p q)) (x1 (ix2 (0 : Fin 1) q))) (FloatOps.ofBits (F := Ideal) .f32 0x00000000#32) := by
  have h0 : shapeCast S1000x256 x0 shapeCasts_S1000x256_S1000x256 = x0 := shapeCast_self _ _
  have h1 : shapeCast S1x256 x1 shapeCasts_S1x256_S1x256 = x1 := shapeCast_self _ _
  have hb : broadcastTo S1000x256 x1 broadcasts_S1x256_S1000x256 (ix2 p q) = x1 (ix2 (0 : Fin 1) q) :=
    broadcastTo_apply x1 _ (ix2 p q) (ix2 (0 : Fin 1) q) (by
      intro a
      match a with
      | ⟨0, _⟩ => rfl
      | ⟨1, _⟩ => rfl)
  unfold k1_pay1
  show FloatOps.maximumf (F := Ideal) (FloatOps.addf (F := Ideal) (shapeCast S1000x256 x0 shapeCasts_S1000x256_S1000x256 (ix2 p q))
      (broadcastTo S1000x256 (shapeCast S1x256 x1 shapeCasts_S1x256_S1x256) broadcasts_S1x256_S1000x256 (ix2 p q)))
    (FloatOps.ofBits (F := Ideal) .f32 0x00000000#32) = _
  rw [h0, h1, hb]

/-- The same at an index of the tile, its column read off as a literal range. -/
theorem pay1_apply' (x0 : Vec Ideal S1000x256 .f32) (x1 : Vec Ideal S1x256 .f32) (j : S1000x256.Idx) :
    k1_pay1 x0 x1 j
      = FloatOps.maximumf (F := Ideal) (FloatOps.addf (F := Ideal) (x0 j) (x1 (ix2 (0 : Fin 1) (⟨(j 1).val, idx2_lt1 j⟩ : Fin 256)))) (FloatOps.ofBits (F := Ideal) .f32 0x00000000#32) := by
  obtain ⟨p, q, rfl⟩ : ∃ (p : Fin 1000) (q : Fin 256), j = ix2 p q := ⟨j 0, j 1, eq_ix2 j⟩
  exact pay1_apply x0 x1 p q

/-- The row vector added to every row of the array, then the maximum with zero, entry by entry. -/
def G1 (A : S50000x256.Idx → Elt Ideal .f32) (B : S1x256.Idx → Elt Ideal .f32) : S50000x256.Idx → Elt Ideal .f32 :=
  fun i => FloatOps.maximumf (F := Ideal) (FloatOps.addf (F := Ideal) (A i) (B (ix2 (0 : Fin 1) (⟨(i 1).val, idx2_lt1 i⟩ : Fin 256)))) (FloatOps.ofBits (F := Ideal) .f32 0x00000000#32)

/-- The printed index maps over the grid: the row tile of the array and of the result is the point's number, the row
    vector is one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array's block at point `t` is rows `1000 t …` of it. -/
theorem iblk1_0_apply (c : Dev nD) (t : Fin cfg1.N) (x : S1000x256.Idx) (k : S50000x256.Idx)
    (hk0 : (k 0).val = 1000 * t.val + (x 0).val) (hk1 : (k 1).val = (x 1).val) :
    (iblk1 V c 0 t : Vec Ideal S1000x256 .f32) x = (V c main_v49 : S50000x256.Idx → Elt Ideal .f32) k := by
  obtain ⟨e0, e1, -, -, -, -⟩ := idx_facts1 t
  unfold iblk1
  rw [View.read_apply]
  show V c main_v49 _ = V c main_v49 _
  congr 1
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 256 + 1 * (x 1).val = (k 1).val; rw [e1, hk1]; omega

/-- The row vector's block at every point is its whole array. -/
theorem iblk1_1_apply (c : Dev nD) (t : Fin cfg1.N) (x : S1x256.Idx) (k : S1x256.Idx)
    (hk0 : (k 0).val = (x 0).val) (hk1 : (k 1).val = (x 1).val) :
    (iblk1 V c 1 t : Vec Ideal S1x256 .f32) x = (V c main_v50 : S1x256.Idx → Elt Ideal .f32) k := by
  obtain ⟨-, -, e0, e1, -, -⟩ := idx_facts1 t
  unfold iblk1
  rw [View.read_apply]
  show V c main_v50 _ = V c main_v50 _
  congr 1
  funext a
  apply Fin.ext
  match a with
  | ⟨0, _⟩ => show win1_1.index t (0 : Fin 2) * 1 + 1 * (x 0).val = (k 0).val; rw [e0, hk0]; omega
  | ⟨1, _⟩ => show win1_1.index t (1 : Fin 2) * 256 + 1 * (x 1).val = (k 1).val; rw [e1, hk1]; omega

/-- What point `t` writes back is block `t` of that function of the arrays as the region finds them. -/
theorem flushed1_eq (c : Dev nD) (t : Fin cfg1.N) :
    (dat1 (F := Ideal) V c).flushed 2 t = ((cfg1.win 2).blk t).view.read (Elt Ideal) (G1 (V c main_v49) (V c main_v50)) := by
  show (cfg1.win 2).cut (grid1.coords t) ((dat1 V c).after 2 t) = _
  rw [after1_2]
  unfold out1_2
  rw [View.canon_unit_zero hz]
  simp only [View.ld_unit_zero (S := S1000x256) hz, View.ld_unit_zero (S := S1x256) hz]
  obtain ⟨-, -, -, -, e0, e1⟩ := idx_facts1 t
  funext y
  refine (pay1_apply' (iblk1 V c 0 t) (iblk1 V c 1 t) ((cfg1.win 2).xinj (grid1.coords t) y)).trans ?_
  show _ = G1 (V c main_v49) (V c main_v50) (((cfg1.win 2).blk t).view.emb y)
  unfold G1
  refine congrArg₂ (fun a b => FloatOps.maximumf (F := Ideal) (FloatOps.addf (F := Ideal) a b) (FloatOps.ofBits (F := Ideal) .f32 0x00000000#32))
    (iblk1_0_apply V c t _ _ ?_ ?_) (iblk1_1_apply V c t _ _ ?_ ?_)
  · show win1_2.index t (0 : Fin 2) * 1000 + 1 * (y 0).val = 1000 * t.val + (y 0).val
    rw [e0]; omega
  · show win1_2.index t (1 : Fin 2) * 256 + 1 * (y 1).val = (y 1).val
    rw [e1]; omega
  · rfl
  · show win1_2.index t (1 : Fin 2) * 256 + 1 * (y 1).val = (y 1).val
    rw [e1]; omega

/-- An index of the result array is in point `t`'s block iff each coordinate is in the block's range on its axis. -/
theorem mem_blk1 (t : Fin cfg1.N) (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v51).slice (win1_2.rect t)).set ↔ _
  rw [View.set_slice_whole, Rect.mem_set_unit]
  exact Iff.rfl

/-- The fifty row tiles cover the result array: row `r` is in tile `r / 1000`. -/
theorem cover1 (i : S50000x256.Idx) : ∃ t : Fin cfg1.N, (cfg1.win 2).flush t = true ∧ i ∈ ((cfg1.win 2).blk t).view.set := by
  have hi0 : (i 0).val < 50000 := idx2_lt0 i
  have hi1 : (i 1).val < 256 := idx2_lt1 i
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, e0, e1⟩ := idx_facts1 t
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; rw [e0, ht]; omega
  | ⟨1, _⟩ => show win1_2.index t (1 : Fin 2) * 256 ≤ (i 1).val ∧ (i 1).val < win1_2.index t (1 : Fin 2) * 256 + 256; rw [e1]; omega

/-- The result array after the region: that function of the two arrays as the region finds them. -/
theorem arr1 (c : Dev nD) : (dat1 (F := Ideal) V c).arrAt 2 cfg1.N = G1 (V c main_v49) (V c main_v50) :=
  (dat1 V c).arrAt_eq_of_cover 2 (G1 (V c main_v49) (V c main_v50)) (fun t _ => flushed1_eq V c t) cover1

/-- The function read at an index. -/
theorem G1_apply (A : S50000x256.Idx → Elt Ideal .f32) (B : S1x256.Idx → Elt Ideal .f32) (i : Fin 50000) (j : Fin 256) :
    G1 A B (ix2 i j) = FloatOps.maximumf (F := Ideal) (FloatOps.addf (F := Ideal) (A (ix2 i j)) (B (ix2 (0 : Fin 1) j))) (FloatOps.ofBits (F := Ideal) .f32 0x00000000#32) := rfl

/-- Region 1's result array after the region, at an index: `X`, `A`, `B` name the result array, the array and the row
    vector at their literal types. -/
theorem final1 (c : Dev nD) (X : S50000x256.Idx → Elt Ideal .f32) (A : S50000x256.Idx → Elt Ideal .f32) (B : S1x256.Idx → Elt Ideal .f32)
    (hX : (dat1 (F := Ideal) V c).arrAt 2 cfg1.N = X) (hA : V c main_v49 = A) (hB : V c main_v50 = B) (i : Fin 50000) (j : Fin 256) :
    X (ix2 i j) = FloatOps.maximumf (F := Ideal) (FloatOps.addf (F := Ideal) (A (ix2 i j)) (B (ix2 (0 : Fin 1) j))) (FloatOps.ofBits (F := Ideal) .f32 0x00000000#32) := by
  subst hX hA hB
  rw [arr1]
  rfl

/-! # Region 2: the second layer's matrix product -/

/-- The body's product at an entry of the tile: the sum over the contracted coordinate. -/
theorem pay2_apply (x0 : Vec Ideal S1000x256 .f32) (x1 : Vec Ideal S256x256 .bf16) (p : Fin 1000) (q : Fin 256) :
    k2_pay1 x0 x1 (ix2 p q) = ∑ k : Fin 256, x0 (ix2 p k) * x1 (ix2 k q) := by
  unfold k2_pay1
  refine (Cert.PlainProduct.matmul_plain_apply _ (by rfl) none _ _ p q).trans ?_
  refine Finset.sum_congr rfl fun k _ => ?_
  rw [shapeCast_self, shapeCast_self]
  rfl

/-- The same at an index of the tile, its coordinates read off as literal ranges. -/
theorem pay2_apply' (x0 : Vec Ideal S1000x256 .f32) (x1 : Vec Ideal S256x256 .bf16) (j : S1000x256.Idx) :
    k2_pay1 x0 x1 j = ∑ k : Fin 256, x0 (ix2 (⟨(j 0).val, idx2_lt0 j⟩ : Fin 1000) k) * x1 (ix2 k (⟨(j 1).val, idx2_lt1 j⟩ : Fin 256)) := by
  obtain ⟨p, q, rfl⟩ : ∃ (p : Fin 1000) (q : Fin 256), j = ix2 p q := ⟨j 0, j 1, eq_ix2 j⟩
  exact pay2_apply x0 x1 p q

/-- The product of the two arrays, entry by entry. -/
def G2 (A : S50000x256.Idx → Elt Ideal .f32) (B : S256x256.Idx → Elt Ideal .bf16) : S50000x256.Idx → Elt Ideal .f32 :=
  fun i => ∑ k : Fin 256, A (ix2 (⟨(i 0).val, idx2_lt0 i⟩ : Fin 50000) k) * B (ix2 k (⟨(i 1).val, idx2_lt1 i⟩ : Fin 256))

/-- The printed index maps over the grid: the row tile of the left operand and of the result is the point's number, the
    right operand is one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `1000 t …` of its array. -/
theorem iblk2_0_apply (c : Dev nD) (t : Fin cfg2.N) (x : S1000x256.Idx) (k : S50000x256.Idx)
    (hk0 : (k 0).val = 1000 * t.val + (x 0).val) (hk1 : (k 1).val = (x 1).val) :
    (iblk2 V c 0 t : Vec Ideal S1000x256 .f32) x = (V c main_v51 : S50000x256.Idx → Elt Ideal .f32) k := by
  obtain ⟨e0, e1, -, -, -, -⟩ := idx_facts2 t
  unfold iblk2
  rw [View.read_apply]
  show V c main_v51 _ = V c main_v51 _
  congr 1
  funext a
  apply Fin.ext
  match a with
  | ⟨0, _⟩ => show win2_0.index t (0 : Fin 2) * 1000 + 1 * (x 0).val = (k 0).val; rw [e0, hk0]; omega
  | ⟨1, _⟩ => show win2_0.index t (1 : Fin 2) * 256 + 1 * (x 1).val = (k 1).val; rw [e1, hk1]; omega

/-- The right operand's block at every point is its whole array. -/
theorem iblk2_1_apply (c : Dev nD) (t : Fin cfg2.N) (x : S256x256.Idx) (k : S256x256.Idx)
    (hk0 : (k 0).val = (x 0).val) (hk1 : (k 1).val = (x 1).val) :
    (iblk2 V c 1 t : Vec Ideal S256x256 .bf16) x = (V c main_v35 : S256x256.Idx → Elt Ideal .bf16) k := by
  obtain ⟨-, -, e0, e1, -, -⟩ := idx_facts2 t
  unfold iblk2
  rw [View.read_apply]
  show V c main_v35 _ = V c main_v35 _
  congr 1
  funext a
  apply Fin.ext
  match a with
  | ⟨0, _⟩ => show win2_1.index t (0 : Fin 2) * 256 + 1 * (x 0).val = (k 0).val; rw [e0, hk0]; omega
  | ⟨1, _⟩ => show win2_1.index t (1 : Fin 2) * 256 + 1 * (x 1).val = (k 1).val; rw [e1, hk1]; omega

/-- What point `t` writes back is block `t` of the product of the arrays as the region finds them. -/
theorem flushed2_eq (c : Dev nD) (t : Fin cfg2.N) :
    (dat2 (F := Ideal) V c).flushed 2 t = ((cfg2.win 2).blk t).view.read (Elt Ideal) (G2 (V c main_v51) (V c main_v35)) := by
  show (cfg2.win 2).cut (grid2.coords t) ((dat2 V c).after 2 t) = _
  rw [after2_2]
  unfold out2_2
  rw [View.canon_unit_zero hz]
  simp only [View.ld_unit_zero (S := S1000x256) hz, View.ld_unit_zero (S := S256x256) hz]
  obtain ⟨-, -, -, -, e0, e1⟩ := idx_facts2 t
  funext y
  refine (pay2_apply' (iblk2 V c 0 t) (iblk2 V c 1 t) ((cfg2.win 2).xinj (grid2.coords t) y)).trans ?_
  show _ = G2 (V c main_v51) (V c main_v35) (((cfg2.win 2).blk t).view.emb y)
  unfold G2
  refine Finset.sum_congr rfl fun k _ => ?_
  refine congrArg₂ (· * ·) (iblk2_0_apply V c t _ _ ?_ ?_) (iblk2_1_apply V c t _ _ ?_ ?_)
  · show win2_2.index t (0 : Fin 2) * 1000 + 1 * (y 0).val = 1000 * t.val + (y 0).val
    rw [e0]; omega
  · rfl
  · rfl
  · show win2_2.index t (1 : Fin 2) * 256 + 1 * (y 1).val = (y 1).val
    rw [e1]; omega

/-- An index of the result array is in point `t`'s block iff each coordinate is in the block's range on its axis. -/
theorem mem_blk2 (t : Fin cfg2.N) (i : S50000x256.Idx) :
    i ∈ ((cfg2.win 2).blk t).view.set ↔ ∀ a : Fin 2, win2_2.index t a * S1000x256.size a ≤ (i a).val ∧ (i a).val < win2_2.index t a * S1000x256.size a + S1000x256.size a := by
  show i ∈ ((View.whole main_v52).slice (win2_2.rect t)).set ↔ _
  rw [View.set_slice_whole, Rect.mem_set_unit]
  exact Iff.rfl

/-- The fifty row tiles cover the result array: row `r` is in tile `r / 1000`. -/
theorem cover2 (i : S50000x256.Idx) : ∃ t : Fin cfg2.N, (cfg2.win 2).flush t = true ∧ i ∈ ((cfg2.win 2).blk t).view.set := by
  have hi0 : (i 0).val < 50000 := idx2_lt0 i
  have hi1 : (i 1).val < 256 := idx2_lt1 i
  have hN : cfg2.N = 50 := N_2
  obtain ⟨t, ht⟩ : ∃ t : Fin cfg2.N, t.val = (i 0).val / 1000 := ⟨⟨(i 0).val / 1000, by rw [hN]; omega⟩, rfl⟩
  obtain ⟨-, -, -, -, e0, e1⟩ := idx_facts2 t
  refine ⟨t, flush2_2 t, ?_⟩
  rw [mem_blk2]
  intro a
  match a with
  | ⟨0, _⟩ => show win2_2.index t (0 : Fin 2) * 1000 ≤ (i 0).val ∧ (i 0).val < win2_2.index t (0 : Fin 2) * 1000 + 1000; rw [e0, ht]; omega
  | ⟨1, _⟩ => show win2_2.index t (1 : Fin 2) * 256 ≤ (i 1).val ∧ (i 1).val < win2_2.index t (1 : Fin 2) * 256 + 256; rw [e1]; omega

/-- The result array after the region: the product of the two arrays as the region finds them. -/
theorem arr2 (c : Dev nD) : (dat2 (F := Ideal) V c).arrAt 2 cfg2.N = G2 (V c main_v51) (V c main_v35) :=
  (dat2 V c).arrAt_eq_of_cover 2 (G2 (V c main_v51) (V c main_v35)) (fun t _ => flushed2_eq V c t) cover2

/-- The product read at an index. -/
theorem G2_apply (A : S50000x256.Idx → Elt Ideal .f32) (B : S256x256.Idx → Elt Ideal .bf16) (i : Fin 50000) (j : Fin 256) :
    G2 A B (ix2 i j) = ∑ k : Fin 256, A (ix2 i k) * B (ix2 k j) := rfl

/-- Region 2's result array after the region, at an index: `X`, `A`, `B` name the result array and the two operand
    arrays at their literal types. -/
theorem final2 (c : Dev nD) (X : S50000x256.Idx → Elt Ideal .f32) (A : S50000x256.Idx → Elt Ideal .f32) (B : S256x256.Idx → Elt Ideal .bf16)
    (hX : (dat2 (F := Ideal) V c).arrAt 2 cfg2.N = X) (hA : V c main_v51 = A) (hB : V c main_v35 = B) (i : Fin 50000) (j : Fin 256) :
    X (ix2 i j) = ∑ k : Fin 256, A (ix2 i k) * B (ix2 k j) := by
  subst hX hA hB
  rw [arr2]
  rfl

end Cert.KernelIdeal.RegionsMatmulBias

end
-- ==== Proof.RegionLinksA.lean ====
/- Regions 0, 1 and 2 as links to the reference's stages: given what a region finds in its operand arrays, as the
   reference's values of the same stage, the region's result array after the region is the reference's value of the
   next stage. Each link is the region's whole-array function met with the reference's reading at an index. -/
import proofs.«148368_j71451075936454_1_alg».proof.Proof.RegionsMatmulBias
import proofs.«148368_j71451075936454_1_alg».proof.Proof.RefRead

set_option maxRecDepth 16384

noncomputable section

namespace Cert.KernelIdeal.RegionLinksA

open Cert.KernelIdeal Cert.KernelIdeal.Gen Idealize.ShloMosaic Idealize.ShloMosaic.ValueIdx
open Idealize.ShloMosaic.TcCoe
open Idealize.ShloMosaic.Pipeline (Dat)
open Cert.KernelIdeal.RegionsMatmulBias
open Cert.ReferenceIdeal.ReadP
open scoped BigOperators

variable (V : (c : Dev nD) → (b : Ref sig .tc) → Buf (Elt Ideal) ((c : Thread nD τ).loc b))

/-! # Region 0 and the reference's first product -/

/-- The product of an array with a narrowed array is the reference's product of the two arrays: at the extended reals
    the narrowing is the identity, and both are the sum over the contracted coordinate. -/
theorem G0_ref (x0 : (⟨Cert.ReferenceIdeal.S50000x1024, .f32⟩ : BufTy).Contents (Elt Ideal))
    (x3 : (⟨Cert.ReferenceIdeal.S1024x256, .f32⟩ : BufTy).Contents (Elt Ideal)) :
    G0 x0 (truncf (F := Ideal) (s := S1024x256) (φ := .f32) .bf16 x3 bitsLt_bf16_f32) = val_main_v34 (F := Ideal) x0 x3 := by
  funext idx
  obtain ⟨i, j, rfl⟩ : ∃ (i : Fin 50000) (j : Fin 256), idx = ix2 i j := ⟨idx 0, idx 1, eq_ix2 idx⟩
  rw [val_main_v34_apply]
  show ∑ k : Fin 1024, x0 (ix2 i k) * x3 (ix2 k j) = _
  refine Finset.sum_congr rfl fun k _ => ?_
  have el : lidx_main_v34 (ix2 i j) k = ix2 i k := funext fun a => by
    match a with
    | ⟨0, _⟩ => rfl
    | ⟨1, _⟩ => rfl
  have er : ridx_main_v34 (ix2 i j) k = ix2 k j := funext fun a => by
    match a with
    | ⟨0, _⟩ => rfl
    | ⟨1, _⟩ => rfl
  rw [el, er]

/-- Region 0 finds the reference's first argument and its narrowed weight matrix: it leaves the reference's product. -/
theorem link0 (c : Dev nD) (x0 : (⟨Cert.ReferenceIdeal.S50000x1024, .f32⟩ : BufTy).Contents (Elt Ideal))
    (x3 : (⟨Cert.ReferenceIdeal.S1024x256, .f32⟩ : BufTy).Contents (Elt Ideal))
    (hA : V c main_arg0 = x0)
    (hB : V c main_v34 = truncf (F := Ideal) (s := S1024x256) (φ := .f32) .bf16 x3 bitsLt_bf16_f32) :
    (dat0 (F := Ideal) V c).arrAt 2 cfg0.N = val_main_v34 (F := Ideal) x0 x3 :=
  (arr0 V c).trans ((congrArg₂ G0 hA hB).trans (G0_ref x0 x3))

/-! # Region 1 and the reference's first layer -/

/-- A row vector that is the reference's bias, added to every row of the reference's aggregated product, then the
    maximum with zero: the reference's first layer. -/
theorem G1_ref (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (B : S1x256.Idx → Elt Ideal .f32) (hB : ∀ j : Fin 256, B (ix2 (0 : Fin 1) j) = x4 (ix1 j)) :
    G1 (val_main_v47 (F := Ideal) x0 x1 x2 x3) B = val_main_v51 (F := Ideal) x0 x1 x2 x3 x4 := by
  funext idx
  obtain ⟨i, j, rfl⟩ : ∃ (i : Fin 50000) (j : Fin 256), idx = ix2 i j := ⟨idx 0, idx 1, eq_ix2 idx⟩
  rw [val_main_v51_apply, val_main_v50_apply, val_main_v49_apply, val_main_v48_apply, val_main_call1_v0_apply, val_main_call1_cst_apply]
  generalize val_main_v47 (F := Ideal) x0 x1 x2 x3 = y
  have e : idx_main_v48 (idx_main_v49 (ix2 i j)) = ix1 j := funext fun a => by
    match a with
    | ⟨0, _⟩ => rfl
  rw [e, ← hB j]
  rfl

/-- Region 1 finds the reference's aggregated product and its bias as a row: it leaves the reference's first layer. -/
theorem link1 (c : Dev nD) (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (hA : V c main_v49 = val_main_v47 (F := Ideal) x0 x1 x2 x3)
    (hB : ∀ j : Fin 256, (V c main_v50 : S1x256.Idx → Elt Ideal .f32) (ix2 (0 : Fin 1) j) = x4 (ix1 j)) :
    (dat1 (F := Ideal) V c).arrAt 2 cfg1.N = val_main_v51 (F := Ideal) x0 x1 x2 x3 x4 :=
  (arr1 V c).trans ((congrArg (fun A => G1 A (V c main_v50)) hA).trans (G1_ref x0 x1 x2 x3 x4 (V c main_v50) hB))

/-! # Region 2 and the reference's second product -/

/-- The product of the reference's first layer with the narrowed second weight matrix is the reference's second product. -/
theorem G2_ref (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal)) :
    G2 (val_main_v51 (F := Ideal) x0 x1 x2 x3 x4) (truncf (F := Ideal) (s := S256x256) (φ := .f32) .bf16 x5 bitsLt_bf16_f32)
      = val_main_v86 (F := Ideal) x0 x1 x2 x3 x4 x5 := by
  funext idx
  obtain ⟨i, j, rfl⟩ : ∃ (i : Fin 50000) (j : Fin 256), idx = ix2 i j := ⟨idx 0, idx 1, eq_ix2 idx⟩
  rw [val_main_v86_apply]
  generalize val_main_v51 (F := Ideal) x0 x1 x2 x3 x4 = y
  show ∑ k : Fin 256, y (ix2 i k) * x5 (ix2 k j) = _
  refine Finset.sum_congr rfl fun k _ => ?_
  have el : lidx_main_v86 (ix2 i j) k = ix2 i k := funext fun a => by
    match a with
    | ⟨0, _⟩ => rfl
    | ⟨1, _⟩ => rfl
  have er : ridx_main_v86 (ix2 i j) k = ix2 k j := funext fun a => by
    match a with
    | ⟨0, _⟩ => rfl
    | ⟨1, _⟩ => rfl
  rw [el, er]

/-- Region 2 finds the reference's first layer and its narrowed second weight matrix: it leaves the reference's second product. -/
theorem link2 (c : Dev nD) (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (hA : V c main_v51 = val_main_v51 (F := Ideal) x0 x1 x2 x3 x4)
    (hB : V c main_v35 = truncf (F := Ideal) (s := S256x256) (φ := .f32) .bf16 x5 bitsLt_bf16_f32) :
    (dat2 (F := Ideal) V c).arrAt 2 cfg2.N = val_main_v86 (F := Ideal) x0 x1 x2 x3 x4 x5 :=
  (arr2 V c).trans ((congrArg₂ G2 hA hB).trans (G2_ref x0 x1 x2 x3 x4 x5))

end Cert.KernelIdeal.RegionLinksA

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.RegionStats.lean ====
/-
  Region 3 of the kernel, read off its generated frame at any contents `V` of the buffers as the region finds them.

  The region walks the 50 row tiles (1000 rows each) of a `[50000,256]` array `x` (window 0) with a `[1,256]` bias row
  `b` (window 1). At tile `t` it computes `h = max (x + b) 0` on the tile and writes it to tile `t` of window 2; it adds
  the tile's column sums of `h` into window 3 and of `h * h` into window 4, both `[1,256]` rows that stay in place from
  point to point, start from zero at the first point and are written back once, after the last.

  With `hrow V c i j = max (x (i, j) + b (0, j)) 0` this module proves, over the extended reals:
    final3_h    window 2's array at `(i, j)` is `hrow V c i j`;
    final3_sum  window 3's array at `(0, j)` is `∑ i, hrow V c i j` over all 50000 rows;
    final3_sq   window 4's array at `(0, j)` is `∑ i, hrow V c i j * hrow V c i j`.

  The steps: what each case of the body leaves in each staging buffer is the body's payload of the point's blocks
  (`piece_*`); the payloads read at an index (`pay*_apply`: a lane sum is a sum over the tile's rows); the blocks are
  the arrays' rows `1000 t + r` (`blk0_apply`, `blk1_apply`); window 2 is written back tile by tile and the tiles cover the
  array (`flushed2_eq`, `cover2`); the running sums by induction on the point (`acc3_eq`, `acc4_eq`), each point adding
  its tile's contribution, and `0 + Σ_t Σ_r` regrouped into `Σ_i` by commutativity and associativity alone — no
  finiteness of the summands is needed; the one write-back of windows 3 and 4 carries the last point's contents
  (`flushed3_eq`, `flushed4_eq`).
-/
import proofs.«148368_j71451075936454_1_alg».proof.Proof.Gen.KernelIdeal.Frame
import proofs.«148368_j71451075936454_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegionStats

open Cert.KernelIdeal Cert.KernelIdeal.Gen Idealize.ShloMosaic Idealize.ShloMosaic.ValueIdx

/-! ## What each case of the body leaves in each output's staging buffer

The body stores each output's whole block; the last store to a buffer decides its contents. Window 2 receives
the rectified biased tile. Windows 3 and 4 receive the buffer's previous contents plus the tile's column sums (of
the rectified tile and of its square); at the first grid point the previous contents are the zero block the body
has just stored there, at every later point they are what the point before left. -/

section Pieces
variable {F : FTy → Type} [FloatOps F]

theorem hz : (![0, 0] : Fin 2 → Nat) = fun _ => 0 := funext fun a => by fin_cases a <;> rfl

/-- First point, window 2: the rectified biased tile. -/
theorem piece_A_2 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : cond3_0 i) (x0 : Vec F S1000x256 .f32) (x1 : Vec F S1x256 .f32) :
    out3_A_2 c i a1 h1 a2 h2 a3 h3 a4 h4 a5 h5 hc x0 x1 = k3_pay3 x0 x1 := by
  unfold out3_A_2
  rw [View.read_writes_eq_canon _ _ _ (cover3_A_2 c i a1 h1 a2 h2 a3 h3 a4 h4 a5 h5 hc x0 x1)]
  unfold kernelRun3_A
  dsimp only
  rw [View.canon_unit_zero hz]
  simp only [View.readAt_eq_ld, h1.read_unread, h2.read_unread, View.ld_unit_zero (S := S1000x256) hz,
    View.ld_unit_zero (S := S1x256) hz]

/-- First point, window 3: the zero block plus the tile's column sums. -/
theorem piece_A_3 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : cond3_0 i) (x0 : Vec F S1000x256 .f32) (x1 : Vec F S1x256 .f32) :
    out3_A_3 c i a1 h1 a2 h2 a3 h3 a4 h4 a5 h5 hc x0 x1 = k3_pay4 x0 x1 k3_pay1 := by
  unfold out3_A_3
  rw [View.read_writes_eq_canon _ _ _ (cover3_A_3 c i a1 h1 a2 h2 a3 h3 a4 h4 a5 h5 hc x0 x1)]
  unfold kernelRun3_A
  dsimp only
  sl_unfold_words
  rw [View.canon_cons_unit_zero (S := S1x256) hz, View.readCov_unit_zero (S := S1x256) _ hz]
  simp only [View.readAt_eq_ld, h1.read_unread, h2.read_unread, View.ld_unit_zero (S := S1000x256) hz,
    View.ld_unit_zero (S := S1x256) hz]

/-- First point, window 4: the zero block plus the column sums of the tile's square. -/
theorem piece_A_4 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : cond3_0 i) (x0 : Vec F S1000x256 .f32) (x1 : Vec F S1x256 .f32) :
    out3_A_4 c i a1 h1 a2 h2 a3 h3 a4 h4 a5 h5 hc x0 x1 = k3_pay5 x0 x1 k3_pay2 := by
  unfold out3_A_4
  rw [View.read_writes_eq_canon _ _ _ (cover3_A_4 c i a1 h1 a2 h2 a3 h3 a4 h4 a5 h5 hc x0 x1)]
  unfold kernelRun3_A
  dsimp only
  sl_unfold_words
  rw [View.canon_cons_unit_zero (S := S1x256) hz, View.readCov_unit_zero (S := S1x256) _ hz]
  simp only [View.readAt_eq_ld, h1.read_unread, h2.read_unread, View.ld_unit_zero (S := S1000x256) hz,
    View.ld_unit_zero (S := S1x256) hz]

/-- A later point, window 2: the rectified biased tile. -/
theorem piece_B_2 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : ¬cond3_0 i) (x0 : Vec F S1000x256 .f32) (x1 : Vec F S1x256 .f32) (xo3 xo4 : Vec F S1x256 .f32) :
    out3_B_2 c i a1 h1 a2 h2 a3 h3 a4 h4 a5 h5 hc x0 x1 xo3 xo4 = k3_pay3 x0 x1 := by
  unfold out3_B_2
  rw [View.read_writes_eq_canon _ _ _ (cover3_B_2 c i a1 h1 a2 h2 a3 h3 a4 h4 a5 h5 hc x0 x1 xo3 xo4)]
  unfold kernelRun3_B
  dsimp only
  rw [View.canon_unit_zero hz]
  simp only [View.readAt_eq_ld, h1.read_unread, h2.read_unread, View.ld_unit_zero (S := S1000x256) hz,
    View.ld_unit_zero (S := S1x256) hz]

/-- A later point, window 3: what the point before left plus the tile's column sums. -/
theorem piece_B_3 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : ¬cond3_0 i) (x0 : Vec F S1000x256 .f32) (x1 : Vec F S1x256 .f32) (xo3 xo4 : Vec F S1x256 .f32) :
    out3_B_3 c i a1 h1 a2 h2 a3 h3 a4 h4 a5 h5 hc x0 x1 xo3 xo4 = k3_pay4 x0 x1 xo3 := by
  unfold out3_B_3
  rw [View.read_writes_eq_canon _ _ _ (cover3_B_3 c i a1 h1 a2 h2 a3 h3 a4 h4 a5 h5 hc x0 x1 xo3 xo4)]
  unfold kernelRun3_B
  dsimp only
  rw [View.canon_unit_zero hz]
  simp only [View.readAt_eq_ld, h1.read_unread, h2.read_unread, h4.read_unread, View.ld_unit_zero (S := S1000x256) hz,
    View.ld_unit_zero (S := S1x256) hz]

/-- A later point, window 4: what the point before left plus the column sums of the tile's square. -/
theorem piece_B_4 (c : Dev nD) (i : grid3.Coords) (a1 : Memref sig .tc .vmem S1000x256 .f32) (h1 : a1.IsWhole)
    (a2 : Memref sig .tc .vmem S1x256 .f32) (h2 : a2.IsWhole) (a3 : Memref sig .tc .vmem S1000x256 .f32) (h3 : a3.IsWhole)
    (a4 : Memref sig .tc .vmem S1x256 .f32) (h4 : a4.IsWhole) (a5 : Memref sig .tc .vmem S1x256 .f32) (h5 : a5.IsWhole)
    (hc : ¬cond3_0 i) (x0 : Vec F S1000x256 .f32) (x1 : Vec F S1x256 .f32) (xo3 xo4 : Vec F S1x256 .f32) :
    out3_B_4 c i a1 h1 a2 h2 a3 h3 a4 h4 a5 h5 hc x0 x1 xo3 xo4 = k3_pay5 x0 x1 xo4 := by
  unfold out3_B_4
  rw [View.read_writes_eq_canon _ _ _ (cover3_B_4 c i a1 h1 a2 h2 a3 h3 a4 h4 a5 h5 hc x0 x1 xo3 xo4)]
  unfold kernelRun3_B
  dsimp only
  rw [View.canon_unit_zero hz]
  simp only [View.readAt_eq_ld, h1.read_unread, h2.read_unread, h5.read_unread, View.ld_unit_zero (S := S1000x256) hz,
    View.ld_unit_zero (S := S1x256) hz]

end Pieces

/-! ## The body's values at an index, over the extended reals -/

/-- Inserting row `r` over lane `j` of the column-sum's index gives the tile's index `(r, j)`. -/
theorem lift_eq (r : Fin 1000) (j : Fin 256) :
    reduces_S1000x256_S256.lift (ix1 j) r = (ix2 r j : S1000x256.Idx) := by
  funext a
  apply Fin.ext
  match a with
  | ⟨0, _⟩ => rfl
  | ⟨1, _⟩ => rfl

/-- The tile's column sums, laid out as a `[1,256]` row and read at lane `j`: the sum of the tile's column `j` over
    its 1000 rows. -/
theorem colsum_apply (src : FVec Ideal S1000x256 .f32) (hφ : FKind.Formats .f32)
    (hacc : (0x00000000#32 : BitVec 32) = FKind.add.neutral .f32 hφ) (j : Fin 256) :
    shapeCast S1x256 (multiReduction (F := Ideal) .add [0] S256 src 0x00000000#32 reduces_S1000x256_S256 hφ hacc)
        shapeCasts_S256_S1x256 (ix2 (0 : Fin 1) j)
      = ∑ r : Fin 1000, src (ix2 r j) := by
  refine (shapeCast_a_1a_apply _ shapeCasts_S256_S1x256 (0 : Fin 1) j).trans ?_
  refine (Ideal.multiReduction_add_single src 0x00000000#32 reduces_S1000x256_S256 hφ hacc (ix1 j)).trans ?_
  exact Finset.sum_congr rfl fun r _ => congrArg src (lift_eq r j)

/-- The rectified biased tile at `(r, j)`: the maximum of the input tile's entry plus the bias row's lane `j`, and zero. -/
theorem pay3_apply (x0 : Vec Ideal S1000x256 .f32) (x1 : Vec Ideal S1x256 .f32) (r : Fin 1000) (j : Fin 256) :
    k3_pay3 (F := Ideal) x0 x1 (ix2 r j)
      = FloatOps.maximumf (F := Ideal) (FloatOps.addf (F := Ideal) (x0 (ix2 r j)) (x1 (ix2 (0 : Fin 1) j)))
          (FloatOps.ofBits .f32 0x00000000#32) := by
  unfold k3_pay3
  show FloatOps.maximumf (F := Ideal) (FloatOps.addf (F := Ideal) (shapeCast S1000x256 x0 shapeCasts_S1000x256_S1000x256 (ix2 r j))
      (broadcastTo S1000x256 (shapeCast S1x256 x1 shapeCasts_S1x256_S1x256) broadcasts_S1x256_S1000x256 (ix2 r j)))
      (FloatOps.ofBits .f32 0x00000000#32) = _
  rw [shapeCast_self, shapeCast_self, broadcastTo_1b_ab_apply]

/-- The new running column sum at lane `j`: the previous one plus the sum of the rectified tile's column `j`. -/
theorem pay4_apply (x0 : Vec Ideal S1000x256 .f32) (x1 : Vec Ideal S1x256 .f32) (acc : Vec Ideal S1x256 .f32) (j : Fin 256) :
    k3_pay4 (F := Ideal) x0 x1 acc (ix2 (0 : Fin 1) j)
      = acc (ix2 (0 : Fin 1) j) + ∑ r : Fin 1000, k3_pay3 (F := Ideal) x0 x1 (ix2 r j) := by
  unfold k3_pay4
  exact congrArg₂ (· + ·) (congrFun (shapeCast_self acc shapeCasts_S1x256_S1x256) (ix2 (0 : Fin 1) j))
    (colsum_apply (k3_pay3 (F := Ideal) x0 x1) _ _ j)

/-- The new running column sum of squares at lane `j`: the previous one plus the sum of the squares of the rectified
    tile's column `j`. -/
theorem pay5_apply (x0 : Vec Ideal S1000x256 .f32) (x1 : Vec Ideal S1x256 .f32) (acc : Vec Ideal S1x256 .f32) (j : Fin 256) :
    k3_pay5 (F := Ideal) x0 x1 acc (ix2 (0 : Fin 1) j)
      = acc (ix2 (0 : Fin 1) j)
        + ∑ r : Fin 1000, k3_pay3 (F := Ideal) x0 x1 (ix2 r j) * k3_pay3 (F := Ideal) x0 x1 (ix2 r j) := by
  unfold k3_pay5
  exact congrArg₂ (· + ·) (congrFun (shapeCast_self acc shapeCasts_S1x256_S1x256) (ix2 (0 : Fin 1) j))
    (colsum_apply (mulf (k3_pay3 (F := Ideal) x0 x1) (k3_pay3 (F := Ideal) x0 x1)) _ _ j)

/-- The zero block at any index is zero. -/
theorem pay1_apply (y : S1x256.Idx) : k3_pay1 (F := Ideal) y = 0 := by
  unfold k3_pay1
  exact Ideal.ofBits_zero_f32

theorem pay2_apply (y : S1x256.Idx) : k3_pay2 (F := Ideal) y = 0 := by
  unfold k3_pay2
  exact Ideal.ofBits_zero_f32

section Region
variable (V : (c : Dev nD) → (b : Ref sig .tc) → Buf (Elt Ideal) ((c : Thread nD τ).loc b))

/-- Row `i`, lane `j` of the rectified biased array: the maximum of the input's entry plus the bias row's lane, and zero. -/
def hrow (c : Dev nD) (i : Fin 50000) (j : Fin 256) : Elt Ideal .f32 :=
  FloatOps.maximumf (F := Ideal) (FloatOps.addf (F := Ideal) ((V c main_v65 : S50000x256.Idx → Elt Ideal .f32) (ix2 i j))
    ((V c main_v66 : S1x256.Idx → Elt Ideal .f32) (ix2 (0 : Fin 1) j))) (FloatOps.ofBits .f32 0x00000000#32)

/-! ## The windows' blocks -/

/-- The block indices, decided over the grid: windows 0 and 2 are at row block `t` at point `t`, the `[1,256]` windows
    never move. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block at point `t` holds rows `1000 t, …, 1000 t + 999` of the input array. -/
theorem blk0_apply (c : Dev nD) (t : Fin cfg3.N) (r : Fin 1000) (j : Fin 256) (i : Fin 50000)
    (hi : i.val = 1000 * t.val + r.val) :
    (iblk3 V c 0 t : Vec Ideal S1000x256 .f32) (ix2 r j) = (V c main_v65 : S50000x256.Idx → Elt Ideal .f32) (ix2 i j) := by
  obtain ⟨e0, e1, -⟩ := idx_facts t
  unfold iblk3
  rw [View.read_apply]
  show V c main_v65 _ = V c main_v65 _
  congr 1
  funext a
  apply Fin.ext
  match a with
  | ⟨0, _⟩ => show win3_0.index t (0 : Fin 2) * 1000 + 1 * r.val = i.val; omega
  | ⟨1, _⟩ => show win3_0.index t (1 : Fin 2) * 256 + 1 * j.val = j.val; omega

/-- Window 1's block is the whole bias row at every point. -/
theorem blk1_apply (c : Dev nD) (t : Fin cfg3.N) (j : Fin 256) :
    (iblk3 V c 1 t : Vec Ideal S1x256 .f32) (ix2 (0 : Fin 1) j) = (V c main_v66 : S1x256.Idx → Elt Ideal .f32) (ix2 (0 : Fin 1) j) := by
  obtain ⟨-, -, e2, e3, -⟩ := idx_facts t
  unfold iblk3
  rw [View.read_apply]
  show V c main_v66 _ = V c main_v66 _
  congr 1
  funext a
  apply Fin.ext
  match a with
  | ⟨0, _⟩ => show win3_1.index t (0 : Fin 2) * 1 + 1 * 0 = 0; omega
  | ⟨1, _⟩ => show win3_1.index t (1 : Fin 2) * 256 + 1 * j.val = j.val; omega

/-- The rectified biased tile of point `t` at `(r, j)` is the rectified biased array at row `1000 t + r`. -/
theorem tile_apply (c : Dev nD) (t : Fin cfg3.N) (r : Fin 1000) (j : Fin 256) (i : Fin 50000)
    (hi : i.val = 1000 * t.val + r.val) :
    k3_pay3 (F := Ideal) (iblk3 V c 0 t) (iblk3 V c 1 t) (ix2 r j) = hrow V c i j := by
  refine (pay3_apply (iblk3 V c 0 t) (iblk3 V c 1 t) r j).trans ?_
  unfold hrow
  rw [blk0_apply V c t r j i hi, blk1_apply V c t j]

/-! ## What the staging buffers hold after each point -/

/-- At the first point: the tile, and the zero blocks plus the tile's column sums. -/
theorem outs_A (c : Dev nD) (t : Fin cfg3.N) (h0 : t.val % 50 = 0) :
    outsAt3 V c t.val t.isLt = (k3_pay3 (iblk3 V c 0 t) (iblk3 V c 1 t), k3_pay4 (iblk3 V c 0 t) (iblk3 V c 1 t) (k3_pay1 (F := Ideal)), k3_pay5 (iblk3 V c 0 t) (iblk3 V c 1 t) (k3_pay2 (F := Ideal))) := by
  rw [outsAt3_A V c t h0]
  exact congrArg₂ Prod.mk (piece_A_2 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t))
    (congrArg₂ Prod.mk (piece_A_3 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t))
      (piece_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)))

/-- At a later point: the tile, and what the point before left plus the tile's column sums. -/
theorem outs_B (c : Dev nD) (t : Fin cfg3.N) (h0 : ¬t.val % 50 = 0) :
    outsAt3 V c t.val t.isLt = (k3_pay3 (iblk3 V c 0 t) (iblk3 V c 1 t), k3_pay4 (iblk3 V c 0 t) (iblk3 V c 1 t) (outsAt3 V c (t.val - 1) (Nat.lt_of_le_of_lt (Nat.sub_le _ _) t.isLt)).2.1, k3_pay5 (iblk3 V c 0 t) (iblk3 V c 1 t) (outsAt3 V c (t.val - 1) (Nat.lt_of_le_of_lt (Nat.sub_le _ _) t.isLt)).2.2) := by
  rw [outsAt3_B V c t h0]
  exact congrArg₂ Prod.mk (piece_B_2 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2)
    (congrArg₂ Prod.mk (piece_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2)
      (piece_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2))

/-- Window 2's staging buffer holds the point's rectified biased tile at every point. -/
theorem outs_1 (c : Dev nD) (t : Fin cfg3.N) : (outsAt3 V c t.val t.isLt).1 = k3_pay3 (iblk3 V c 0 t) (iblk3 V c 1 t) := by
  by_cases h0 : t.val % 50 = 0
  · rw [outs_A V c t h0]
  · rw [outs_B V c t h0]

/-! ## Window 2: the rectified biased array -/

/-- The rectified biased array as one function of the array's index. -/
abbrev G2 (c : Dev nD) : S50000x256.Idx → Elt Ideal .f32 := fun i => hrow V c (i 0) (i 1)

/-- The tile of point `t` at a block index, named by the array index it sits at. -/
theorem tile_at (c : Dev nD) (t : Fin cfg3.N) (y : S1000x256.Idx) (i : S50000x256.Idx)
    (h0 : (i 0).val = 1000 * t.val + (y 0).val) (h1 : (i 1).val = (y 1).val) :
    k3_pay3 (F := Ideal) (iblk3 V c 0 t) (iblk3 V c 1 t) y = G2 V c i := by
  obtain ⟨r, j, rfl⟩ : ∃ (r : Fin 1000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext h1
  exact tile_apply V c t r q p h0

/-- What point `t` writes back through window 2 is block `t` of the rectified biased array. -/
theorem flushed2_eq (c : Dev nD) (t : Fin cfg3.N) :
    (dat3 V c).flushed 2 t = ((cfg3.win 2).blk t).view.read (Elt Ideal) (G2 V c) := by
  show (cfg3.win 2).cut (grid3.coords t) ((dat3 V c).after 2 t) = _
  rw [after3_2, outs_1]
  obtain ⟨-, -, -, -, e4, e5, -⟩ := idx_facts t
  funext y
  show k3_pay3 (F := Ideal) (iblk3 V c 0 t) (iblk3 V c 1 t) y = G2 V c (((cfg3.win 2).blk t).view.emb y)
  refine tile_at V c t y _ ?_ ?_
  · show win3_2.index t (0 : Fin 2) * 1000 + 1 * (y 0).val = 1000 * t.val + (y 0).val; omega
  · show win3_2.index t (1 : Fin 2) * 256 + 1 * (y 1).val = (y 1).val; omega

/-- An index of the array is in point `t`'s block of window 2 iff each coordinate is in the block's range. -/
theorem mem_blk2 (t : Fin cfg3.N) (i : S50000x256.Idx) :
    i ∈ ((cfg3.win 2).blk t).view.set ↔ ∀ a : Fin 2, win3_2.index t a * S1000x256.size a ≤ (i a).val
      ∧ (i a).val < win3_2.index t a * S1000x256.size a + S1000x256.size a := by
  show i ∈ ((View.whole main_v67_0).slice (win3_2.rect t)).set ↔ _
  rw [View.set_slice_whole, Rect.mem_set_unit]
  exact Iff.rfl

/-- Row `i` is in the block of point `i / 1000`. -/
theorem cover2 (i : S50000x256.Idx) :
    ∃ t : Fin cfg3.N, (cfg3.win 2).flush t = true ∧ i ∈ ((cfg3.win 2).blk t).view.set := by
  have hN : cfg3.N = 50 := N_3
  have hi0 : (i 0).val < 50000 := (i 0).isLt
  have hi1 : (i 1).val < 256 := (i 1).isLt
  obtain ⟨t, ht⟩ : ∃ t : Fin cfg3.N, t.val = (i 0).val / 1000 := ⟨⟨(i 0).val / 1000, by omega⟩, rfl⟩
  obtain ⟨-, -, -, -, e4, e5, -⟩ := idx_facts t
  refine ⟨t, flush3_2 t, ?_⟩
  rw [mem_blk2]
  intro a
  match a with
  | ⟨0, _⟩ =>
    show win3_2.index t (0 : Fin 2) * 1000 ≤ (i 0).val ∧ (i 0).val < win3_2.index t (0 : Fin 2) * 1000 + 1000
    omega
  | ⟨1, _⟩ =>
    show win3_2.index t (1 : Fin 2) * 256 ≤ (i 1).val ∧ (i 1).val < win3_2.index t (1 : Fin 2) * 256 + 256
    omega

/-- Window 2's array ends holding the rectified biased array. -/
theorem final2 (c : Dev nD) : (dat3 V c).arrAt 2 cfg3.N = G2 V c :=
  (dat3 V c).arrAt_eq_of_cover 2 (G2 V c) (fun t _ => flushed2_eq V c t) cover2

/-- WINDOW 2 AFTER THE REGION, at row `i`, lane `j`. -/
theorem final3_h (c : Dev nD) (i : Fin 50000) (j : Fin 256) :
    (dat3 (F := Ideal) V c).arrAt 2 cfg3.N (ix2 i j) = hrow V c i j :=
  congrFun (final2 V c) (ix2 i j)

/-! ## Windows 3 and 4: the running column sums

Window 3's staging buffer holds, after point `n`, the sum over the tiles `0, …, n` of the tile's column sums of the
rectified biased array, and window 4's the same of its square: the first point starts from the zero block, every later
point adds its tile's column sums to what the point before left. After the last point that is the sum over all 50000
rows; addition on the extended reals being commutative and associative, the regrouping by tiles needs no finiteness. -/

/-- What tile `p` contributes to a sum over the 50000 rows: the sum over the tile's 1000 rows (zero past the last
    tile). -/
def tileSum (g : Fin 50000 → EReal) (p : ℕ) : EReal :=
  if hp : p < 50 then ∑ r : Fin 1000, g ⟨1000 * p + r.val, by have := r.isLt; omega⟩ else 0

/-- The 50 tiles' contributions add up to the sum over all rows. -/
theorem sum_tileSum (g : Fin 50000 → EReal) : ∑ p ∈ Finset.range 50, tileSum g p = ∑ i : Fin 50000, g i := by
  rw [Finset.sum_range, Cert.Lib.BlockSum.sum_eq_sum_blocks 50 1000 rfl g]
  refine Finset.sum_congr rfl fun t _ => ?_
  unfold tileSum
  rw [dif_pos t.isLt]

/-- Tile `t`'s contribution to the column sum of lane `j` is the column sum of the point's rectified biased tile. -/
theorem tileSum_eq (c : Dev nD) (t : Fin cfg3.N) (j : Fin 256) :
    tileSum (fun i => hrow V c i j) t.val = ∑ r : Fin 1000, k3_pay3 (F := Ideal) (iblk3 V c 0 t) (iblk3 V c 1 t) (ix2 r j) := by
  have hN : cfg3.N = 50 := N_3
  have ht : t.val < 50 := by have := t.isLt; omega
  unfold tileSum
  rw [dif_pos ht]
  exact Finset.sum_congr rfl fun r _ => (tile_apply V c t r j _ rfl).symm

/-- The same for the squares. -/
theorem tileSq_eq (c : Dev nD) (t : Fin cfg3.N) (j : Fin 256) :
    tileSum (fun i => hrow V c i j * hrow V c i j) t.val
      = ∑ r : Fin 1000, k3_pay3 (F := Ideal) (iblk3 V c 0 t) (iblk3 V c 1 t) (ix2 r j) * k3_pay3 (F := Ideal) (iblk3 V c 0 t) (iblk3 V c 1 t) (ix2 r j) := by
  have hN : cfg3.N = 50 := N_3
  have ht : t.val < 50 := by have := t.isLt; omega
  unfold tileSum
  rw [dif_pos ht]
  exact Finset.sum_congr rfl fun r _ =>
    (congrArg₂ (· * ·) (tile_apply V c t r j _ rfl) (tile_apply V c t r j _ rfl)).symm

/-- THE RUNNING COLUMN SUM: after point `n`, window 3's staging buffer holds at lane `j` the contributions of the tiles
    `0, …, n`. By induction on the point. -/
theorem acc3_eq (c : Dev nD) (j : Fin 256) : ∀ (n : ℕ) (h : n < cfg3.N),
    (outsAt3 V c n h).2.1 (ix2 (0 : Fin 1) j) = ∑ p ∈ Finset.range (n + 1), tileSum (fun i => hrow V c i j) p
  | 0, h => by
    rw [show outsAt3 V c 0 h = _ from outs_A V c ⟨0, h⟩ rfl]
    show k3_pay4 (F := Ideal) (iblk3 V c 0 ⟨0, h⟩) (iblk3 V c 1 ⟨0, h⟩) (k3_pay1 (F := Ideal)) (ix2 (0 : Fin 1) j) = _
    refine (pay4_apply (iblk3 V c 0 ⟨0, h⟩) (iblk3 V c 1 ⟨0, h⟩) (k3_pay1 (F := Ideal)) j).trans ?_
    rw [pay1_apply, zero_add, Finset.sum_range_one]
    exact (tileSum_eq V c ⟨0, h⟩ j).symm
  | n + 1, h => by
    have hN : cfg3.N = 50 := N_3
    have hB : ¬(⟨n + 1, h⟩ : Fin cfg3.N).val % 50 = 0 := by dsimp only; omega
    rw [show outsAt3 V c (n + 1) h = _ from outs_B V c ⟨n + 1, h⟩ hB]
    show k3_pay4 (F := Ideal) (iblk3 V c 0 ⟨n + 1, h⟩) (iblk3 V c 1 ⟨n + 1, h⟩) (outsAt3 V c n (Nat.lt_of_succ_lt h)).2.1 (ix2 (0 : Fin 1) j) = _
    refine (pay4_apply (iblk3 V c 0 ⟨n + 1, h⟩) (iblk3 V c 1 ⟨n + 1, h⟩) (outsAt3 V c n (Nat.lt_of_succ_lt h)).2.1 j).trans ?_
    rw [acc3_eq c j n (Nat.lt_of_succ_lt h), Finset.sum_range_succ _ (n + 1)]
    exact congrArg _ (tileSum_eq V c ⟨n + 1, h⟩ j).symm

/-- THE RUNNING COLUMN SUM OF SQUARES, window 4's, likewise. -/
theorem acc4_eq (c : Dev nD) (j : Fin 256) : ∀ (n : ℕ) (h : n < cfg3.N),
    (outsAt3 V c n h).2.2 (ix2 (0 : Fin 1) j)
      = ∑ p ∈ Finset.range (n + 1), tileSum (fun i => hrow V c i j * hrow V c i j) p
  | 0, h => by
    rw [show outsAt3 V c 0 h = _ from outs_A V c ⟨0, h⟩ rfl]
    show k3_pay5 (F := Ideal) (iblk3 V c 0 ⟨0, h⟩) (iblk3 V c 1 ⟨0, h⟩) (k3_pay2 (F := Ideal)) (ix2 (0 : Fin 1) j) = _
    refine (pay5_apply (iblk3 V c 0 ⟨0, h⟩) (iblk3 V c 1 ⟨0, h⟩) (k3_pay2 (F := Ideal)) j).trans ?_
    rw [pay2_apply, zero_add, Finset.sum_range_one]
    exact (tileSq_eq V c ⟨0, h⟩ j).symm
  | n + 1, h => by
    have hN : cfg3.N = 50 := N_3
    have hB : ¬(⟨n + 1, h⟩ : Fin cfg3.N).val % 50 = 0 := by dsimp only; omega
    rw [show outsAt3 V c (n + 1) h = _ from outs_B V c ⟨n + 1, h⟩ hB]
    show k3_pay5 (F := Ideal) (iblk3 V c 0 ⟨n + 1, h⟩) (iblk3 V c 1 ⟨n + 1, h⟩) (outsAt3 V c n (Nat.lt_of_succ_lt h)).2.2 (ix2 (0 : Fin 1) j) = _
    refine (pay5_apply (iblk3 V c 0 ⟨n + 1, h⟩) (iblk3 V c 1 ⟨n + 1, h⟩) (outsAt3 V c n (Nat.lt_of_succ_lt h)).2.2 j).trans ?_
    rw [acc4_eq c j n (Nat.lt_of_succ_lt h), Finset.sum_range_succ _ (n + 1)]
    exact congrArg _ (tileSq_eq V c ⟨n + 1, h⟩ j).symm

/-! ## Windows 3 and 4: the one write-back, after the last point -/

/-- The last point. -/
theorem h49 : 49 < cfg3.N := by rw [show cfg3.N = 50 from N_3]; decide

/-- What the last point leaves in window 3's and window 4's staging buffers, as contents of their `[1,256]` arrays (a
    window's one block is its whole array). -/
abbrev result3 (c : Dev nD) : Buf (Elt Ideal) ((c : Thread nD τ).loc main_v67_1) := (outsAt3 V c 49 h49).2.1
abbrev result4 (c : Dev nD) : Buf (Elt Ideal) ((c : Thread nD τ).loc main_v67_2) := (outsAt3 V c 49 h49).2.2

/-- The staging buffers' contents depend on the point's number only. -/
theorem outsAt_congr (c : Dev nD) {n m : ℕ} (e : n = m) (hn : n < cfg3.N) (hm : m < cfg3.N) :
    outsAt3 V c n hn = outsAt3 V c m hm := by
  subst e; rfl

/-- Window 3 is written back at the last point only, and what is written is the whole array. -/
theorem flushed3_eq (c : Dev nD) (t : Fin cfg3.N) (hf : (cfg3.win 3).flush t = true) :
    (dat3 V c).flushed 3 t = ((cfg3.win 3).blk t).view.read (Elt Ideal) (result3 V c) := by
  have hN : cfg3.N = 50 := N_3
  have h : t.val = 49 := by have := (flush3_3 t).mp hf; have := t.isLt; omega
  obtain ⟨-, -, -, -, -, -, e6, e7, -⟩ := idx_facts t
  show (cfg3.win 3).cut (grid3.coords t) ((dat3 V c).after 3 t) = _
  rw [after3_3, outsAt_congr V c h t.isLt h49]
  funext y
  show (result3 V c : S1x256.Idx → Elt Ideal .f32) y = (result3 V c : S1x256.Idx → Elt Ideal .f32) (((cfg3.win 3).blk t).view.emb y)
  refine congrArg _ (funext fun a => Fin.ext ?_)
  match a with
  | ⟨0, _⟩ => show (y 0).val = win3_3.index t (0 : Fin 2) * 1 + 1 * (y 0).val; omega
  | ⟨1, _⟩ => show (y 1).val = win3_3.index t (1 : Fin 2) * 256 + 1 * (y 1).val; omega

theorem flushed4_eq (c : Dev nD) (t : Fin cfg3.N) (hf : (cfg3.win 4).flush t = true) :
    (dat3 V c).flushed 4 t = ((cfg3.win 4).blk t).view.read (Elt Ideal) (result4 V c) := by
  have hN : cfg3.N = 50 := N_3
  have h : t.val = 49 := by have := (flush3_4 t).mp hf; have := t.isLt; omega
  obtain ⟨-, -, -, -, -, -, -, -, e8, e9⟩ := idx_facts t
  show (cfg3.win 4).cut (grid3.coords t) ((dat3 V c).after 4 t) = _
  rw [after3_4, outsAt_congr V c h t.isLt h49]
  funext y
  show (result4 V c : S1x256.Idx → Elt Ideal .f32) y = (result4 V c : S1x256.Idx → Elt Ideal .f32) (((cfg3.win 4).blk t).view.emb y)
  refine congrArg _ (funext fun a => Fin.ext ?_)
  match a with
  | ⟨0, _⟩ => show (y 0).val = win3_4.index t (0 : Fin 2) * 1 + 1 * (y 0).val; omega
  | ⟨1, _⟩ => show (y 1).val = win3_4.index t (1 : Fin 2) * 256 + 1 * (y 1).val; omega

/-- Every index of the `[1,256]` array is in the last point's block of window 3. -/
theorem cover3 (i : S1x256.Idx) :
    ∃ t : Fin cfg3.N, (cfg3.win 3).flush t = true ∧ i ∈ ((cfg3.win 3).blk t).view.set := by
  obtain ⟨-, -, -, -, -, -, e6, e7, -⟩ := idx_facts ⟨49, h49⟩
  refine ⟨⟨49, h49⟩, (flush3_3 _).mpr rfl, ?_⟩
  show i ∈ ((View.whole main_v67_1).slice (win3_3.rect ⟨49, h49⟩)).set
  rw [View.set_slice_whole, Rect.mem_set_unit]
  intro a
  have h0 : (i 0).val < 1 := (i 0).isLt
  have h1 : (i 1).val < 256 := (i 1).isLt
  match a with
  | ⟨0, _⟩ =>
    show win3_3.index ⟨49, h49⟩ (0 : Fin 2) * 1 ≤ (i 0).val ∧ (i 0).val < win3_3.index ⟨49, h49⟩ (0 : Fin 2) * 1 + 1
    omega
  | ⟨1, _⟩ =>
    show win3_3.index ⟨49, h49⟩ (1 : Fin 2) * 256 ≤ (i 1).val ∧ (i 1).val < win3_3.index ⟨49, h49⟩ (1 : Fin 2) * 256 + 256
    omega

theorem cover4 (i : S1x256.Idx) :
    ∃ t : Fin cfg3.N, (cfg3.win 4).flush t = true ∧ i ∈ ((cfg3.win 4).blk t).view.set := by
  obtain ⟨-, -, -, -, -, -, -, -, e8, e9⟩ := idx_facts ⟨49, h49⟩
  refine ⟨⟨49, h49⟩, (flush3_4 _).mpr rfl, ?_⟩
  show i ∈ ((View.whole main_v67_2).slice (win3_4.rect ⟨49, h49⟩)).set
  rw [View.set_slice_whole, Rect.mem_set_unit]
  intro a
  have h0 : (i 0).val < 1 := (i 0).isLt
  have h1 : (i 1).val < 256 := (i 1).isLt
  match a with
  | ⟨0, _⟩ =>
    show win3_4.index ⟨49, h49⟩ (0 : Fin 2) * 1 ≤ (i 0).val ∧ (i 0).val < win3_4.index ⟨49, h49⟩ (0 : Fin 2) * 1 + 1
    omega
  | ⟨1, _⟩ =>
    show win3_4.index ⟨49, h49⟩ (1 : Fin 2) * 256 ≤ (i 1).val ∧ (i 1).val < win3_4.index ⟨49, h49⟩ (1 : Fin 2) * 256 + 256
    omega

/-- Windows 3 and 4's arrays end holding what the last point left in their staging buffers. -/
theorem final3 (c : Dev nD) : (dat3 V c).arrAt 3 cfg3.N = result3 V c :=
  (dat3 V c).arrAt_eq_of_cover 3 (result3 V c) (flushed3_eq V c) cover3
theorem final4 (c : Dev nD) : (dat3 V c).arrAt 4 cfg3.N = result4 V c :=
  (dat3 V c).arrAt_eq_of_cover 4 (result4 V c) (flushed4_eq V c) cover4

/-- WINDOW 3 AFTER THE REGION, at lane `j`: the column sum of the rectified biased array over all 50000 rows. -/
theorem final3_sum (c : Dev nD) (j : Fin 256) :
    (dat3 (F := Ideal) V c).arrAt 3 cfg3.N (ix2 (0 : Fin 1) j) = ∑ i : Fin 50000, hrow V c i j := by
  refine (congrFun (final3 V c) (ix2 (0 : Fin 1) j)).trans ?_
  show (outsAt3 V c 49 h49).2.1 (ix2 (0 : Fin 1) j) = _
  rw [acc3_eq V c j 49 h49]
  exact sum_tileSum (fun i => hrow V c i j)

/-- WINDOW 4 AFTER THE REGION, at lane `j`: the column sum of its square. -/
theorem final3_sq (c : Dev nD) (j : Fin 256) :
    (dat3 (F := Ideal) V c).arrAt 4 cfg3.N (ix2 (0 : Fin 1) j) = ∑ i : Fin 50000, hrow V c i j * hrow V c i j := by
  refine (congrFun (final4 V c) (ix2 (0 : Fin 1) j)).trans ?_
  show (outsAt3 V c 49 h49).2.2 (ix2 (0 : Fin 1) j) = _
  rw [acc4_eq V c j 49 h49]
  exact sum_tileSum (fun i => hrow V c i j * hrow V c i j)

end Region

end Cert.KernelIdeal.RegionStats
end
-- ==== Proof.RefStages.lean ====
/-
  The reference program's stages that region 3's comparison reads, over the extended reals.

  The second layer ends `relu (Agg (h₁ · W₂) + b₂)`: the bias row added to every row of the aggregated product and
  the maximum with zero taken. This module reads that last stage at an entry (`ref_layer2`), and records that the
  second layer recomputes the edge lists and the normalisation coefficients by the same operations on the same
  arguments as the first (`ref_src2`, `ref_dst2`, `ref_nrm2`: stage by stage, each stage's term is the earlier stage's
  with equal operands).
-/
import proofs.«148368_j71451075936454_1_alg».proof.Proof.RefRead
import Idealize.ShloMosaic.Lib.ValueIdx
import Idealize.ShloMosaic.PureOps.Ideal.Laws

noncomputable section

namespace Cert.ReferenceIdeal.RefStages

open Cert.ReferenceIdeal Cert.ReferenceIdeal.ReadP Idealize.ShloMosaic Idealize.ShloMosaic.ValueIdx

/-! ## The bias row added and the result rectified, at an entry -/

/-- The second layer's bias, broadcast `[256] → [1,256] → [50000,256]`, read at `(i, j)`: lane `j` of the bias. -/
theorem bias2_apply (x6 : (⟨S256, .f32⟩ : BufTy).Contents (Elt Ideal)) (i : Fin 50000) (j : Fin 256) :
    val_main_v101 (F := Ideal) x6 (ix2 i j) = x6 (ix1 j) := by
  rw [val_main_v101_apply, val_main_v100_apply]
  exact congrArg x6 (funext fun a => Fin.ext (by match a with | ⟨0, _⟩ => rfl))

/-- THE SECOND LAYER at `(i, j)`: the maximum of the aggregated product plus the bias's lane `j`, and zero. -/
theorem ref_layer2 (x0 : (⟨S50000x1024, .f32⟩ : BufTy).Contents (Elt Ideal)) (x1 : (⟨S2x800000, .i32⟩ : BufTy).Contents (Elt Ideal)) (x2 : (⟨S800000, .f32⟩ : BufTy).Contents (Elt Ideal)) (x3 : (⟨S1024x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (i : Fin 50000) (j : Fin 256) :
    val_main_v103 (F := Ideal) x0 x1 x2 x3 x4 x5 x6 (ix2 i j)
      = FloatOps.maximumf (F := Ideal) (FloatOps.addf (F := Ideal) (val_main_v99 (F := Ideal) x0 x1 x2 x3 x4 x5 (ix2 i j)) (x6 (ix1 j)))
          (FloatOps.ofBits .f32 0x00000000#32) := by
  rw [val_main_v103_apply, val_main_v102_apply, bias2_apply, val_main_call3_v0_apply, val_main_call3_cst_apply]

/-! ## The second layer's edge lists and coefficients are the first layer's

The second layer repeats, on the same arguments, the operations that build the source and destination lists (the edge
list's two rows with the self loops appended) and the symmetric normalisation coefficients. Stage by stage, each
repeated stage is the same operation applied to operands already shown equal. -/

section Repeat
variable {F : FTy → Type} [FloatOps F]

theorem eq_v52 (x1 : (⟨S2x800000, .i32⟩ : BufTy).Contents (Elt F)) :
    val_main_v52 (F := F) x1 = val_main_v0 (F := F) x1 := by
  unfold val_main_v52 val_main_v0
  rfl
theorem eq_v53 (x1 : (⟨S2x800000, .i32⟩ : BufTy).Contents (Elt F)) :
    val_main_v53 (F := F) x1 = val_main_v1 (F := F) x1 := by
  unfold val_main_v53 val_main_v1
  rw [eq_v52]
theorem eq_v54 (x1 : (⟨S2x800000, .i32⟩ : BufTy).Contents (Elt F)) :
    val_main_v54 (F := F) x1 = val_main_v2 (F := F) x1 := by
  unfold val_main_v54 val_main_v2
  rfl
theorem eq_v55 (x1 : (⟨S2x800000, .i32⟩ : BufTy).Contents (Elt F)) :
    val_main_v55 (F := F) x1 = val_main_v3 (F := F) x1 := by
  unfold val_main_v55 val_main_v3
  rw [eq_v54]
theorem eq_v56 :
    val_main_v56 (F := F) = val_main_v4 (F := F) := by
  unfold val_main_v56 val_main_v4
  rfl
theorem eq_v57 (x1 : (⟨S2x800000, .i32⟩ : BufTy).Contents (Elt F)) :
    val_main_v57 (F := F) x1 = val_main_v5 (F := F) x1 := by
  unfold val_main_v57 val_main_v5
  rw [eq_v53, eq_v56]
theorem eq_v58 (x1 : (⟨S2x800000, .i32⟩ : BufTy).Contents (Elt F)) :
    val_main_v58 (F := F) x1 = val_main_v6 (F := F) x1 := by
  unfold val_main_v58 val_main_v6
  rw [eq_v55, eq_v56]
theorem eq_cst_10 :
    val_main_cst_10 (F := F) = val_main_cst (F := F) := by
  unfold val_main_cst_10 val_main_cst
  rfl
theorem eq_v59 :
    val_main_v59 (F := F) = val_main_v7 (F := F) := by
  unfold val_main_v59 val_main_v7
  rw [eq_cst_10]
theorem eq_v60 (x2 : (⟨S800000, .f32⟩ : BufTy).Contents (Elt F)) :
    val_main_v60 (F := F) x2 = val_main_v8 (F := F) x2 := by
  unfold val_main_v60 val_main_v8
  rw [eq_v59]
theorem eq_cst_11 :
    val_main_cst_11 (F := F) = val_main_cst_0 (F := F) := by
  unfold val_main_cst_11 val_main_cst_0
  rfl
theorem eq_v61 :
    val_main_v61 (F := F) = val_main_v9 (F := F) := by
  unfold val_main_v61 val_main_v9
  rw [eq_cst_11]
theorem eq_v62 (x1 : (⟨S2x800000, .i32⟩ : BufTy).Contents (Elt F)) :
    val_main_v62 (F := F) x1 = val_main_v10 (F := F) x1 := by
  unfold val_main_v62 val_main_v10
  rw [eq_v58]
theorem eq_v63 (x1 : (⟨S2x800000, .i32⟩ : BufTy).Contents (Elt F)) (x2 : (⟨S800000, .f32⟩ : BufTy).Contents (Elt F)) :
    val_main_v63 (F := F) x1 x2 = val_main_v11 (F := F) x1 x2 := by
  unfold val_main_v63 val_main_v11
  rw [eq_v61, eq_v62, eq_v60]
theorem eq_cst_12 :
    val_main_cst_12 (F := F) = val_main_cst_1 (F := F) := by
  unfold val_main_cst_12 val_main_cst_1
  rfl
theorem eq_v64 :
    val_main_v64 (F := F) = val_main_v12 (F := F) := by
  unfold val_main_v64 val_main_v12
  rw [eq_cst_12]
theorem eq_v65 (x1 : (⟨S2x800000, .i32⟩ : BufTy).Contents (Elt F)) (x2 : (⟨S800000, .f32⟩ : BufTy).Contents (Elt F)) :
    val_main_v65 (F := F) x1 x2 = val_main_v13 (F := F) x1 x2 := by
  unfold val_main_v65 val_main_v13
  rw [eq_v63, eq_v64]
theorem eq_cst_13 :
    val_main_cst_13 (F := F) = val_main_cst_2 (F := F) := by
  unfold val_main_cst_13 val_main_cst_2
  rfl
theorem eq_v66 :
    val_main_v66 (F := F) = val_main_v14 (F := F) := by
  unfold val_main_v66 val_main_v14
  rw [eq_cst_13]
theorem eq_v67 (x1 : (⟨S2x800000, .i32⟩ : BufTy).Contents (Elt F)) (x2 : (⟨S800000, .f32⟩ : BufTy).Contents (Elt F)) :
    val_main_v67 (F := F) x1 x2 = val_main_v15 (F := F) x1 x2 := by
  unfold val_main_v67 val_main_v15
  rw [eq_v63, eq_v66]
theorem eq_v68 (x1 : (⟨S2x800000, .i32⟩ : BufTy).Contents (Elt F)) (x2 : (⟨S800000, .f32⟩ : BufTy).Contents (Elt F)) :
    val_main_v68 (F := F) x1 x2 = val_main_v16 (F := F) x1 x2 := by
  unfold val_main_v68 val_main_v16
  rw [eq_v67]
theorem eq_cst_14 :
    val_main_cst_14 (F := F) = val_main_cst_3 (F := F) := by
  unfold val_main_cst_14 val_main_cst_3
  rfl
theorem eq_call2_v0 :
    val_main_call2_v0 (F := F) = val_main_call0_v0 (F := F) := by
  unfold val_main_call2_v0 val_main_call0_v0
  rw [eq_cst_14]
theorem eq_call2_v1 :
    val_main_call2_v1 (F := F) = val_main_call0_v1 (F := F) := by
  unfold val_main_call2_v1 val_main_call0_v1
  rw [eq_call2_v0]
theorem eq_v69 (x1 : (⟨S2x800000, .i32⟩ : BufTy).Contents (Elt F)) (x2 : (⟨S800000, .f32⟩ : BufTy).Contents (Elt F)) :
    val_main_v69 (F := F) x1 x2 = val_main_v17 (F := F) x1 x2 := by
  unfold val_main_v69 val_main_v17
  rw [eq_v65, eq_v68, eq_call2_v1]
theorem eq_c_15 :
    val_main_c_15 (F := F) = val_main_c (F := F) := by
  unfold val_main_c_15 val_main_c
  rfl
theorem eq_v70 :
    val_main_v70 (F := F) = val_main_v18 (F := F) := by
  unfold val_main_v70 val_main_v18
  rw [eq_c_15]
theorem eq_v71 (x1 : (⟨S2x800000, .i32⟩ : BufTy).Contents (Elt F)) :
    val_main_v71 (F := F) x1 = val_main_v19 (F := F) x1 := by
  unfold val_main_v71 val_main_v19
  rw [eq_v57, eq_v70]
theorem eq_c_16 :
    val_main_c_16 (F := F) = val_main_c_4 (F := F) := by
  unfold val_main_c_16 val_main_c_4
  rfl
theorem eq_v72 :
    val_main_v72 (F := F) = val_main_v20 (F := F) := by
  unfold val_main_v72 val_main_v20
  rw [eq_c_16]
theorem eq_v73 (x1 : (⟨S2x800000, .i32⟩ : BufTy).Contents (Elt F)) :
    val_main_v73 (F := F) x1 = val_main_v21 (F := F) x1 := by
  unfold val_main_v73 val_main_v21
  rw [eq_v57, eq_v72]
theorem eq_v74 (x1 : (⟨S2x800000, .i32⟩ : BufTy).Contents (Elt F)) :
    val_main_v74 (F := F) x1 = val_main_v22 (F := F) x1 := by
  unfold val_main_v74 val_main_v22
  rw [eq_v71, eq_v73, eq_v57]
theorem eq_v75 (x1 : (⟨S2x800000, .i32⟩ : BufTy).Contents (Elt F)) :
    val_main_v75 (F := F) x1 = val_main_v23 (F := F) x1 := by
  unfold val_main_v75 val_main_v23
  rw [eq_v74]
theorem eq_v76 (x1 : (⟨S2x800000, .i32⟩ : BufTy).Contents (Elt F)) (x2 : (⟨S800000, .f32⟩ : BufTy).Contents (Elt F)) :
    val_main_v76 (F := F) x1 x2 = val_main_v24 (F := F) x1 x2 := by
  unfold val_main_v76 val_main_v24
  rw [eq_v69, eq_v75]
theorem eq_v77 (x1 : (⟨S2x800000, .i32⟩ : BufTy).Contents (Elt F)) (x2 : (⟨S800000, .f32⟩ : BufTy).Contents (Elt F)) :
    val_main_v77 (F := F) x1 x2 = val_main_v25 (F := F) x1 x2 := by
  unfold val_main_v77 val_main_v25
  rw [eq_v76, eq_v60]
theorem eq_c_17 :
    val_main_c_17 (F := F) = val_main_c_5 (F := F) := by
  unfold val_main_c_17 val_main_c_5
  rfl
theorem eq_v78 :
    val_main_v78 (F := F) = val_main_v26 (F := F) := by
  unfold val_main_v78 val_main_v26
  rw [eq_c_17]
theorem eq_v79 (x1 : (⟨S2x800000, .i32⟩ : BufTy).Contents (Elt F)) :
    val_main_v79 (F := F) x1 = val_main_v27 (F := F) x1 := by
  unfold val_main_v79 val_main_v27
  rw [eq_v58, eq_v78]
theorem eq_c_18 :
    val_main_c_18 (F := F) = val_main_c_6 (F := F) := by
  unfold val_main_c_18 val_main_c_6
  rfl
theorem eq_v80 :
    val_main_v80 (F := F) = val_main_v28 (F := F) := by
  unfold val_main_v80 val_main_v28
  rw [eq_c_18]
theorem eq_v81 (x1 : (⟨S2x800000, .i32⟩ : BufTy).Contents (Elt F)) :
    val_main_v81 (F := F) x1 = val_main_v29 (F := F) x1 := by
  unfold val_main_v81 val_main_v29
  rw [eq_v58, eq_v80]
theorem eq_v82 (x1 : (⟨S2x800000, .i32⟩ : BufTy).Contents (Elt F)) :
    val_main_v82 (F := F) x1 = val_main_v30 (F := F) x1 := by
  unfold val_main_v82 val_main_v30
  rw [eq_v79, eq_v81, eq_v58]
theorem eq_v83 (x1 : (⟨S2x800000, .i32⟩ : BufTy).Contents (Elt F)) :
    val_main_v83 (F := F) x1 = val_main_v31 (F := F) x1 := by
  unfold val_main_v83 val_main_v31
  rw [eq_v82]
theorem eq_v84 (x1 : (⟨S2x800000, .i32⟩ : BufTy).Contents (Elt F)) (x2 : (⟨S800000, .f32⟩ : BufTy).Contents (Elt F)) :
    val_main_v84 (F := F) x1 x2 = val_main_v32 (F := F) x1 x2 := by
  unfold val_main_v84 val_main_v32
  rw [eq_v69, eq_v83]
theorem eq_v85 (x1 : (⟨S2x800000, .i32⟩ : BufTy).Contents (Elt F)) (x2 : (⟨S800000, .f32⟩ : BufTy).Contents (Elt F)) :
    val_main_v85 (F := F) x1 x2 = val_main_v33 (F := F) x1 x2 := by
  unfold val_main_v85 val_main_v33
  rw [eq_v77, eq_v84]

end Repeat

/-- The second layer's source list is the first layer's. -/
theorem ref_src2 (x1 : (⟨S2x800000, .i32⟩ : BufTy).Contents (Elt Ideal)) : val_main_v57 (F := Ideal) x1 = val_main_v5 (F := Ideal) x1 := eq_v57 x1
/-- The second layer's destination list is the first layer's. -/
theorem ref_dst2 (x1 : (⟨S2x800000, .i32⟩ : BufTy).Contents (Elt Ideal)) : val_main_v58 (F := Ideal) x1 = val_main_v6 (F := Ideal) x1 := eq_v58 x1
/-- The second layer's normalisation coefficients are the first layer's. -/
theorem ref_nrm2 (x1 : (⟨S2x800000, .i32⟩ : BufTy).Contents (Elt Ideal)) (x2 : (⟨S800000, .f32⟩ : BufTy).Contents (Elt Ideal)) : val_main_v85 (F := Ideal) x1 x2 = val_main_v33 (F := Ideal) x1 x2 := eq_v85 x1 x2

end Cert.ReferenceIdeal.RefStages

end
-- ==== Proof.RegionLinksB.lean ====
/-
  Region 3 linked to the reference's second layer.

  Region 3 computes, from its first input `a` and its bias row `b`, the array `max (a + b) 0` and the column sums of it
  and of its square over all 50000 rows. Where `a` is the reference's second aggregated product and `b` its second
  bias, that array is the reference's second layer entry by entry (`hrow_eq`: both sides are the same maximum of the
  same sum), so the region's three outputs are the second layer (`link3_h`) and the column sums of it and of its
  square (`link3_sum`, `link3_sq`: the sums agree term by term).
-/
import proofs.«148368_j71451075936454_1_alg».proof.Proof.RegionStats
import proofs.«148368_j71451075936454_1_alg».proof.Proof.RefStages

noncomputable section

namespace Cert.KernelIdeal.RegionLinksB

open Cert.KernelIdeal Cert.KernelIdeal.Gen Idealize.ShloMosaic Idealize.ShloMosaic.ValueIdx
open Idealize.ShloMosaic.TcCoe Idealize.SL.Sem
open Cert.ReferenceIdeal.ReadP Cert.KernelIdeal.RegionStats

variable (V : (c : Dev nD) → (b : Ref sig .tc) → Buf (Elt Ideal) ((c : Thread nD τ).loc b))

/-- Where region 3 finds the second layer's aggregated product in its first input and the second layer's bias in its
    bias row, the rectified biased array it computes is, entry by entry, the reference's second layer. -/
theorem hrow_eq (c : Dev nD)
    (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (h65 : V c main_v65 = val_main_v99 (F := Ideal) x0 x1 x2 x3 x4 x5)
    (h66 : ∀ j : Fin 256, (V c main_v66 : S1x256.Idx → Elt Ideal .f32) (ix2 (0 : Fin 1) j) = x6 (ix1 j)) (i : Fin 50000) (j : Fin 256) :
    hrow V c i j = val_main_v103 (F := Ideal) x0 x1 x2 x3 x4 x5 x6 (ix2 i j) := by
  rw [Cert.ReferenceIdeal.RefStages.ref_layer2]
  unfold hrow
  rw [h65, h66 j]

/-- REGION 3's FIRST OUTPUT is the reference's second layer. -/
theorem link3_h (c : Dev nD)
    (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (h65 : V c main_v65 = val_main_v99 (F := Ideal) x0 x1 x2 x3 x4 x5)
    (h66 : ∀ j : Fin 256, (V c main_v66 : S1x256.Idx → Elt Ideal .f32) (ix2 (0 : Fin 1) j) = x6 (ix1 j)) :
    (dat3 (F := Ideal) V c).arrAt 2 cfg3.N = val_main_v103 (F := Ideal) x0 x1 x2 x3 x4 x5 x6 := by
  refine (final2 V c).trans ?_
  funext (idx : S50000x256.Idx)
  obtain ⟨i, j, rfl⟩ : ∃ (i : Fin 50000) (j : Fin 256), idx = ix2 i j := ⟨idx 0, idx 1, eq_ix2 idx⟩
  exact hrow_eq V c x0 x1 x2 x3 x4 x5 x6 h65 h66 i j

/-- REGION 3's SECOND OUTPUT at lane `j` is the column sum of the reference's second layer over all 50000 rows. -/
theorem link3_sum (c : Dev nD)
    (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (h65 : V c main_v65 = val_main_v99 (F := Ideal) x0 x1 x2 x3 x4 x5)
    (h66 : ∀ j : Fin 256, (V c main_v66 : S1x256.Idx → Elt Ideal .f32) (ix2 (0 : Fin 1) j) = x6 (ix1 j)) (j : Fin 256) :
    (dat3 (F := Ideal) V c).arrAt 3 cfg3.N (ix2 (0 : Fin 1) j)
      = ∑ i : Fin 50000, val_main_v103 (F := Ideal) x0 x1 x2 x3 x4 x5 x6 (ix2 i j) :=
  (final3_sum V c j).trans
    (Finset.sum_congr (M := Elt Ideal .f32) rfl fun i _ => hrow_eq V c x0 x1 x2 x3 x4 x5 x6 h65 h66 i j)

/-- REGION 3's THIRD OUTPUT at lane `j` is the column sum of its square. -/
theorem link3_sq (c : Dev nD)
    (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (h65 : V c main_v65 = val_main_v99 (F := Ideal) x0 x1 x2 x3 x4 x5)
    (h66 : ∀ j : Fin 256, (V c main_v66 : S1x256.Idx → Elt Ideal .f32) (ix2 (0 : Fin 1) j) = x6 (ix1 j)) (j : Fin 256) :
    (dat3 (F := Ideal) V c).arrAt 4 cfg3.N (ix2 (0 : Fin 1) j)
      = ∑ i : Fin 50000, val_main_v103 (F := Ideal) x0 x1 x2 x3 x4 x5 x6 (ix2 i j) * val_main_v103 (F := Ideal) x0 x1 x2 x3 x4 x5 x6 (ix2 i j) :=
  (final3_sq V c j).trans
    (Finset.sum_congr (M := Elt Ideal .f32) rfl fun i _ =>
      congrArg₂ (· * ·) (hrow_eq V c x0 x1 x2 x3 x4 x5 x6 h65 h66 i j) (hrow_eq V c x0 x1 x2 x3 x4 x5 x6 h65 h66 i j))

end Cert.KernelIdeal.RegionLinksB

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.RegionNorms.lean ====
/-
  The last region of the kernel (per row tile: BatchNorm with the column statistics, then LayerNorm along the row)
  against the matching stages of the reference.

  Both programs compute, for each row, the same expression in the same order of operations:
  y = (h - mu) * (var + eps)^(-1/2) * g + b along the row, m = (sum y) / 256, d = y - m, v = (sum d*d) / 256,
  out = d * (v + eps)^(-1/2) * g' + b'. The kernel does it on a [1000, 256] tile with a lane sum and column
  broadcasts; the reference on the whole [50000, 256] array with a host reduction and broadcasts. Here: that one
  row function (Out); the kernel's stored tile read at an index; the output array read off the tiles; the
  reference's stages read at an index; and the two set side by side under the hypotheses that the inputs agree.
-/
import proofs.«148368_j71451075936454_1_alg».proof.Proof.Gen.KernelIdeal.Frame
import proofs.«148368_j71451075936454_1_alg».proof.Proof.RefRead
import proofs.«148368_j71451075936454_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionNorms

open Cert.KernelIdeal Cert.KernelIdeal.Gen Idealize.ShloMosaic Idealize.ShloMosaic.TcCoe Idealize.ShloMosaic.ValueIdx
open Idealize.ShloMosaic.Pipeline (Dat)
open Cert.ReferenceIdeal.ReadP

/-! ## The two normalisations on one row, over the extended reals -/

/-- The epsilon both normalisations add under the square root (the word both programs print). -/
abbrev eps : EReal := Ideal.ofBits .f32 0x3727C5AC#32

/-- The row length, 256, as the word both programs divide by. -/
abbrev len : EReal := Ideal.ofBits .f32 0x43800000#32

/-- BatchNorm of one row h with the column statistics mu, var and the affine pair g, b:
    (h - mu) * (var + eps)^(-1/2) * g + b, entry by entry, in the programs' order of operations. -/
def bnRow (h mu var g b : Fin 256 → EReal) (k : Fin 256) : EReal :=
  (h k - mu k) * Ideal.rsqrt (var k + eps) * g k + b k

/-- The mean of a row: its sum divided by 256. -/
def rowMean (y : Fin 256 → EReal) : EReal := Ideal.div (∑ k : Fin 256, y k) len

/-- LayerNorm of one row y with the affine pair g', b': with d = y - mean y,
    d * (mean (d*d) + eps)^(-1/2) * g' + b', in the programs' order of operations. -/
def lnRow (y g' b' : Fin 256 → EReal) (j : Fin 256) : EReal :=
  (y j - rowMean y) * Ideal.rsqrt (rowMean (fun k => (y k - rowMean y) * (y k - rowMean y)) + eps) * g' j + b' j

/-- One row of the result: LayerNorm of BatchNorm of the row. -/
def Out (h mu var g b g' b' : Fin 256 → EReal) (j : Fin 256) : EReal :=
  lnRow (bnRow h mu var g b) g' b' j

/-! ## Layout operations of the kernel's body read at an index -/

/-- A column [a, 1] repeated along b lanes reads, at (p, q), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The kernel's sum along the lanes of a [1000, 256] tile, at row r, is the sum of the row's 256 entries. -/
theorem laneSum_apply (src : FVec Ideal S1000x256 .f32) (hφ : FKind.Formats .f32)
    (hacc : (0x00000000#32 : BitVec 32) = 0x00000000#32) (r : Fin 1000) :
    multiReduction .add [1] S1000 src 0x00000000#32 reduces_S1000x256_S1000 hφ hacc (ix1 r)
      = ∑ k : Fin 256, src (ix2 r k) := by
  refine (Ideal.multiReduction_add_single src 0x00000000#32 reduces_S1000x256_S1000 hφ hacc (ix1 r)).trans ?_
  refine Finset.sum_congr rfl fun k _ => congrArg src ?_
  funext a
  apply Fin.ext
  match a with
  | ⟨0, _⟩ => rfl
  | ⟨1, _⟩ => rfl

/-! ## The kernel's payload at an index -/

/-- The kernel's reciprocal square root of a vector, read at an index. -/
theorem rsqrt_apply {s : Shape} {φ : FTy} (a : FVec Ideal s φ) (i : s.Idx) : rsqrt a i = Ideal.rsqrt (a i) := rfl

/-- The body's normalised tile before the last affine step, at row r and lane j, from the loaded blocks. -/
theorem pay2_apply (x0 : Vec Ideal S1000x256 .f32) (x1 x2 x3 x4 : Vec Ideal S1x256 .f32) (r : Fin 1000) (j : Fin 256) :
    k4_pay2 x0 x1 x2 x3 x4 (ix2 r j)
      = (bnRow (fun k => x0 (ix2 r k)) (fun k => x1 (ix2 (0 : Fin 1) k)) (fun k => x2 (ix2 (0 : Fin 1) k))
            (fun k => x3 (ix2 (0 : Fin 1) k)) (fun k => x4 (ix2 (0 : Fin 1) k)) j
          - rowMean (bnRow (fun k => x0 (ix2 r k)) (fun k => x1 (ix2 (0 : Fin 1) k)) (fun k => x2 (ix2 (0 : Fin 1) k))
            (fun k => x3 (ix2 (0 : Fin 1) k)) (fun k => x4 (ix2 (0 : Fin 1) k))))
        * Ideal.rsqrt (rowMean (fun k =>
            (bnRow (fun k => x0 (ix2 r k)) (fun k => x1 (ix2 (0 : Fin 1) k)) (fun k => x2 (ix2 (0 : Fin 1) k))
              (fun k => x3 (ix2 (0 : Fin 1) k)) (fun k => x4 (ix2 (0 : Fin 1) k)) k
            - rowMean (bnRow (fun k => x0 (ix2 r k)) (fun k => x1 (ix2 (0 : Fin 1) k)) (fun k => x2 (ix2 (0 : Fin 1) k))
              (fun k => x3 (ix2 (0 : Fin 1) k)) (fun k => x4 (ix2 (0 : Fin 1) k))))
            * (bnRow (fun k => x0 (ix2 r k)) (fun k => x1 (ix2 (0 : Fin 1) k)) (fun k => x2 (ix2 (0 : Fin 1) k))
              (fun k => x3 (ix2 (0 : Fin 1) k)) (fun k => x4 (ix2 (0 : Fin 1) k)) k
            - rowMean (bnRow (fun k => x0 (ix2 r k)) (fun k => x1 (ix2 (0 : Fin 1) k)) (fun k => x2 (ix2 (0 : Fin 1) k))
              (fun k => x3 (ix2 (0 : Fin 1) k)) (fun k => x4 (ix2 (0 : Fin 1) k))))) + eps) := by
  unfold k4_pay2
  simp only [mulf_apply, subf_apply, addf_apply, divf_apply, rsqrt_apply, broadcast_apply,
    broadcastTo_a1_ab_apply, broadcastTo_1b_ab_apply, Cert.Lib.Column.shapeCast_a_a1_apply, laneSum_apply, shapeCast_self]
  rw [laneSum_apply, laneSum_apply]
  simp only [mulf_apply, subf_apply, addf_apply, divf_apply, rsqrt_apply, broadcast_apply,
    broadcastTo_a1_ab_apply, broadcastTo_1b_ab_apply, Cert.Lib.Column.shapeCast_a_a1_apply, shapeCast_self]
  rw [laneSum_apply]
  simp only [mulf_apply, subf_apply, addf_apply, divf_apply, rsqrt_apply, broadcast_apply,
    broadcastTo_a1_ab_apply, broadcastTo_1b_ab_apply, Cert.Lib.Column.shapeCast_a_a1_apply, shapeCast_self]
  rfl

/-- The body's stored tile at row r and lane j is Out of row r of the first block and of the six row vectors. -/
theorem pay_apply (x0 : Vec Ideal S1000x256 .f32) (x1 x2 x3 x4 x5 x6 : Vec Ideal S1x256 .f32) (r : Fin 1000) (j : Fin 256) :
    k4_pay1 (k4_pay2 x0 x1 x2 x3 x4) (k4_pay3 x5) x6 (ix2 r j)
      = Out (fun k => x0 (ix2 r k)) (fun k => x1 (ix2 (0 : Fin 1) k)) (fun k => x2 (ix2 (0 : Fin 1) k))
          (fun k => x3 (ix2 (0 : Fin 1) k)) (fun k => x4 (ix2 (0 : Fin 1) k)) (fun k => x5 (ix2 (0 : Fin 1) k))
          (fun k => x6 (ix2 (0 : Fin 1) k)) j := by
  unfold k4_pay1 k4_pay3
  simp only [mulf_apply, addf_apply, broadcastTo_1b_ab_apply, shapeCast_self]
  rw [pay2_apply]
  rfl

/-! ## From the tiles to the array -/

/-- Out depends on its arguments only. -/
theorem Out_congr {h h' mu mu' var var' g g' b b' gg gg' bb bb' : Fin 256 → EReal} {j j' : Fin 256}
    (e0 : h = h') (e1 : mu = mu') (e2 : var = var') (e3 : g = g') (e4 : b = b') (e5 : gg = gg') (e6 : bb = bb')
    (ej : j = j') : Out h mu var g b gg bb j = Out h' mu' var' g' b' gg' bb' j' := by
  subst e0 e1 e2 e3 e4 e5 e6 ej; rfl

section Kernel

variable (V : (c : Dev nD) → (b : Ref sig .tc) → Buf (Elt Ideal) ((c : Thread nD τ).loc b))

theorem zero_offsets : (![0, 0] : Fin 2 → Nat) = fun _ => 0 := funext fun a => by fin_cases a <;> rfl

/-- What the last region leaves in its output array, as one function of the arrays it finds: row by row, Out of the
    row of the first array and of the six row vectors. -/
def G (c : Dev nD) : S50000x256.Idx → EReal := fun (i : (⟨2, ![50000, 256]⟩ : Shape).Idx) =>
  Out (fun k => (V c main_v67_0 : S50000x256.Idx → Elt Ideal .f32) (ix2 (i 0) k))
    (fun k => (V c main_v69 : S1x256.Idx → Elt Ideal .f32) (ix2 (0 : Fin 1) k))
    (fun k => (V c main_v73 : S1x256.Idx → Elt Ideal .f32) (ix2 (0 : Fin 1) k))
    (fun k => (V c main_v74 : S1x256.Idx → Elt Ideal .f32) (ix2 (0 : Fin 1) k))
    (fun k => (V c main_v75 : S1x256.Idx → Elt Ideal .f32) (ix2 (0 : Fin 1) k))
    (fun k => (V c main_v76 : S1x256.Idx → Elt Ideal .f32) (ix2 (0 : Fin 1) k))
    (fun k => (V c main_v77 : S1x256.Idx → Elt Ideal .f32) (ix2 (0 : Fin 1) k)) (i 1)

/-- The printed index maps, decided over the 50 grid points: the two tiled windows sit at row block t, lane block 0;
    the six row-vector windows at block (0, 0). -/
theorem idx_facts : ∀ t : Fin cfg4.N,
    win4_7.index t (0 : Fin 2) = t.val ∧ win4_7.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- What point t writes back is block t of G. -/
theorem flushed_eq (c : Dev nD) (t : Fin cfg4.N) :
    (dat4 (F := Ideal) V c).flushed 7 t = ((cfg4.win 7).blk t).view.read (Elt Ideal) (G V c) := by
  show (cfg4.win 7).cut (grid4.coords t) ((dat4 V c).after 7 t) = _
  rw [after4_7]
  unfold out4_7
  rw [View.canon_unit_zero zero_offsets]
  simp only [View.ld_unit_zero (S := S1000x256) zero_offsets, View.ld_unit_zero (S := S1x256) zero_offsets]
  obtain ⟨f70, f71, f00, f01, f10, f11, f20, f21, f30, f31, f40, f41, f50, f51, f60, f61⟩ := idx_facts t
  funext y
  obtain ⟨r, q, rfl⟩ : ∃ (r : Fin 1000) (q : Fin 256), y = ix2 r q := ⟨y 0, y 1, eq_ix2 y⟩
  show k4_pay1 (k4_pay2 (iblk4 V c 0 t) (iblk4 V c 1 t) (iblk4 V c 2 t) (iblk4 V c 3 t) (iblk4 V c 4 t))
      (k4_pay3 (iblk4 V c 5 t)) (iblk4 V c 6 t) (ix2 r q) = G V c (((cfg4.win 7).blk t).view.emb (ix2 r q))
  refine (pay_apply (iblk4 V c 0 t) (iblk4 V c 1 t) (iblk4 V c 2 t) (iblk4 V c 3 t) (iblk4 V c 4 t)
    (iblk4 V c 5 t) (iblk4 V c 6 t) r q).trans ?_
  unfold G
  refine Out_congr (funext fun k => ?_) (funext fun k => ?_) (funext fun k => ?_) (funext fun k => ?_)
    (funext fun k => ?_) (funext fun k => ?_) (funext fun k => ?_) ?_
  · show V c main_v67_0 (((cfg4.win 0).blk t).view.emb (ix2 r k)) = _
    refine congrArg _ (funext fun a => Fin.ext ?_)
    match a with
    | ⟨0, _⟩ =>
      show win4_0.index t (0 : Fin 2) * 1000 + 1 * r.val = win4_7.index t (0 : Fin 2) * 1000 + 1 * r.val
      omega
    | ⟨1, _⟩ =>
      show win4_0.index t (1 : Fin 2) * 256 + 1 * k.val = k.val
      omega
  · show V c main_v69 (((cfg4.win 1).blk t).view.emb (ix2 (0 : Fin 1) k)) = _
    refine congrArg _ (funext fun a => Fin.ext ?_)
    match a with
    | ⟨0, _⟩ =>
      show win4_1.index t (0 : Fin 2) * 1 + 1 * (0 : Fin 1).val = (0 : Fin 1).val
      omega
    | ⟨1, _⟩ =>
      show win4_1.index t (1 : Fin 2) * 256 + 1 * k.val = k.val
      omega
  · show V c main_v73 (((cfg4.win 2).blk t).view.emb (ix2 (0 : Fin 1) k)) = _
    refine congrArg _ (funext fun a => Fin.ext ?_)
    match a with
    | ⟨0, _⟩ =>
      show win4_2.index t (0 : Fin 2) * 1 + 1 * (0 : Fin 1).val = (0 : Fin 1).val
      omega
    | ⟨1, _⟩ =>
      show win4_2.index t (1 : Fin 2) * 256 + 1 * k.val = k.val
      omega
  · show V c main_v74 (((cfg4.win 3).blk t).view.emb (ix2 (0 : Fin 1) k)) = _
    refine congrArg _ (funext fun a => Fin.ext ?_)
    match a with
    | ⟨0, _⟩ =>
      show win4_3.index t (0 : Fin 2) * 1 + 1 * (0 : Fin 1).val = (0 : Fin 1).val
      omega
    | ⟨1, _⟩ =>
      show win4_3.index t (1 : Fin 2) * 256 + 1 * k.val = k.val
      omega
  · show V c main_v75 (((cfg4.win 4).blk t).view.emb (ix2 (0 : Fin 1) k)) = _
    refine congrArg _ (funext fun a => Fin.ext ?_)
    match a with
    | ⟨0, _⟩ =>
      show win4_4.index t (0 : Fin 2) * 1 + 1 * (0 : Fin 1).val = (0 : Fin 1).val
      omega
    | ⟨1, _⟩ =>
      show win4_4.index t (1 : Fin 2) * 256 + 1 * k.val = k.val
      omega
  · show V c main_v76 (((cfg4.win 5).blk t).view.emb (ix2 (0 : Fin 1) k)) = _
    refine congrArg _ (funext fun a => Fin.ext ?_)
    match a with
    | ⟨0, _⟩ =>
      show win4_5.index t (0 : Fin 2) * 1 + 1 * (0 : Fin 1).val = (0 : Fin 1).val
      omega
    | ⟨1, _⟩ =>
      show win4_5.index t (1 : Fin 2) * 256 + 1 * k.val = k.val
      omega
  · show V c main_v77 (((cfg4.win 6).blk t).view.emb (ix2 (0 : Fin 1) k)) = _
    refine congrArg _ (funext fun a => Fin.ext ?_)
    match a with
    | ⟨0, _⟩ =>
      show win4_6.index t (0 : Fin 2) * 1 + 1 * (0 : Fin 1).val = (0 : Fin 1).val
      omega
    | ⟨1, _⟩ =>
      show win4_6.index t (1 : Fin 2) * 256 + 1 * k.val = k.val
      omega
  · refine Fin.ext ?_
    show q.val = win4_7.index t (1 : Fin 2) * 256 + 1 * q.val
    omega

/-- An index of the array is in point t's block iff each coordinate is in the block's range on its axis. -/
theorem mem_blk (t : Fin cfg4.N) (i : S50000x256.Idx) :
    i ∈ ((cfg4.win 7).blk t).view.set ↔ ∀ a : Fin 2, win4_7.index t a * S1000x256.size a ≤ (i a).val
      ∧ (i a).val < win4_7.index t a * S1000x256.size a + S1000x256.size a := by
  show i ∈ ((View.whole main_v78).slice (win4_7.rect t)).set ↔ _
  rw [View.set_slice_whole, Rect.mem_set_unit]
  exact Iff.rfl

/-- Every index of the array is in the block of the point its row falls in: row i is in tile i / 1000. -/
theorem cover (i : S50000x256.Idx) :
    ∃ t : Fin cfg4.N, (cfg4.win 7).flush t = true ∧ i ∈ ((cfg4.win 7).blk t).view.set := by
  have hi0 : (i 0).val < 50000 := (i 0).isLt
  have hi1 : (i 1).val < 256 := (i 1).isLt
  have hN : cfg4.N = 50 := N_4
  have ht : (i 0).val / 1000 < cfg4.N := by rw [hN]; omega
  obtain ⟨f70, f71, -⟩ := idx_facts ⟨(i 0).val / 1000, ht⟩
  refine ⟨⟨(i 0).val / 1000, ht⟩, flush4_7 _, ?_⟩
  rw [mem_blk]
  intro a
  match a with
  | ⟨0, _⟩ =>
    show win4_7.index ⟨(i 0).val / 1000, ht⟩ (0 : Fin 2) * 1000 ≤ (i 0).val
      ∧ (i 0).val < win4_7.index ⟨(i 0).val / 1000, ht⟩ (0 : Fin 2) * 1000 + 1000
    rw [f70]
    show (i 0).val / 1000 * 1000 ≤ (i 0).val ∧ (i 0).val < (i 0).val / 1000 * 1000 + 1000
    omega
  | ⟨1, _⟩ =>
    show win4_7.index ⟨(i 0).val / 1000, ht⟩ (1 : Fin 2) * 256 ≤ (i 1).val
      ∧ (i 1).val < win4_7.index ⟨(i 0).val / 1000, ht⟩ (1 : Fin 2) * 256 + 256
    rw [f71]
    omega

/-- The output array after the region: G of the arrays the region finds. -/
theorem final4 (c : Dev nD) : (dat4 (F := Ideal) V c).arrAt 7 cfg4.N = G V c :=
  (dat4 (F := Ideal) V c).arrAt_eq_of_cover 7 (G V c) (fun t _ => flushed_eq V c t) cover

end Kernel

/-! ## The reference's stages are the same two normalisations -/

section Reference

variable (x0 : (⟨Cert.ReferenceIdeal.S50000x1024, .f32⟩ : BufTy).Contents (Elt Ideal))
  (x1 : (⟨Cert.ReferenceIdeal.S2x800000, .i32⟩ : BufTy).Contents (Elt Ideal))
  (x2 : (⟨Cert.ReferenceIdeal.S800000, .f32⟩ : BufTy).Contents (Elt Ideal))
  (x3 : (⟨Cert.ReferenceIdeal.S1024x256, .f32⟩ : BufTy).Contents (Elt Ideal))
  (x4 : (⟨Cert.ReferenceIdeal.S256, .f32⟩ : BufTy).Contents (Elt Ideal))
  (x5 : (⟨Cert.ReferenceIdeal.S256x256, .f32⟩ : BufTy).Contents (Elt Ideal))
  (x6 x7 x8 x9 x10 : (⟨Cert.ReferenceIdeal.S256, .f32⟩ : BufTy).Contents (Elt Ideal))

/-- A length-256 vector laid along the rows (through one row [1, 256]) is read, at (i, k), at k. -/
theorem idx_vec_mu (i : Fin 50000) (k : Fin 256) : idx_main_v114 (idx_main_v115 (ix2 i k)) = ix1 k :=
  funext fun a => Fin.ext (by match a with | ⟨0, _⟩ => rfl)
theorem idx_vec_rstd (i : Fin 50000) (k : Fin 256) : idx_main_v120 (idx_main_v121 (ix2 i k)) = ix1 k :=
  funext fun a => Fin.ext (by match a with | ⟨0, _⟩ => rfl)
theorem idx_vec_g (i : Fin 50000) (k : Fin 256) : idx_main_v123 (idx_main_v124 (ix2 i k)) = ix1 k :=
  funext fun a => Fin.ext (by match a with | ⟨0, _⟩ => rfl)
theorem idx_vec_b (i : Fin 50000) (k : Fin 256) : idx_main_v126 (idx_main_v127 (ix2 i k)) = ix1 k :=
  funext fun a => Fin.ext (by match a with | ⟨0, _⟩ => rfl)
theorem idx_vec_g' (i : Fin 50000) (k : Fin 256) : idx_main_v147 (idx_main_v148 (ix2 i k)) = ix1 k :=
  funext fun a => Fin.ext (by match a with | ⟨0, _⟩ => rfl)
theorem idx_vec_b' (i : Fin 50000) (k : Fin 256) : idx_main_v150 (idx_main_v151 (ix2 i k)) = ix1 k :=
  funext fun a => Fin.ext (by match a with | ⟨0, _⟩ => rfl)

/-- A column [50000, 1] laid along the lanes is read, at (i, k), at (i, 0). -/
theorem idx_col_mean (i : Fin 50000) (k : Fin 256) : idx_main_v133 (ix2 i k) = ix2 i (0 : Fin 1) :=
  funext fun a => Fin.ext (by match a with | ⟨0, _⟩ => rfl | ⟨1, _⟩ => rfl)
theorem idx_col_mean' (i : Fin 50000) (k : Fin 256) : idx_main_v140 (ix2 i k) = ix2 i (0 : Fin 1) :=
  funext fun a => Fin.ext (by match a with | ⟨0, _⟩ => rfl | ⟨1, _⟩ => rfl)
theorem idx_col_rstd (i : Fin 50000) (k : Fin 256) : idx_main_v145 (ix2 i k) = ix2 i (0 : Fin 1) :=
  funext fun a => Fin.ext (by match a with | ⟨0, _⟩ => rfl | ⟨1, _⟩ => rfl)

/-- The row sums are read along row i. -/
theorem idx_sum_mean (i : Fin 50000) (k : Fin 256) : idx_main_v129 (idx_main_v130 (ix2 i (0 : Fin 1))) k = ix2 i k :=
  funext fun a => Fin.ext (by match a with | ⟨0, _⟩ => rfl | ⟨1, _⟩ => rfl)
theorem idx_sum_var (i : Fin 50000) (k : Fin 256) : idx_main_v136 (idx_main_v137 (ix2 i (0 : Fin 1))) k = ix2 i k :=
  funext fun a => Fin.ext (by match a with | ⟨0, _⟩ => rfl | ⟨1, _⟩ => rfl)

/-- The reference's BatchNorm stage at (i, k) is bnRow of row i of its h2 and of its column statistics. -/
theorem ref_bn (i : Fin 50000) (k : Fin 256) :
    val_main_v128 (F := Ideal) x0 x1 x2 x3 x4 x5 x6 x7 x8 (ix2 i k)
      = bnRow (fun k => val_main_v103 (F := Ideal) x0 x1 x2 x3 x4 x5 x6 (ix2 i k))
          (fun k => val_main_v106 (F := Ideal) x0 x1 x2 x3 x4 x5 x6 (ix1 k))
          (fun k => val_main_v113 (F := Ideal) x0 x1 x2 x3 x4 x5 x6 (ix1 k))
          (fun k => x7 (ix1 k)) (fun k => x8 (ix1 k)) k := by
  rw [val_main_v128_apply, val_main_v125_apply, val_main_v127_apply, val_main_v126_apply, val_main_v122_apply,
    val_main_v124_apply, val_main_v123_apply, val_main_v116_apply, val_main_v121_apply, val_main_v120_apply,
    val_main_v119_apply, val_main_v118_apply, val_main_v117_apply, val_main_cst_26_apply, val_main_v115_apply,
    val_main_v114_apply, idx_vec_mu, idx_vec_rstd, idx_vec_g, idx_vec_b]
  rfl

/-- The reference's row mean of its BatchNorm stage. -/
theorem ref_mean (i : Fin 50000) :
    val_main_v132 (F := Ideal) x0 x1 x2 x3 x4 x5 x6 x7 x8 (ix2 i (0 : Fin 1))
      = rowMean (fun k => val_main_v128 (F := Ideal) x0 x1 x2 x3 x4 x5 x6 x7 x8 (ix2 i k)) := by
  rw [val_main_v132_apply, val_main_v130_apply, val_main_v131_apply, val_main_cst_28_apply, val_main_v129_apply,
    val_main_cst_27_apply]
  simp only [idx_sum_mean]
  show Ideal.div (Ideal.ofBits .f32 0x00000000#32 + _) _ = _
  rw [Ideal.ofBits_zero_f32, zero_add]
  rfl

/-- The reference's row mean of the squared deviations. -/
theorem ref_var (i : Fin 50000) :
    val_main_v139 (F := Ideal) x0 x1 x2 x3 x4 x5 x6 x7 x8 (ix2 i (0 : Fin 1))
      = rowMean (fun k =>
          (val_main_v128 (F := Ideal) x0 x1 x2 x3 x4 x5 x6 x7 x8 (ix2 i k)
            - rowMean (fun k => val_main_v128 (F := Ideal) x0 x1 x2 x3 x4 x5 x6 x7 x8 (ix2 i k)))
          * (val_main_v128 (F := Ideal) x0 x1 x2 x3 x4 x5 x6 x7 x8 (ix2 i k)
            - rowMean (fun k => val_main_v128 (F := Ideal) x0 x1 x2 x3 x4 x5 x6 x7 x8 (ix2 i k)))) := by
  have e : ∀ k : Fin 256,
      val_main_v135 (F := Ideal) x0 x1 x2 x3 x4 x5 x6 x7 x8 (idx_main_v136 (idx_main_v137 (ix2 i (0 : Fin 1))) k)
        = (val_main_v128 (F := Ideal) x0 x1 x2 x3 x4 x5 x6 x7 x8 (ix2 i k)
            - rowMean (fun k => val_main_v128 (F := Ideal) x0 x1 x2 x3 x4 x5 x6 x7 x8 (ix2 i k)))
          * (val_main_v128 (F := Ideal) x0 x1 x2 x3 x4 x5 x6 x7 x8 (ix2 i k)
            - rowMean (fun k => val_main_v128 (F := Ideal) x0 x1 x2 x3 x4 x5 x6 x7 x8 (ix2 i k))) := by
    intro k
    rw [idx_sum_var, val_main_v135_apply, val_main_v134_apply, val_main_v133_apply, idx_col_mean, ref_mean]
    rfl
  rw [val_main_v139_apply, val_main_v137_apply, val_main_v138_apply, val_main_cst_30_apply, val_main_v136_apply,
    val_main_cst_29_apply, Finset.sum_congr rfl (fun k _ => e k)]
  generalize val_main_v128 (F := Ideal) x0 x1 x2 x3 x4 x5 x6 x7 x8 = Y
  show Ideal.div (Ideal.ofBits .f32 0x00000000#32 + _) _ = _
  rw [Ideal.ofBits_zero_f32, zero_add]
  rfl

/-- The reference's last stage at (i, j) is lnRow of row i of its BatchNorm stage. -/
theorem ref_ln (i : Fin 50000) (j : Fin 256) :
    val_main_v152 (F := Ideal) x0 x1 x2 x3 x4 x5 x6 x7 x8 x9 x10 (ix2 i j)
      = lnRow (fun k => val_main_v128 (F := Ideal) x0 x1 x2 x3 x4 x5 x6 x7 x8 (ix2 i k))
          (fun k => x9 (ix1 k)) (fun k => x10 (ix1 k)) j := by
  rw [val_main_v152_apply, val_main_v149_apply, val_main_v151_apply, val_main_v150_apply, val_main_v146_apply,
    val_main_v148_apply, val_main_v147_apply, val_main_v141_apply, val_main_v145_apply, val_main_v144_apply,
    val_main_v143_apply, val_main_v142_apply, val_main_cst_31_apply, val_main_v140_apply,
    idx_vec_g', idx_vec_b', idx_col_mean', idx_col_rstd, ref_var, ref_mean]
  generalize val_main_v128 (F := Ideal) x0 x1 x2 x3 x4 x5 x6 x7 x8 = Y
  rfl

/-- So the reference's result at (i, j) is Out of row i of its h2, of its column statistics and of the four affine vectors. -/
theorem ref_out (i : Fin 50000) (j : Fin 256) :
    val_main_v152 (F := Ideal) x0 x1 x2 x3 x4 x5 x6 x7 x8 x9 x10 (ix2 i j)
      = Out (fun k => val_main_v103 (F := Ideal) x0 x1 x2 x3 x4 x5 x6 (ix2 i k))
          (fun k => val_main_v106 (F := Ideal) x0 x1 x2 x3 x4 x5 x6 (ix1 k))
          (fun k => val_main_v113 (F := Ideal) x0 x1 x2 x3 x4 x5 x6 (ix1 k))
          (fun k => x7 (ix1 k)) (fun k => x8 (ix1 k)) (fun k => x9 (ix1 k)) (fun k => x10 (ix1 k)) j := by
  rw [ref_ln]
  exact congrArg (fun y => lnRow y (fun k => x9 (ix1 k)) (fun k => x10 (ix1 k)) j)
    (funext fun k => ref_bn x0 x1 x2 x3 x4 x5 x6 x7 x8 i k)

end Reference

/-! ## The last region's output array is the reference's result -/

/-- Given the same h2, column mean, column variance and affine vectors on both sides, the array the last region
    leaves is, entry by entry, the reference's last stage: both are Out of the row. -/
theorem final4_eq_ref
    (V : (c : Dev nD) → (b : Ref sig .tc) → Buf (Elt Ideal) ((c : Thread nD τ).loc b)) (c : Dev nD)
    (x0 : (⟨Cert.ReferenceIdeal.S50000x1024, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S1024x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 x7 x8 x9 x10 : (⟨Cert.ReferenceIdeal.S256, .f32⟩ : BufTy).Contents (Elt Ideal))
    (hh : ∀ (i : Fin 50000) (j : Fin 256), (V c main_v67_0 : S50000x256.Idx → Elt Ideal .f32) (ix2 i j)
      = val_main_v103 (F := Ideal) x0 x1 x2 x3 x4 x5 x6 (ix2 i j))
    (hmu : ∀ j : Fin 256, (V c main_v69 : S1x256.Idx → Elt Ideal .f32) (ix2 (0 : Fin 1) j)
      = val_main_v106 (F := Ideal) x0 x1 x2 x3 x4 x5 x6 (ix1 j))
    (hvar : ∀ j : Fin 256, (V c main_v73 : S1x256.Idx → Elt Ideal .f32) (ix2 (0 : Fin 1) j)
      = val_main_v113 (F := Ideal) x0 x1 x2 x3 x4 x5 x6 (ix1 j))
    (hg : ∀ j : Fin 256, (V c main_v74 : S1x256.Idx → Elt Ideal .f32) (ix2 (0 : Fin 1) j) = x7 (ix1 j))
    (hb : ∀ j : Fin 256, (V c main_v75 : S1x256.Idx → Elt Ideal .f32) (ix2 (0 : Fin 1) j) = x8 (ix1 j))
    (hg' : ∀ j : Fin 256, (V c main_v76 : S1x256.Idx → Elt Ideal .f32) (ix2 (0 : Fin 1) j) = x9 (ix1 j))
    (hb' : ∀ j : Fin 256, (V c main_v77 : S1x256.Idx → Elt Ideal .f32) (ix2 (0 : Fin 1) j) = x10 (ix1 j)) :
    ∀ (i : Fin 50000) (j : Fin 256),
      (dat4 (F := Ideal) V c).arrAt 7 cfg4.N (ix2 i j)
        = val_main_v152 (F := Ideal) x0 x1 x2 x3 x4 x5 x6 x7 x8 x9 x10 (ix2 i j) := by
  intro i j
  rw [final4 V c]
  show Out (fun k => (V c main_v67_0 : S50000x256.Idx → Elt Ideal .f32) (ix2 i k))
    (fun k => (V c main_v69 : S1x256.Idx → Elt Ideal .f32) (ix2 (0 : Fin 1) k))
    (fun k => (V c main_v73 : S1x256.Idx → Elt Ideal .f32) (ix2 (0 : Fin 1) k))
    (fun k => (V c main_v74 : S1x256.Idx → Elt Ideal .f32) (ix2 (0 : Fin 1) k))
    (fun k => (V c main_v75 : S1x256.Idx → Elt Ideal .f32) (ix2 (0 : Fin 1) k))
    (fun k => (V c main_v76 : S1x256.Idx → Elt Ideal .f32) (ix2 (0 : Fin 1) k))
    (fun k => (V c main_v77 : S1x256.Idx → Elt Ideal .f32) (ix2 (0 : Fin 1) k)) j = _
  rw [ref_out x0 x1 x2 x3 x4 x5 x6 x7 x8 x9 x10 i j]
  exact Out_congr (funext fun k => hh i k) (funext hmu) (funext hvar) (funext hg) (funext hb) (funext hg')
    (funext hb') rfl

end Cert.KernelIdeal.RegionNorms

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.RealStats.lean ====
import proofs.«148368_j71451075936454_1_alg».proof.Proof.RefRead
import proofs.«148368_j71451075936454_1_alg».proof.Proof.LibAggregate

noncomputable section

open scoped BigOperators

namespace Cert.ReferenceIdeal.RealStats

open Cert.ReferenceIdeal Cert.ReferenceIdeal.ReadP Idealize.ShloMosaic Idealize.ShloMosaic.ValueIdx

/-- An array of extended reals all of whose entries are real numbers. -/
def IsRealV {S : Shape} (v : S.Idx → EReal) : Prop := ∀ i, ∃ r : ℝ, v i = (r : EReal)

/-! ## The row count as a real number -/

/-- The f32 word `0x47435000` denotes the real number 50000. -/
theorem ofBits_n : Ideal.ofBits .f32 0x47435000#32 = ((50000 : ℝ) : EReal) := by
  simp [Ideal.ofBits, Ideal.ieee, -EReal.coe_mul]; norm_num

/-! ## Mean of squares minus squared mean, over the reals -/

/-- Over the reals, with `N` the number of terms and `μ = (∑ r) / N`: `(∑ (r − μ)²) / N = (∑ r²) / N − μ²`. -/
theorem real_var_identity (r : Fin 50000 → ℝ) :
    (∑ k, r k * r k) * (1 / 50000) - ((∑ k, r k) * (1 / 50000)) * ((∑ k, r k) * (1 / 50000))
      = (∑ k, (r k - (∑ k, r k) * (1 / 50000)) * (r k - (∑ k, r k) * (1 / 50000))) * (1 / 50000) := by
  generalize hμ : (∑ k, r k) * (1 / 50000 : ℝ) = μ
  have hS : (∑ k, r k) = 50000 * μ := by rw [← hμ]; ring
  have h1 : ∀ k, (r k - μ) * (r k - μ) = r k * r k - 2 * μ * r k + μ * μ := fun k => by ring
  simp only [h1, Finset.sum_add_distrib, Finset.sum_sub_distrib, ← Finset.mul_sum, Finset.sum_const, Finset.card_univ,
    Fintype.card_fin, nsmul_eq_mul, hS]
  push_cast
  ring

/-! ## The variance law over an abstract real column -/

/-- For a column `h` of real numbers, with `n` the row count and `μ = (∑ h) / n`, all operations those of the extended
    reals: `(∑ h²) / n − μ · μ = (∑ (h − μ) · (h − μ)) / n`. Every term is the coercion of a real number, and over the reals
    this is `real_var_identity`. -/
theorem var_core (h : Fin 50000 → EReal) (hh : ∀ i, ∃ r : ℝ, h i = (r : EReal)) :
    Ideal.div (∑ i, h i * h i) (Ideal.ofBits .f32 0x47435000#32) - Ideal.div (∑ i, h i) (Ideal.ofBits .f32 0x47435000#32) * Ideal.div (∑ i, h i) (Ideal.ofBits .f32 0x47435000#32)
      = Ideal.div (∑ k, (h k - Ideal.div (∑ i, h i) (Ideal.ofBits .f32 0x47435000#32)) * (h k - Ideal.div (∑ i, h i) (Ideal.ofBits .f32 0x47435000#32))) (Ideal.ofBits .f32 0x47435000#32) := by
  choose r hr using hh
  have h50 : (50000 : ℝ) ≠ 0 := by norm_num
  have hμ : Ideal.div (∑ i, h i) (Ideal.ofBits .f32 0x47435000#32) = (((∑ k, r k) * (1 / 50000) : ℝ) : EReal) := by
    simp only [hr, ofBits_n]
    rw [Ideal.div_coe h50, ← Cert.Aggregate.coe_finset_sum, ← EReal.coe_mul]
  have hq : Ideal.div (∑ i, h i * h i) (Ideal.ofBits .f32 0x47435000#32) = (((∑ k, r k * r k) * (1 / 50000) : ℝ) : EReal) := by
    simp only [hr, ofBits_n, ← EReal.coe_mul]
    rw [Ideal.div_coe h50, ← Cert.Aggregate.coe_finset_sum, ← EReal.coe_mul]
  rw [hq, hμ]
  simp only [hr, ofBits_n, ← EReal.coe_sub, ← EReal.coe_mul]
  rw [Ideal.div_coe h50, ← Cert.Aggregate.coe_finset_sum, ← EReal.coe_mul, real_var_identity]

/-! ## Index bookkeeping: the reduced axis at column `j` -/

theorem idx104 (j : Fin 256) (k : Fin 50000) : idx_main_v104 (ix1 j) k = ix2 k j := by
  funext a; match a with | ⟨0, _⟩ => rfl | ⟨1, _⟩ => rfl

theorem idx111 (j : Fin 256) (k : Fin 50000) : idx_main_v111 (ix1 j) k = ix2 k j := by
  funext a; match a with | ⟨0, _⟩ => rfl | ⟨1, _⟩ => rfl

theorem idx107_108 (j : Fin 256) (k : Fin 50000) : idx_main_v107 (idx_main_v108 (ix2 k j)) = ix1 j := by
  funext a; match a with | ⟨0, _⟩ => rfl

/-! ## The column statistics -/

/-- The column mean: the column sum of the second layer's output divided by the row count is the reference's mean.
    True at every extended real. -/
theorem stats_bridge_mean (x0 : (⟨S50000x1024, .f32⟩ : BufTy).Contents (Elt Ideal)) (x1 : (⟨S2x800000, .i32⟩ : BufTy).Contents (Elt Ideal)) (x2 : (⟨S800000, .f32⟩ : BufTy).Contents (Elt Ideal)) (x3 : (⟨S1024x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (j : Fin 256) :
    FloatOps.hostDivf (F := Ideal) (φ := .f32) (∑ i : Fin 50000, val_main_v103 (F := Ideal) x0 x1 x2 x3 x4 x5 x6 (ix2 i j)) (FloatOps.ofBits .f32 0x47435000#32)
      = val_main_v106 (F := Ideal) x0 x1 x2 x3 x4 x5 x6 (ix1 j) := by
  rw [val_main_v106_apply, val_main_v104_apply, val_main_v105_apply, val_main_cst_23_apply, val_main_cst_22_apply]
  simp only [Ideal.ofBits_def, Ideal.ofBits_zero_f32, zero_add, idx104]

/-- The squared deviation at `(k, j)`: the reference's `(h2 − mean)·(h2 − mean)` read at an index, with the mean's two
    broadcasts read back to the column's entry. -/
theorem v110_at (x0 : (⟨S50000x1024, .f32⟩ : BufTy).Contents (Elt Ideal)) (x1 : (⟨S2x800000, .i32⟩ : BufTy).Contents (Elt Ideal)) (x2 : (⟨S800000, .f32⟩ : BufTy).Contents (Elt Ideal)) (x3 : (⟨S1024x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (k : Fin 50000) (j : Fin 256) :
    val_main_v110 (F := Ideal) x0 x1 x2 x3 x4 x5 x6 (ix2 k j)
      = (val_main_v103 (F := Ideal) x0 x1 x2 x3 x4 x5 x6 (ix2 k j) - val_main_v106 (F := Ideal) x0 x1 x2 x3 x4 x5 x6 (ix1 j))
        * (val_main_v103 (F := Ideal) x0 x1 x2 x3 x4 x5 x6 (ix2 k j) - val_main_v106 (F := Ideal) x0 x1 x2 x3 x4 x5 x6 (ix1 j)) := by
  rw [val_main_v110_apply, val_main_v109_apply, val_main_v108_apply, val_main_v107_apply, idx107_108]
  rfl

/-- The column variance: mean of squares minus squared mean is the reference's mean of squared deviations, when the
    second layer's output is real. -/
theorem stats_bridge_var (x0 : (⟨S50000x1024, .f32⟩ : BufTy).Contents (Elt Ideal)) (x1 : (⟨S2x800000, .i32⟩ : BufTy).Contents (Elt Ideal)) (x2 : (⟨S800000, .f32⟩ : BufTy).Contents (Elt Ideal)) (x3 : (⟨S1024x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (hreal : IsRealV (val_main_v103 (F := Ideal) x0 x1 x2 x3 x4 x5 x6)) (j : Fin 256) :
    FloatOps.subf (F := Ideal) (φ := .f32)
        (FloatOps.hostDivf (∑ i : Fin 50000, val_main_v103 (F := Ideal) x0 x1 x2 x3 x4 x5 x6 (ix2 i j) * val_main_v103 (F := Ideal) x0 x1 x2 x3 x4 x5 x6 (ix2 i j)) (FloatOps.ofBits .f32 0x47435000#32))
        (FloatOps.mulf
          (FloatOps.hostDivf (∑ i : Fin 50000, val_main_v103 (F := Ideal) x0 x1 x2 x3 x4 x5 x6 (ix2 i j)) (FloatOps.ofBits .f32 0x47435000#32))
          (FloatOps.hostDivf (∑ i : Fin 50000, val_main_v103 (F := Ideal) x0 x1 x2 x3 x4 x5 x6 (ix2 i j)) (FloatOps.ofBits .f32 0x47435000#32)))
      = val_main_v113 (F := Ideal) x0 x1 x2 x3 x4 x5 x6 (ix1 j) := by
  have hm := stats_bridge_mean x0 x1 x2 x3 x4 x5 x6 j
  rw [val_main_v113_apply, val_main_v111_apply, val_main_v112_apply, val_main_cst_25_apply, val_main_cst_24_apply]
  simp only [idx111, v110_at]
  rw [← hm]
  generalize val_main_v103 (F := Ideal) x0 x1 x2 x3 x4 x5 x6 = y at hreal ⊢
  simp only [Ideal.hostDivf_def, Ideal.subf_def, Ideal.mulf_def, Ideal.ofBits_def, Ideal.ofBits_zero_f32, zero_add]
  exact var_core (fun i => y (ix2 i j)) (fun i => hreal (ix2 i j))

/-! ## Real-valued arrays are closed under the reference's operations

One lemma per kind of operation, generic in the shapes and in the dimension records: an operation that returns the operand
at a computed index (a broadcast, a gather, a concatenation) needs no knowledge of which index it computes. -/

section Closure

/-- A real number plus a finite sum of real numbers is a real number, inside the extended reals. -/
theorem real_add_sum {ι : Type*} (T : Finset ι) {a : EReal} {f : ι → EReal} (ha : ∃ r : ℝ, a = (r : EReal))
    (hf : ∀ j, ∃ q : ℝ, f j = (q : EReal)) : ∃ r : ℝ, a + ∑ j ∈ T, f j = (r : EReal) := by
  obtain ⟨r, rfl⟩ := ha
  choose q hq using hf
  exact ⟨r + ∑ j ∈ T, q j, by rw [EReal.coe_add, Cert.Aggregate.coe_finset_sum]; simp only [hq]⟩

/-- A finite sum of products of real numbers is a real number, inside the extended reals. -/
theorem real_sum_mul {ι : Type*} (T : Finset ι) {f g : ι → EReal} (hf : ∀ j, ∃ q : ℝ, f j = (q : EReal))
    (hg : ∀ j, ∃ q : ℝ, g j = (q : EReal)) : ∃ r : ℝ, ∑ j ∈ T, f j * g j = (r : EReal) := by
  choose p hp using hf
  choose q hq using hg
  exact ⟨∑ j ∈ T, p j * q j, by rw [Cert.Aggregate.coe_finset_sum]; simp only [hp, hq, EReal.coe_mul]⟩

/-- The coercion of the reals into the extended reals is monotone, so it commutes with `max`. -/
theorem coe_max (p q : ℝ) : max (p : EReal) (q : EReal) = ((max p q : ℝ) : EReal) :=
  (EReal.coe_strictMono.monotone.map_max).symm

variable {s t : Shape}

theorem real_constant (s : Shape) (b : BitVec 32) (r : ℝ) (h : Ideal.ofBits .f32 b = (r : EReal)) :
    IsRealV (constant (F := Ideal) s .f32 b) := fun _ => ⟨r, h⟩

theorem real_bcast (t : Shape) (dims : Fin s.rank → Fin t.rank) (h : s.BroadcastsInDim t dims) {x : s.Idx → EReal}
    (hx : IsRealV x) : IsRealV (broadcastInDim t dims h x) := fun _ => hx _

theorem real_gather {si : Shape} {w : Nat} (d : GatherDims s si t) {x : s.Idx → EReal} (idx : IVec si w)
    (hx : IsRealV x) : IsRealV (Host.gather d x idx) := fun _ => hx _

/-- A concatenation returns an entry of one of its operands. -/
theorem real_concat (t : Shape) (a : Fin t.rank) (xs : List ((s : Shape) × (s.Idx → EReal)))
    (h : Shape.Concatenates (xs.map (·.1)) t a) (hxs : ∀ p ∈ xs, IsRealV p.2) : IsRealV (concatenate t a xs h) := by
  intro j
  unfold concatenate
  exact hxs _ (List.getElem_mem _) _

theorem real_select (c : IVec s 1) {a b : s.Idx → EReal} (ha : IsRealV a) (hb : IsRealV b) : IsRealV (select c a b) := by
  intro i
  unfold select Scalar.select
  split
  · exact ha i
  · exact hb i

theorem real_mulf {a b : s.Idx → EReal} (ha : IsRealV a) (hb : IsRealV b) :
    IsRealV (mulf (F := Ideal) (φ := .f32) a b) := by
  intro i
  obtain ⟨p, hp⟩ := ha i
  obtain ⟨q, hq⟩ := hb i
  exact ⟨p * q, by show a i * b i = _; rw [hp, hq, EReal.coe_mul]⟩

theorem real_addf {a b : s.Idx → EReal} (ha : IsRealV a) (hb : IsRealV b) :
    IsRealV (addf (F := Ideal) (φ := .f32) a b) := by
  intro i
  obtain ⟨p, hp⟩ := ha i
  obtain ⟨q, hq⟩ := hb i
  exact ⟨p + q, by show a i + b i = _; rw [hp, hq, EReal.coe_add]⟩

theorem real_maximumf {a b : s.Idx → EReal} (ha : IsRealV a) (hb : IsRealV b) :
    IsRealV (maximumf (F := Ideal) (φ := .f32) a b) := by
  intro i
  obtain ⟨p, hp⟩ := ha i
  obtain ⟨q, hq⟩ := hb i
  exact ⟨max p q, by show max (a i) (b i) = _; rw [hp, hq, coe_max]⟩

/-- An accumulating scatter returns an operand entry plus a finite sum of update entries, whatever the indices hold. -/
theorem real_scatterAdd {si u : Shape} {w : Nat} (d : ScatterDims s si u) {x : s.Idx → EReal} (idx : IVec si w)
    {upd : u.Idx → EReal} (hx : IsRealV x) (hu : IsRealV upd) :
    IsRealV (Host.scatterAdd (F := Ideal) (φ := .f32) d x idx upd) := by
  intro i
  simp only [Host.scatterAdd, Ideal.hostScatterAdd_def, Ideal.hostScatterAdd]
  exact real_add_sum _ (hx i) hu

/-- A contraction returns a finite sum of products of entries. -/
theorem real_dotGeneral {sl sr so : Shape} (d : DotDims sl sr so) (prec : Option ContractPrecision)
    {a : sl.Idx → EReal} {b : sr.Idx → EReal} (ha : IsRealV a) (hb : IsRealV b) :
    IsRealV (Host.dotGeneral (F := Ideal) (φ₁ := .f32) (φ₂ := .f32) d prec a b) := by
  intro j
  simp only [Host.dotGeneral]
  rw [Ideal.dotGeneral_apply]
  exact real_sum_mul _ (fun k => ha _) (fun k => hb _)

/-! ### The reciprocal square root: real at a positive real -/

/-- An array all of whose entries are positive real numbers. -/
def IsPosV {S : Shape} (v : S.Idx → EReal) : Prop := ∀ i, ∃ r : ℝ, 0 < r ∧ v i = (r : EReal)

theorem pos_constant (s : Shape) (b : BitVec 32) (r : ℝ) (hr : 0 < r) (h : Ideal.ofBits .f32 b = (r : EReal)) :
    IsPosV (constant (F := Ideal) s .f32 b) := fun _ => ⟨r, hr, h⟩

theorem pos_bcast (t : Shape) (dims : Fin s.rank → Fin t.rank) (h : s.BroadcastsInDim t dims) {x : s.Idx → EReal}
    (hx : IsPosV x) : IsPosV (broadcastInDim t dims h x) := fun _ => hx _

/-- The maximum of a real number and a positive real number is a positive real number. -/
theorem pos_maximumf {a b : s.Idx → EReal} (ha : IsRealV a) (hb : IsPosV b) :
    IsPosV (maximumf (F := Ideal) (φ := .f32) a b) := by
  intro i
  obtain ⟨p, hp⟩ := ha i
  obtain ⟨q, hq0, hq⟩ := hb i
  exact ⟨max p q, lt_max_of_lt_right hq0, by show max (a i) (b i) = _; rw [hp, hq, coe_max]⟩

/-- The reciprocal square root of a positive real number is the real number `(√r)⁻¹`. -/
theorem real_rsqrt {a : s.Idx → EReal} (ha : IsPosV a) : IsRealV (Host.rsqrt (F := Ideal) (φ := .f32) a) := by
  intro i
  obtain ⟨p, hp0, hp⟩ := ha i
  refine ⟨(Real.sqrt p)⁻¹, ?_⟩
  show FloatOps.hostUnary (F := Ideal) (φ := .f32) .rsqrt (a i) = _
  rw [Ideal.hostUnary_rsqrt_def, hp, Ideal.rsqrt_coe, if_neg (not_lt.mpr hp0.le), if_neg hp0.ne']

end Closure

/-! ## The three constants -/

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32, EReal.coe_zero]

/-- The f32 word `0x0DA24260` (the clamp under the square root) denotes a positive real number. -/
theorem ofBits_tiny : ∃ r : ℝ, 0 < r ∧ Ideal.ofBits .f32 0x0DA24260#32 = (r : EReal) := by
  refine ⟨(10633824 : ℝ) * (2 : ℝ) ^ (-123 : ℤ), by positivity, ?_⟩
  simp [Ideal.ofBits, Ideal.ieee, -EReal.coe_mul]

/-! ## The stages of the reference, from the inputs to the second layer's output -/

theorem real_main_cst :
    IsRealV (val_main_cst (F := Ideal)) := by
  unfold val_main_cst
  exact real_constant _ _ 1 ofBits_one

theorem real_main_v7 :
    IsRealV (val_main_v7 (F := Ideal)) := by
  unfold val_main_v7
  exact real_bcast _ _ _ real_main_cst

theorem real_main_v8 {x2 : (⟨S800000, .f32⟩ : BufTy).Contents (Elt Ideal)} (hx2 : IsRealV x2) :
    IsRealV (val_main_v8 (F := Ideal) x2) := by
  unfold val_main_v8
  exact real_concat _ _ _ _ (by
    intro p hp
    simp only [List.mem_cons, List.mem_nil_iff, or_false] at hp
    rcases hp with rfl | rfl
    · exact hx2
    · exact real_main_v7)

theorem real_main_cst_0 :
    IsRealV (val_main_cst_0 (F := Ideal)) := by
  unfold val_main_cst_0
  exact real_constant _ _ 0 ofBits_zero

theorem real_main_v9 :
    IsRealV (val_main_v9 (F := Ideal)) := by
  unfold val_main_v9
  exact real_bcast _ _ _ real_main_cst_0

theorem real_main_v11 {x1 : (⟨S2x800000, .i32⟩ : BufTy).Contents (Elt Ideal)} {x2 : (⟨S800000, .f32⟩ : BufTy).Contents (Elt Ideal)} (hx2 : IsRealV x2) :
    IsRealV (val_main_v11 (F := Ideal) x1 x2) := by
  unfold val_main_v11
  exact real_scatterAdd _ _ real_main_v9 (real_main_v8 hx2)

theorem real_main_cst_1 :
    IsRealV (val_main_cst_1 (F := Ideal)) := by
  unfold val_main_cst_1
  exact real_constant _ _ 0 ofBits_zero

theorem real_main_v12 :
    IsRealV (val_main_v12 (F := Ideal)) := by
  unfold val_main_v12
  exact real_bcast _ _ _ real_main_cst_1

theorem real_main_cst_2 :
    IsRealV (val_main_cst_2 (F := Ideal)) := by
  unfold val_main_cst_2
  exact (let ⟨r, _, h⟩ := ofBits_tiny; real_constant _ _ r h)

theorem pos_main_cst_2 :
    IsPosV (val_main_cst_2 (F := Ideal)) := by
  unfold val_main_cst_2
  exact (let ⟨r, hr, h⟩ := ofBits_tiny; pos_constant _ _ r hr h)

theorem real_main_v14 :
    IsRealV (val_main_v14 (F := Ideal)) := by
  unfold val_main_v14
  exact real_bcast _ _ _ real_main_cst_2

theorem pos_main_v14 :
    IsPosV (val_main_v14 (F := Ideal)) := by
  unfold val_main_v14
  exact pos_bcast _ _ _ pos_main_cst_2

theorem real_main_v15 {x1 : (⟨S2x800000, .i32⟩ : BufTy).Contents (Elt Ideal)} {x2 : (⟨S800000, .f32⟩ : BufTy).Contents (Elt Ideal)} (hx2 : IsRealV x2) :
    IsRealV (val_main_v15 (F := Ideal) x1 x2) := by
  unfold val_main_v15
  exact real_maximumf (real_main_v11 hx2) real_main_v14

theorem pos_main_v15 {x1 : (⟨S2x800000, .i32⟩ : BufTy).Contents (Elt Ideal)} {x2 : (⟨S800000, .f32⟩ : BufTy).Contents (Elt Ideal)} (hx2 : IsRealV x2) :
    IsPosV (val_main_v15 (F := Ideal) x1 x2) := by
  unfold val_main_v15
  exact pos_maximumf (real_main_v11 hx2) pos_main_v14

theorem real_main_v16 {x1 : (⟨S2x800000, .i32⟩ : BufTy).Contents (Elt Ideal)} {x2 : (⟨S800000, .f32⟩ : BufTy).Contents (Elt Ideal)} (hx2 : IsRealV x2) :
    IsRealV (val_main_v16 (F := Ideal) x1 x2) := by
  unfold val_main_v16
  exact real_rsqrt (pos_main_v15 hx2)

theorem real_main_cst_3 :
    IsRealV (val_main_cst_3 (F := Ideal)) := by
  unfold val_main_cst_3
  exact real_constant _ _ 0 ofBits_zero

theorem real_main_call0_v0 :
    IsRealV (val_main_call0_v0 (F := Ideal)) := by
  unfold val_main_call0_v0
  exact real_main_cst_3

theorem real_main_call0_v1 :
    IsRealV (val_main_call0_v1 (F := Ideal)) := by
  unfold val_main_call0_v1
  exact real_bcast _ _ _ real_main_call0_v0

theorem real_main_v17 {x1 : (⟨S2x800000, .i32⟩ : BufTy).Contents (Elt Ideal)} {x2 : (⟨S800000, .f32⟩ : BufTy).Contents (Elt Ideal)} (hx2 : IsRealV x2) :
    IsRealV (val_main_v17 (F := Ideal) x1 x2) := by
  unfold val_main_v17
  exact real_select _ (real_main_v16 hx2) real_main_call0_v1

theorem real_main_v24 {x1 : (⟨S2x800000, .i32⟩ : BufTy).Contents (Elt Ideal)} {x2 : (⟨S800000, .f32⟩ : BufTy).Contents (Elt Ideal)} (hx2 : IsRealV x2) :
    IsRealV (val_main_v24 (F := Ideal) x1 x2) := by
  unfold val_main_v24
  exact real_gather _ _ (real_main_v17 hx2)

theorem real_main_v25 {x1 : (⟨S2x800000, .i32⟩ : BufTy).Contents (Elt Ideal)} {x2 : (⟨S800000, .f32⟩ : BufTy).Contents (Elt Ideal)} (hx2 : IsRealV x2) :
    IsRealV (val_main_v25 (F := Ideal) x1 x2) := by
  unfold val_main_v25
  exact real_mulf (real_main_v24 hx2) (real_main_v8 hx2)

theorem real_main_v32 {x1 : (⟨S2x800000, .i32⟩ : BufTy).Contents (Elt Ideal)} {x2 : (⟨S800000, .f32⟩ : BufTy).Contents (Elt Ideal)} (hx2 : IsRealV x2) :
    IsRealV (val_main_v32 (F := Ideal) x1 x2) := by
  unfold val_main_v32
  exact real_gather _ _ (real_main_v17 hx2)

theorem real_main_v33 {x1 : (⟨S2x800000, .i32⟩ : BufTy).Contents (Elt Ideal)} {x2 : (⟨S800000, .f32⟩ : BufTy).Contents (Elt Ideal)} (hx2 : IsRealV x2) :
    IsRealV (val_main_v33 (F := Ideal) x1 x2) := by
  unfold val_main_v33
  exact real_mulf (real_main_v25 hx2) (real_main_v32 hx2)

theorem real_main_v34 {x0 : (⟨S50000x1024, .f32⟩ : BufTy).Contents (Elt Ideal)} {x3 : (⟨S1024x256, .f32⟩ : BufTy).Contents (Elt Ideal)} (hx0 : IsRealV x0) (hx3 : IsRealV x3) :
    IsRealV (val_main_v34 (F := Ideal) x0 x3) := by
  unfold val_main_v34
  exact real_dotGeneral _ _ hx0 hx3

theorem real_main_v41 {x0 : (⟨S50000x1024, .f32⟩ : BufTy).Contents (Elt Ideal)} {x1 : (⟨S2x800000, .i32⟩ : BufTy).Contents (Elt Ideal)} {x3 : (⟨S1024x256, .f32⟩ : BufTy).Contents (Elt Ideal)} (hx0 : IsRealV x0) (hx3 : IsRealV x3) :
    IsRealV (val_main_v41 (F := Ideal) x0 x1 x3) := by
  unfold val_main_v41
  exact real_gather _ _ (real_main_v34 hx0 hx3)

theorem real_main_v42 {x1 : (⟨S2x800000, .i32⟩ : BufTy).Contents (Elt Ideal)} {x2 : (⟨S800000, .f32⟩ : BufTy).Contents (Elt Ideal)} (hx2 : IsRealV x2) :
    IsRealV (val_main_v42 (F := Ideal) x1 x2) := by
  unfold val_main_v42
  exact real_bcast _ _ _ (real_main_v33 hx2)

theorem real_main_v43 {x1 : (⟨S2x800000, .i32⟩ : BufTy).Contents (Elt Ideal)} {x2 : (⟨S800000, .f32⟩ : BufTy).Contents (Elt Ideal)} (hx2 : IsRealV x2) :
    IsRealV (val_main_v43 (F := Ideal) x1 x2) := by
  unfold val_main_v43
  exact real_bcast _ _ _ (real_main_v42 hx2)

theorem real_main_v44 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} (hx0 : IsRealV x0) (hx2 : IsRealV x2) (hx3 : IsRealV x3) :
    IsRealV (val_main_v44 (F := Ideal) x0 x1 x2 x3) := by
  unfold val_main_v44
  exact real_mulf (real_main_v41 hx0 hx3) (real_main_v43 hx2)

theorem real_main_cst_9 :
    IsRealV (val_main_cst_9 (F := Ideal)) := by
  unfold val_main_cst_9
  exact real_constant _ _ 0 ofBits_zero

theorem real_main_v45 :
    IsRealV (val_main_v45 (F := Ideal)) := by
  unfold val_main_v45
  exact real_bcast _ _ _ real_main_cst_9

theorem real_main_v47 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} (hx0 : IsRealV x0) (hx2 : IsRealV x2) (hx3 : IsRealV x3) :
    IsRealV (val_main_v47 (F := Ideal) x0 x1 x2 x3) := by
  unfold val_main_v47
  exact real_scatterAdd _ _ real_main_v45 (real_main_v44 hx0 hx2 hx3)

theorem real_main_v48 {x4 : (⟨S256, .f32⟩ : BufTy).Contents (Elt Ideal)} (hx4 : IsRealV x4) :
    IsRealV (val_main_v48 (F := Ideal) x4) := by
  unfold val_main_v48
  exact real_bcast _ _ _ hx4

theorem real_main_v49 {x4 : (⟨S256, .f32⟩ : BufTy).Contents (Elt Ideal)} (hx4 : IsRealV x4) :
    IsRealV (val_main_v49 (F := Ideal) x4) := by
  unfold val_main_v49
  exact real_bcast _ _ _ (real_main_v48 hx4)

theorem real_main_v50 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} (hx0 : IsRealV x0) (hx2 : IsRealV x2) (hx3 : IsRealV x3) (hx4 : IsRealV x4) :
    IsRealV (val_main_v50 (F := Ideal) x0 x1 x2 x3 x4) := by
  unfold val_main_v50
  exact real_addf (real_main_v47 hx0 hx2 hx3) (real_main_v49 hx4)

theorem real_main_call1_cst :
    IsRealV (val_main_call1_cst (F := Ideal)) := by
  unfold val_main_call1_cst
  exact real_constant _ _ 0 ofBits_zero

theorem real_main_call1_v0 :
    IsRealV (val_main_call1_v0 (F := Ideal)) := by
  unfold val_main_call1_v0
  exact real_bcast _ _ _ real_main_call1_cst

theorem real_main_v51 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} (hx0 : IsRealV x0) (hx2 : IsRealV x2) (hx3 : IsRealV x3) (hx4 : IsRealV x4) :
    IsRealV (val_main_v51 (F := Ideal) x0 x1 x2 x3 x4) := by
  unfold val_main_v51
  exact real_maximumf (real_main_v50 hx0 hx2 hx3 hx4) real_main_call1_v0

theorem real_main_cst_10 :
    IsRealV (val_main_cst_10 (F := Ideal)) := by
  unfold val_main_cst_10
  exact real_constant _ _ 1 ofBits_one

theorem real_main_v59 :
    IsRealV (val_main_v59 (F := Ideal)) := by
  unfold val_main_v59
  exact real_bcast _ _ _ real_main_cst_10

theorem real_main_v60 {x2 : (⟨S800000, .f32⟩ : BufTy).Contents (Elt Ideal)} (hx2 : IsRealV x2) :
    IsRealV (val_main_v60 (F := Ideal) x2) := by
  unfold val_main_v60
  exact real_concat _ _ _ _ (by
    intro p hp
    simp only [List.mem_cons, List.mem_nil_iff, or_false] at hp
    rcases hp with rfl | rfl
    · exact hx2
    · exact real_main_v59)

theorem real_main_cst_11 :
    IsRealV (val_main_cst_11 (F := Ideal)) := by
  unfold val_main_cst_11
  exact real_constant _ _ 0 ofBits_zero

theorem real_main_v61 :
    IsRealV (val_main_v61 (F := Ideal)) := by
  unfold val_main_v61
  exact real_bcast _ _ _ real_main_cst_11

theorem real_main_v63 {x1 : (⟨S2x800000, .i32⟩ : BufTy).Contents (Elt Ideal)} {x2 : (⟨S800000, .f32⟩ : BufTy).Contents (Elt Ideal)} (hx2 : IsRealV x2) :
    IsRealV (val_main_v63 (F := Ideal) x1 x2) := by
  unfold val_main_v63
  exact real_scatterAdd _ _ real_main_v61 (real_main_v60 hx2)

theorem real_main_cst_12 :
    IsRealV (val_main_cst_12 (F := Ideal)) := by
  unfold val_main_cst_12
  exact real_constant _ _ 0 ofBits_zero

theorem real_main_v64 :
    IsRealV (val_main_v64 (F := Ideal)) := by
  unfold val_main_v64
  exact real_bcast _ _ _ real_main_cst_12

theorem real_main_cst_13 :
    IsRealV (val_main_cst_13 (F := Ideal)) := by
  unfold val_main_cst_13
  exact (let ⟨r, _, h⟩ := ofBits_tiny; real_constant _ _ r h)

theorem pos_main_cst_13 :
    IsPosV (val_main_cst_13 (F := Ideal)) := by
  unfold val_main_cst_13
  exact (let ⟨r, hr, h⟩ := ofBits_tiny; pos_constant _ _ r hr h)

theorem real_main_v66 :
    IsRealV (val_main_v66 (F := Ideal)) := by
  unfold val_main_v66
  exact real_bcast _ _ _ real_main_cst_13

theorem pos_main_v66 :
    IsPosV (val_main_v66 (F := Ideal)) := by
  unfold val_main_v66
  exact pos_bcast _ _ _ pos_main_cst_13

theorem real_main_v67 {x1 : (⟨S2x800000, .i32⟩ : BufTy).Contents (Elt Ideal)} {x2 : (⟨S800000, .f32⟩ : BufTy).Contents (Elt Ideal)} (hx2 : IsRealV x2) :
    IsRealV (val_main_v67 (F := Ideal) x1 x2) := by
  unfold val_main_v67
  exact real_maximumf (real_main_v63 hx2) real_main_v66

theorem pos_main_v67 {x1 : (⟨S2x800000, .i32⟩ : BufTy).Contents (Elt Ideal)} {x2 : (⟨S800000, .f32⟩ : BufTy).Contents (Elt Ideal)} (hx2 : IsRealV x2) :
    IsPosV (val_main_v67 (F := Ideal) x1 x2) := by
  unfold val_main_v67
  exact pos_maximumf (real_main_v63 hx2) pos_main_v66

theorem real_main_v68 {x1 : (⟨S2x800000, .i32⟩ : BufTy).Contents (Elt Ideal)} {x2 : (⟨S800000, .f32⟩ : BufTy).Contents (Elt Ideal)} (hx2 : IsRealV x2) :
    IsRealV (val_main_v68 (F := Ideal) x1 x2) := by
  unfold val_main_v68
  exact real_rsqrt (pos_main_v67 hx2)

theorem real_main_cst_14 :
    IsRealV (val_main_cst_14 (F := Ideal)) := by
  unfold val_main_cst_14
  exact real_constant _ _ 0 ofBits_zero

theorem real_main_call2_v0 :
    IsRealV (val_main_call2_v0 (F := Ideal)) := by
  unfold val_main_call2_v0
  exact real_main_cst_14

theorem real_main_call2_v1 :
    IsRealV (val_main_call2_v1 (F := Ideal)) := by
  unfold val_main_call2_v1
  exact real_bcast _ _ _ real_main_call2_v0

theorem real_main_v69 {x1 : (⟨S2x800000, .i32⟩ : BufTy).Contents (Elt Ideal)} {x2 : (⟨S800000, .f32⟩ : BufTy).Contents (Elt Ideal)} (hx2 : IsRealV x2) :
    IsRealV (val_main_v69 (F := Ideal) x1 x2) := by
  unfold val_main_v69
  exact real_select _ (real_main_v68 hx2) real_main_call2_v1

theorem real_main_v76 {x1 : (⟨S2x800000, .i32⟩ : BufTy).Contents (Elt Ideal)} {x2 : (⟨S800000, .f32⟩ : BufTy).Contents (Elt Ideal)} (hx2 : IsRealV x2) :
    IsRealV (val_main_v76 (F := Ideal) x1 x2) := by
  unfold val_main_v76
  exact real_gather _ _ (real_main_v69 hx2)

theorem real_main_v77 {x1 : (⟨S2x800000, .i32⟩ : BufTy).Contents (Elt Ideal)} {x2 : (⟨S800000, .f32⟩ : BufTy).Contents (Elt Ideal)} (hx2 : IsRealV x2) :
    IsRealV (val_main_v77 (F := Ideal) x1 x2) := by
  unfold val_main_v77
  exact real_mulf (real_main_v76 hx2) (real_main_v60 hx2)

theorem real_main_v84 {x1 : (⟨S2x800000, .i32⟩ : BufTy).Contents (Elt Ideal)} {x2 : (⟨S800000, .f32⟩ : BufTy).Contents (Elt Ideal)} (hx2 : IsRealV x2) :
    IsRealV (val_main_v84 (F := Ideal) x1 x2) := by
  unfold val_main_v84
  exact real_gather _ _ (real_main_v69 hx2)

theorem real_main_v85 {x1 : (⟨S2x800000, .i32⟩ : BufTy).Contents (Elt Ideal)} {x2 : (⟨S800000, .f32⟩ : BufTy).Contents (Elt Ideal)} (hx2 : IsRealV x2) :
    IsRealV (val_main_v85 (F := Ideal) x1 x2) := by
  unfold val_main_v85
  exact real_mulf (real_main_v77 hx2) (real_main_v84 hx2)

theorem real_main_v86 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} (hx0 : IsRealV x0) (hx2 : IsRealV x2) (hx3 : IsRealV x3) (hx4 : IsRealV x4) (hx5 : IsRealV x5) :
    IsRealV (val_main_v86 (F := Ideal) x0 x1 x2 x3 x4 x5) := by
  unfold val_main_v86
  exact real_dotGeneral _ _ (real_main_v51 hx0 hx2 hx3 hx4) hx5

theorem real_main_v93 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} (hx0 : IsRealV x0) (hx2 : IsRealV x2) (hx3 : IsRealV x3) (hx4 : IsRealV x4) (hx5 : IsRealV x5) :
    IsRealV (val_main_v93 (F := Ideal) x0 x1 x2 x3 x4 x5) := by
  unfold val_main_v93
  exact real_gather _ _ (real_main_v86 hx0 hx2 hx3 hx4 hx5)

theorem real_main_v94 {x1 : (⟨S2x800000, .i32⟩ : BufTy).Contents (Elt Ideal)} {x2 : (⟨S800000, .f32⟩ : BufTy).Contents (Elt Ideal)} (hx2 : IsRealV x2) :
    IsRealV (val_main_v94 (F := Ideal) x1 x2) := by
  unfold val_main_v94
  exact real_bcast _ _ _ (real_main_v85 hx2)

theorem real_main_v95 {x1 : (⟨S2x800000, .i32⟩ : BufTy).Contents (Elt Ideal)} {x2 : (⟨S800000, .f32⟩ : BufTy).Contents (Elt Ideal)} (hx2 : IsRealV x2) :
    IsRealV (val_main_v95 (F := Ideal) x1 x2) := by
  unfold val_main_v95
  exact real_bcast _ _ _ (real_main_v94 hx2)

theorem real_main_v96 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} (hx0 : IsRealV x0) (hx2 : IsRealV x2) (hx3 : IsRealV x3) (hx4 : IsRealV x4) (hx5 : IsRealV x5) :
    IsRealV (val_main_v96 (F := Ideal) x0 x1 x2 x3 x4 x5) := by
  unfold val_main_v96
  exact real_mulf (real_main_v93 hx0 hx2 hx3 hx4 hx5) (real_main_v95 hx2)

theorem real_main_cst_21 :
    IsRealV (val_main_cst_21 (F := Ideal)) := by
  unfold val_main_cst_21
  exact real_constant _ _ 0 ofBits_zero

theorem real_main_v97 :
    IsRealV (val_main_v97 (F := Ideal)) := by
  unfold val_main_v97
  exact real_bcast _ _ _ real_main_cst_21

theorem real_main_v99 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} (hx0 : IsRealV x0) (hx2 : IsRealV x2) (hx3 : IsRealV x3) (hx4 : IsRealV x4) (hx5 : IsRealV x5) :
    IsRealV (val_main_v99 (F := Ideal) x0 x1 x2 x3 x4 x5) := by
  unfold val_main_v99
  exact real_scatterAdd _ _ real_main_v97 (real_main_v96 hx0 hx2 hx3 hx4 hx5)

theorem real_main_v100 {x6 : (⟨S256, .f32⟩ : BufTy).Contents (Elt Ideal)} (hx6 : IsRealV x6) :
    IsRealV (val_main_v100 (F := Ideal) x6) := by
  unfold val_main_v100
  exact real_bcast _ _ _ hx6

theorem real_main_v101 {x6 : (⟨S256, .f32⟩ : BufTy).Contents (Elt Ideal)} (hx6 : IsRealV x6) :
    IsRealV (val_main_v101 (F := Ideal) x6) := by
  unfold val_main_v101
  exact real_bcast _ _ _ (real_main_v100 hx6)

theorem real_main_v102 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} {x6 : (⟨S256, .f32⟩ : BufTy).Contents (Elt Ideal)} (hx0 : IsRealV x0) (hx2 : IsRealV x2) (hx3 : IsRealV x3) (hx4 : IsRealV x4) (hx5 : IsRealV x5) (hx6 : IsRealV x6) :
    IsRealV (val_main_v102 (F := Ideal) x0 x1 x2 x3 x4 x5 x6) := by
  unfold val_main_v102
  exact real_addf (real_main_v99 hx0 hx2 hx3 hx4 hx5) (real_main_v101 hx6)

theorem real_main_call3_cst :
    IsRealV (val_main_call3_cst (F := Ideal)) := by
  unfold val_main_call3_cst
  exact real_constant _ _ 0 ofBits_zero

theorem real_main_call3_v0 :
    IsRealV (val_main_call3_v0 (F := Ideal)) := by
  unfold val_main_call3_v0
  exact real_bcast _ _ _ real_main_call3_cst

theorem real_main_v103 {x0 : (⟨S50000x1024, .f32⟩ : BufTy).Contents (Elt Ideal)} {x1 : (⟨S2x800000, .i32⟩ : BufTy).Contents (Elt Ideal)} {x2 : (⟨S800000, .f32⟩ : BufTy).Contents (Elt Ideal)} {x3 : (⟨S1024x256, .f32⟩ : BufTy).Contents (Elt Ideal)} {x4 : (⟨S256, .f32⟩ : BufTy).Contents (Elt Ideal)} {x5 : (⟨S256x256, .f32⟩ : BufTy).Contents (Elt Ideal)} {x6 : (⟨S256, .f32⟩ : BufTy).Contents (Elt Ideal)} (hx0 : IsRealV x0) (hx2 : IsRealV x2) (hx3 : IsRealV x3) (hx4 : IsRealV x4) (hx5 : IsRealV x5) (hx6 : IsRealV x6) :
    IsRealV (val_main_v103 (F := Ideal) x0 x1 x2 x3 x4 x5 x6) := by
  unfold val_main_v103
  exact real_maximumf (real_main_v102 hx0 hx2 hx3 hx4 hx5 hx6) real_main_call3_v0

theorem real_main_cst_22 :
    IsRealV (val_main_cst_22 (F := Ideal)) := by
  unfold val_main_cst_22
  exact real_constant _ _ 0 ofBits_zero

/-- The second layer's output is real when the features, the edge weights and both layers' weights and biases are,
    whatever the integer edge index holds: every stage from the inputs down is one of the operations above. -/
theorem h2_real (x0 : (⟨S50000x1024, .f32⟩ : BufTy).Contents (Elt Ideal)) (x1 : (⟨S2x800000, .i32⟩ : BufTy).Contents (Elt Ideal)) (x2 : (⟨S800000, .f32⟩ : BufTy).Contents (Elt Ideal)) (x3 : (⟨S1024x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (hx0 : IsRealV x0) (hx2 : IsRealV x2) (hx3 : IsRealV x3) (hx4 : IsRealV x4) (hx5 : IsRealV x5) (hx6 : IsRealV x6) :
    IsRealV (val_main_v103 (F := Ideal) x0 x1 x2 x3 x4 x5 x6) :=
  real_main_v103 hx0 hx2 hx3 hx4 hx5 hx6

end Cert.ReferenceIdeal.RealStats
-- ==== Proof.FiniteInputs.lean ====
/-
  From the precondition of the idealized kernel to "every float argument entry is a real number".

  The precondition is the conjunction, over the float arguments, of "every entry has absolute value below plus
  infinity": an and-reduction of the entrywise comparisons. A conjunction of one-bit words that is one has both
  conjuncts one; an and-reduction over every axis that is one has a one at every entry; and an extended real whose
  absolute value is below plus infinity is neither infinity, so it is a real.
-/
import proofs.«148368_j71451075936454_1_alg».proof.Defs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.TcCoe Idealize.ShloMosaic.ValueIdx

/-- An extended real whose absolute value compares below plus infinity is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact ⟨r, rfl⟩
  | top => simp at h'

/-- One conjunct of the precondition, read back: if the and-reduction over every axis of the entrywise test
    "absolute value below plus infinity" is one, every entry of the array is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, x i = (r : EReal) :=
  -- the rank-0 result of a reduction over every axis has one index
  haveI : Subsingleton Cert.Pre_finite_inputs.S_.Idx := ⟨fun a b => funext fun d => d.elim0⟩
  real_of_abs_lt_inf (x i) (Host.reduce_andi_all _ _ hr hu ix0 e i)

/-- Under the kernel's precondition every entry of the float arguments 0, 2, 3, 4, 5 and 6 is a real number. -/
theorem inputs_real [h : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)
        : Cert.KernelIdeal.S50000x1024.Idx → EReal) i = (r : EReal))
    ∧ (∀ i, ∃ r : ℝ, (m ((c.tc : Thread Cert.KernelIdeal.nD Cert.KernelIdeal.τ).loc Cert.KernelIdeal.main_arg2)
        : Cert.KernelIdeal.S800000.Idx → EReal) i = (r : EReal))
    ∧ (∀ i, ∃ r : ℝ, (m ((c.tc : Thread Cert.KernelIdeal.nD Cert.KernelIdeal.τ).loc Cert.KernelIdeal.main_arg3)
        : Cert.KernelIdeal.S1024x256.Idx → EReal) i = (r : EReal))
    ∧ (∀ i, ∃ r : ℝ, (m ((c.tc : Thread Cert.KernelIdeal.nD Cert.KernelIdeal.τ).loc Cert.KernelIdeal.main_arg4)
        : Cert.KernelIdeal.S256.Idx → EReal) i = (r : EReal))
    ∧ (∀ i, ∃ r : ℝ, (m ((c.tc : Thread Cert.KernelIdeal.nD Cert.KernelIdeal.τ).loc Cert.KernelIdeal.main_arg5)
        : Cert.KernelIdeal.S256x256.Idx → EReal) i = (r : EReal))
    ∧ (∀ i, ∃ r : ℝ, (m ((c.tc : Thread Cert.KernelIdeal.nD Cert.KernelIdeal.τ).loc Cert.KernelIdeal.main_arg6)
        : Cert.KernelIdeal.S256.Idx → EReal) i = (r : EReal)) := by
  have e := congrFun (hpre c) ix0
  dsimp only [Cert.Pre_finite_inputs.fn, Cert.Pre_finite_inputs.fn_part1, Cert.Pre_finite_inputs.fn_part2] at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real _ _ _ _ h0, all_real _ _ _ _ h2, all_real _ _ _ _ h3, all_real _ _ _ _ h4, all_real _ _ _ _ h5,
    all_real _ _ _ _ h6⟩

end Cert.FiniteInputs

end
-- ==== Proof.Bridge.lean ====
/-
  The idealized kernel's result is the reference's.

  The final memory of core `c` is the fold `Gen.W11` of the launch memory through six host stretches and five regions.
  Walking the fold from the launch: the edge lists and coefficients are the reference's own stages; the first region's
  matmul is the reference's product `x · W1`; the aggregation of it is the reference's; the second region adds the bias
  and clamps at zero, the reference's first layer; the third region is the product with `W2`; its aggregation, bias
  and clamp (the fourth region) give the reference's second layer `h2` together with the column sums of `h2` and of its
  squares.  From the sums the host forms the batch mean, which is the reference's, and the batch variance as the mean
  square less the squared mean, which is the reference's mean of squared deviations BECAUSE every entry of `h2` is a
  real number — and that holds because every float argument is finite.  The last region normalises each row over the
  batch statistics and then over the row itself, exactly as the reference does.
-/
import proofs.«148368_j71451075936454_1_alg».proof.Proof.Fold
import proofs.«148368_j71451075936454_1_alg».proof.Proof.AggRef
import proofs.«148368_j71451075936454_1_alg».proof.Proof.RegionLinksA
import proofs.«148368_j71451075936454_1_alg».proof.Proof.RegionLinksB
import proofs.«148368_j71451075936454_1_alg».proof.Proof.RefStages
import proofs.«148368_j71451075936454_1_alg».proof.Proof.RegionNorms
import proofs.«148368_j71451075936454_1_alg».proof.Proof.RealStats
import proofs.«148368_j71451075936454_1_alg».proof.Proof.FiniteInputs

set_option maxRecDepth 16384

noncomputable section

namespace Cert.KernelIdeal.Bridge

open Cert.KernelIdeal Cert.KernelIdeal.Gen Cert.KernelIdeal.Fold
open Idealize.ShloMosaic Idealize.ShloMosaic.TcCoe Idealize.SL.Sem Idealize.ShloMosaic.ValueIdx
open Cert.ReferenceIdeal.ReadP

variable (m : (ℓ : Loc nD τ sig) → Buf (Elt Ideal) ℓ) (ρ : Dev nD → PrngReg) (c : Dev nD)

/-! ## The first layer -/

set_option maxHeartbeats 2000000 in
/-- After the first region: the product of the node features with the first layer's weights. -/
theorem W4_mm : W4 m ρ c (Proc.devRef .tc main_v36) = val_main_v34 (F := Ideal) (m ((c : Thread nD τ).loc main_arg0)) (m ((c : Thread nD τ).loc main_arg3)) :=
  (W4_arr m ρ c 2).trans (RegionLinksA.link0 (V3 m ρ) c _ _ (W3_x m ρ c) (W3_w1 m ρ c))

set_option maxHeartbeats 2000000 in
/-- Its aggregation over the edges is the reference's. -/
theorem W5_agg1 : W5 m ρ c (Proc.devRef .tc main_v49) = val_main_v47 (F := Ideal) (m ((c : Thread nD τ).loc main_arg0)) (m ((c : Thread nD τ).loc main_arg1)) (m ((c : Thread nD τ).loc main_arg2)) (m ((c : Thread nD τ).loc main_arg3)) := by
  rw [W5_agg, W4_mm, keep_main_v5_3_4, keep_main_v6_3_4, keep_main_v33_3_4, W3_src, W3_dst, W3_nrm]
  exact (AggRef.ref_agg1 _ _ _ _).symm

set_option maxHeartbeats 2000000 in
/-- After the second region: the first layer's output `h1`. -/
theorem W6_h1 : W6 m ρ c (Proc.devRef .tc main_v51) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans (RegionLinksA.link1 (V5 m ρ) c _ _ _ _ _ (W5_agg1 m ρ c) (W5_bias m ρ c))

/-- The second layer's weights at the third region's entry. -/
theorem W6_w2 : W6 m ρ c (Proc.devRef .tc main_v35) = truncf (F := Ideal) (s := S256x256) (φ := .f32) .bf16 (m ((c : Thread nD τ).loc main_arg5)) bitsLt_bf16_f32 :=
  (keep_main_v35_3_6 m ρ c).trans (W3_w2 m ρ c)

/-! ## The second layer -/

set_option maxHeartbeats 2000000 in
/-- After the third region: the product of `h1` with the second layer's weights. -/
theorem W7_mm : W7 m ρ c (Proc.devRef .tc main_v52) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans (RegionLinksA.link2 (V6 m ρ) c _ _ _ _ _ _ (W6_h1 m ρ c) (W6_w2 m ρ c))

set_option maxHeartbeats 2000000 in
/-- Its aggregation over the edges is the reference's (which recomputes the edge lists and coefficients, to the same values). -/
theorem W8_agg2 : W8 m ρ c (Proc.devRef .tc main_v65) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W8_agg, W7_mm, keep_main_v5_3_7, keep_main_v6_3_7, keep_main_v33_3_7, W3_src, W3_dst, W3_nrm,
    ← Cert.ReferenceIdeal.RefStages.ref_src2, ← Cert.ReferenceIdeal.RefStages.ref_dst2, ← Cert.ReferenceIdeal.RefStages.ref_nrm2]
  exact (AggRef.ref_agg2 _ _ _ _ _ _).symm

set_option maxHeartbeats 2000000 in
/-- After the fourth region: the second layer's output `h2`. -/
theorem W9_h2 : W9 m ρ c (Proc.devRef .tc main_v67_0) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans (RegionLinksB.link3_h (V8 m ρ) c _ _ _ _ _ _ _ (W8_agg2 m ρ c) (W8_bias m ρ c))

set_option maxHeartbeats 2000000 in
/-- The column sums of `h2` the fourth region accumulated over its fifty row tiles. -/
theorem W9_sum (j : Fin 256) : (W9 m ρ c (Proc.devRef .tc main_v67_1) : S1x256.Idx → Elt Ideal .f32) (ix2 (0 : Fin 1) j)
    = ∑ i : Fin 50000, val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i j) :=
  (congrFun (W9_arr m ρ c 3) (ix2 (0 : Fin 1) j)).trans
    (RegionLinksB.link3_sum (V8 m ρ) c _ _ _ _ _ _ _ (W8_agg2 m ρ c) (W8_bias m ρ c) j)

set_option maxHeartbeats 2000000 in
/-- The column sums of the squares. -/
theorem W9_sq (j : Fin 256) : (W9 m ρ c (Proc.devRef .tc main_v67_2) : S1x256.Idx → Elt Ideal .f32) (ix2 (0 : Fin 1) j)
    = ∑ i : Fin 50000, val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i j)
        * val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i j) :=
  (congrFun (W9_arr m ρ c 4) (ix2 (0 : Fin 1) j)).trans
    (RegionLinksB.link3_sq (V8 m ρ) c _ _ _ _ _ _ _ (W8_agg2 m ρ c) (W8_bias m ρ c) j)

/-! ## The batch statistics -/

/-- `h2` at the last region's entry. -/
theorem W10_h2 : W10 m ρ c (Proc.devRef .tc main_v67_0) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep_main_v67_0_9_10 m ρ c).trans (W9_h2 m ρ c)

/-- The batch mean is the reference's. -/
theorem W10_mu (j : Fin 256) : (W10 m ρ c (Proc.devRef .tc main_v69) : S1x256.Idx → Elt Ideal .f32) (ix2 (0 : Fin 1) j)
    = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix1 j) := by
  rw [W10_mean, AggRef.meanOf_apply, W9_sum]
  exact Cert.ReferenceIdeal.RealStats.stats_bridge_mean _ _ _ _ _ _ _ j

/-- The batch variance — the mean square less the squared mean — is the reference's mean of squared deviations, `h2` being real. -/
theorem W10_sigma (hreal : Cert.ReferenceIdeal.RealStats.IsRealV (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))))
    (j : Fin 256) : (W10 m ρ c (Proc.devRef .tc main_v73) : S1x256.Idx → Elt Ideal .f32) (ix2 (0 : Fin 1) j)
    = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix1 j) := by
  rw [W10_var, AggRef.varOf_apply, W9_sum, W9_sq]
  exact Cert.ReferenceIdeal.RealStats.stats_bridge_var _ _ _ _ _ _ _ hreal j

/-! ## The result -/

set_option maxHeartbeats 2000000 in
/-- THE KERNEL'S RESULT IS THE REFERENCE'S, under the precondition that every float argument is finite. -/
theorem kernel_value [h : Cert.Pre_finite_inputs.Facts] (hpre : Cert.Pre_KernelIdeal m) :
    W11 m ρ c (Proc.devRef .tc main_v78) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨r0, r2, r3, r4, r5, r6⟩ := Cert.FiniteInputs.inputs_real m hpre c
  have hreal := Cert.ReferenceIdeal.RealStats.h2_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r0 r2 r3 r4 r5 r6
  funext idx
  obtain ⟨i, j, rfl⟩ : ∃ (i : Fin 50000) (j : Fin 256), idx = ix2 i j := ⟨idx 0, idx 1, eq_ix2 idx⟩
  refine (congrFun (W11_arr m ρ c 7) (ix2 i j)).trans ?_
  exact RegionNorms.final4_eq_ref (V10 m ρ) c _ _ _ _ _ _ _ _ _ _ _
    (fun i j => congrFun (W10_h2 m ρ c) (ix2 i j)) (W10_mu m ρ c) (W10_sigma m ρ c hreal)
    (W10_main_v74 m ρ c) (W10_main_v75 m ρ c) (W10_main_v76 m ρ c) (W10_main_v77 m ρ c) i j

end Cert.KernelIdeal.Bridge

end
-- ==== Proof.lean ====
/-
  A two-layer graph convolution followed by a batch normalisation and a layer normalisation, as five tiled kernels
  around host-side edge aggregations, against its plain reference — equal over the extended reals whenever every float
  argument is finite.

  Both programs compute, for node features `x`, an edge list with weights and two weight matrices,
  `h1 = max(A(x·W1) + b1, 0)` and `h2 = max(A(h1·W2) + b2, 0)`, where `A` gathers each edge's source row, scales it by the
  symmetric degree coefficient of the edge and adds it into the edge's target row.  The kernel forms the two products
  and the two bias-and-clamp steps tile by tile (row tiles of a thousand rows), which at exact arithmetic is the
  whole-array product and the whole-array pointwise step; the aggregations are the same host operations in both programs.
  The kernel accumulates, tile by tile, the column sums of `h2` and of its squares and takes the batch variance as the
  mean square less the squared mean; the reference takes the mean of the squared deviations from the mean.  The two agree
  on real numbers and `h2` is real because every float argument is; this is the one place the precondition is used.
  The last kernel normalises each row over the batch statistics and then over the row itself, in the reference's order
  of operations.

  The three frames are the runs' own termination statements; the idealization rewrote nothing, so there is nothing to
  preserve beyond the text itself.
-/
import proofs.«148368_j71451075936454_1_alg».proof.Defs
import proofs.«148368_j71451075936454_1_alg».proof.Proof.Gen.Kernel
import proofs.«148368_j71451075936454_1_alg».proof.Proof.Gen.KernelIdeal
import proofs.«148368_j71451075936454_1_alg».proof.Proof.Gen.ReferenceIdeal
import proofs.«148368_j71451075936454_1_alg».proof.Proof.Gen.Pre_finite_inputs
import proofs.«148368_j71451075936454_1_alg».proof.Proof.Claims
import proofs.«148368_j71451075936454_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves,
    Claims.algebraic fun m ρ hpre c => Cert.KernelIdeal.Bridge.kernel_value m ρ c hpre⟩

end Cert.Proof

end
